-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S73216 : Shape := ⟨1, ![73216]⟩
abbrev S2816 : Shape := ⟨1, ![2816]⟩
abbrev S2816x73216 : Shape := ⟨2, ![2816, 73216]⟩
abbrev S256 : Shape := ⟨1, ![256]⟩
abbrev S256x2816 : Shape := ⟨2, ![256, 2816]⟩
abbrev S200000x256 : Shape := ⟨2, ![200000, 256]⟩
abbrev S512x256 : Shape := ⟨2, ![512, 256]⟩
abbrev S256x64 : Shape := ⟨2, ![256, 64]⟩
abbrev S64 : Shape := ⟨1, ![64]⟩
abbrev S64x64 : Shape := ⟨2, ![64, 64]⟩
abbrev S64x8 : Shape := ⟨2, ![64, 8]⟩
abbrev S8 : Shape := ⟨1, ![8]⟩
abbrev S_ : Shape := ⟨0, ![]⟩

class Facts : Prop where
  bcast_S_S2816x73216 : S_.BroadcastsInDim S2816x73216 (![] : Fin 0 → Fin S2816x73216.rank)
  reducesTo_S2816x73216_S_d0_1 : S2816x73216.ReducesTo [0, 1] S_
  h_S_ : 0 < S_.numel
  bcast_S_S256x2816 : S_.BroadcastsInDim S256x2816 (![] : Fin 0 → Fin S256x2816.rank)
  reducesTo_S256x2816_S_d0_1 : S256x2816.ReducesTo [0, 1] S_
  bcast_S_S200000x256 : S_.BroadcastsInDim S200000x256 (![] : Fin 0 → Fin S200000x256.rank)
  reducesTo_S200000x256_S_d0_1 : S200000x256.ReducesTo [0, 1] S_
  bcast_S_S512x256 : S_.BroadcastsInDim S512x256 (![] : Fin 0 → Fin S512x256.rank)
  reducesTo_S512x256_S_d0_1 : S512x256.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x8 : S_.BroadcastsInDim S64x8 (![] : Fin 0 → Fin S64x8.rank)
  reducesTo_S64x8_S_d0_1 : S64x8.ReducesTo [0, 1] S_
  bcast_S_S8 : S_.BroadcastsInDim S8 (![] : Fin 0 → Fin S8.rank)
  reducesTo_S8_S_d0 : S8.ReducesTo [0] S_

variable [Facts]

def fn_part3 {F : FTy → Type} [FloatOps F] (main_v48 : IVec S_ 1) (main_v49 : FVec F S8 .f32) (main_v50 : FVec F S8 .f32) : IVec S_ 1 :=
  let main_v51 : IVec S8 1 := cmpf .olt main_v49 main_v50
  let main_c_19 : IVec S_ 1 := constantI S_ 1 1#1
  let main_v52 : IVec S_ 1 := (fun x v => Host.reduce IntOp.andi x v reducesTo_S8_S_d0 h_S_) main_v51 main_c_19
  let main_v53 : IVec S_ 1 := andi main_v48 main_v52
  main_v53

def fn_part2 {F : FTy → Type} [FloatOps F] (main_arg12 : FVec F S64x64 .f32) (main_arg13 : FVec F S64 .f32) (main_arg14 : FVec F S64x8 .f32) (main_arg15 : FVec F S8 .f32) (main_v33 : IVec S_ 1) : IVec S_ 1 :=
  let main_v34 : FVec F S64x64 .f32 := Host.absf main_arg12
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg13
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x8 .f32 := Host.absf main_arg14
  let main_cst_16 : FVec F S_ .f32 := constant S_ .f32 0x7F800000#32
  let main_v45 : FVec F S64x8 .f32 := broadcastInDim S64x8 ![] bcast_S_S64x8 main_cst_16
  let main_v46 : IVec S64x8 1 := cmpf .olt main_v44 main_v45
  let main_c_17 : IVec S_ 1 := constantI S_ 1 1#1
  let main_v47 : IVec S_ 1 := (fun x v => Host.reduce IntOp.andi x v reducesTo_S64x8_S_d0_1 h_S_) main_v46 main_c_17
  let main_v48 : IVec S_ 1 := andi main_v43 main_v47
  let main_v49 : FVec F S8 .f32 := Host.absf main_arg15
  let main_cst_18 : FVec F S_ .f32 := constant S_ .f32 0x7F800000#32
  let main_v50 : FVec F S8 .f32 := broadcastInDim S8 ![] bcast_S_S8 main_cst_18
  fn_part3 (F := F) main_v48 main_v49 main_v50

def fn_part1 {F : FTy → Type} [FloatOps F] (main_arg9 : FVec F S512x256 .f32) (main_arg10 : FVec F S256x64 .f32) (main_arg11 : FVec F S64 .f32) (main_arg12 : FVec F S64x64 .f32) (main_arg13 : FVec F S64 .f32) (main_arg14 : FVec F S64x8 .f32) (main_arg15 : FVec F S8 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S512x256 .f32 := Host.absf main_arg9
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256x64 .f32 := Host.absf main_arg10
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg11
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg12 main_arg13 main_arg14 main_arg15 main_v33

def fn {F : FTy → Type} [FloatOps F] (main_arg0 : IVec S73216 32) (main_arg1 : IVec S73216 32) (main_arg2 : IVec S2816 32) (main_arg3 : FVec F S2816x73216 .f32) (main_arg4 : IVec S2816 32) (main_arg5 : IVec S256 32) (main_arg6 : FVec F S256x2816 .f32) (main_arg7 : FVec F S200000x256 .f32) (main_arg8 : FVec F S512x256 .f32) (main_arg9 : FVec F S512x256 .f32) (main_arg10 : FVec F S256x64 .f32) (main_arg11 : FVec F S64 .f32) (main_arg12 : FVec F S64x64 .f32) (main_arg13 : FVec F S64 .f32) (main_arg14 : FVec F S64x8 .f32) (main_arg15 : FVec F S8 .f32) : IVec S_ 1 :=
  let main_v0 : FVec F S2816x73216 .f32 := Host.absf main_arg3
  let main_cst : FVec F S_ .f32 := constant S_ .f32 0x7F800000#32
  let main_v1 : FVec F S2816x73216 .f32 := broadcastInDim S2816x73216 ![] bcast_S_S2816x73216 main_cst
  let main_v2 : IVec S2816x73216 1 := cmpf .olt main_v0 main_v1
  let main_c : IVec S_ 1 := constantI S_ 1 1#1
  let main_v3 : IVec S_ 1 := (fun x v => Host.reduce IntOp.andi x v reducesTo_S2816x73216_S_d0_1 h_S_) main_v2 main_c
  let main_v4 : FVec F S256x2816 .f32 := Host.absf main_arg6
  let main_cst_0 : FVec F S_ .f32 := constant S_ .f32 0x7F800000#32
  let main_v5 : FVec F S256x2816 .f32 := broadcastInDim S256x2816 ![] bcast_S_S256x2816 main_cst_0
  let main_v6 : IVec S256x2816 1 := cmpf .olt main_v4 main_v5
  let main_c_1 : IVec S_ 1 := constantI S_ 1 1#1
  let main_v7 : IVec S_ 1 := (fun x v => Host.reduce IntOp.andi x v reducesTo_S256x2816_S_d0_1 h_S_) main_v6 main_c_1
  let main_v8 : IVec S_ 1 := andi main_v3 main_v7
  let main_v9 : FVec F S200000x256 .f32 := Host.absf main_arg7
  let main_cst_2 : FVec F S_ .f32 := constant S_ .f32 0x7F800000#32
  let main_v10 : FVec F S200000x256 .f32 := broadcastInDim S200000x256 ![] bcast_S_S200000x256 main_cst_2
  let main_v11 : IVec S200000x256 1 := cmpf .olt main_v9 main_v10
  let main_c_3 : IVec S_ 1 := constantI S_ 1 1#1
  let main_v12 : IVec S_ 1 := (fun x v => Host.reduce IntOp.andi x v reducesTo_S200000x256_S_d0_1 h_S_) main_v11 main_c_3
  let main_v13 : IVec S_ 1 := andi main_v8 main_v12
  let main_v14 : FVec F S512x256 .f32 := Host.absf main_arg8
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg9 main_arg10 main_arg11 main_arg12 main_arg13 main_arg14 main_arg15 main_v13 main_v16
-- ==== Kernel.lean ====
abbrev S73216 : Shape := ⟨1, ![73216]⟩
abbrev S2816 : Shape := ⟨1, ![2816]⟩
abbrev S2816x73216 : Shape := ⟨2, ![2816, 73216]⟩
abbrev S256 : Shape := ⟨1, ![256]⟩
abbrev S256x2816 : Shape := ⟨2, ![256, 2816]⟩
abbrev S200000x256 : Shape := ⟨2, ![200000, 256]⟩
abbrev S512x256 : Shape := ⟨2, ![512, 256]⟩
abbrev S256x64 : Shape := ⟨2, ![256, 64]⟩
abbrev S64 : Shape := ⟨1, ![64]⟩
abbrev S64x64 : Shape := ⟨2, ![64, 64]⟩
abbrev S64x8 : Shape := ⟨2, ![64, 8]⟩
abbrev S8 : Shape := ⟨1, ![8]⟩
abbrev S_ : Shape := ⟨0, ![]⟩
abbrev S73216x1 : Shape := ⟨2, ![73216, 1]⟩
abbrev S2816x1 : Shape := ⟨2, ![2816, 1]⟩
abbrev S73216x256 : Shape := ⟨2, ![73216, 256]⟩
abbrev S2816x256 : Shape := ⟨2, ![2816, 256]⟩
abbrev S256x256 : Shape := ⟨2, ![256, 256]⟩
abbrev S1408x1664 : Shape := ⟨2, ![1408, 1664]⟩
abbrev S1664x256 : Shape := ⟨2, ![1664, 256]⟩
abbrev S1408x256 : Shape := ⟨2, ![1408, 256]⟩
abbrev S256x1 : Shape := ⟨2, ![256, 1]⟩
abbrev S1x64 : Shape := ⟨2, ![1, 64]⟩
abbrev S1x8 : Shape := ⟨2, ![1, 8]⟩
abbrev S256x8 : Shape := ⟨2, ![256, 8]⟩
abbrev S128x2816 : Shape := ⟨2, ![128, 2816]⟩
abbrev S128x256 : Shape := ⟨2, ![128, 256]⟩
abbrev S128x8 : Shape := ⟨2, ![128, 8]⟩
abbrev S128 : Shape := ⟨1, ![128]⟩
abbrev S128x1 : Shape := ⟨2, ![128, 1]⟩
abbrev S128x64 : Shape := ⟨2, ![128, 64]⟩

abbrev nBuf : Space → Nat
  | .hbm => 79
  | .vmem => 26
  | .smem => 0
  | _ => 0

abbrev bufTy : (tb : Table) → Fin (tcTables nBuf tb) → BufTy
  | .hbm, ⟨0, _⟩ => ⟨S73216, .i32⟩
  | .hbm, ⟨1, _⟩ => ⟨S73216, .i32⟩
  | .hbm, ⟨2, _⟩ => ⟨S2816, .i32⟩
  | .hbm, ⟨3, _⟩ => ⟨S2816x73216, .f32⟩
  | .hbm, ⟨4, _⟩ => ⟨S2816, .i32⟩
  | .hbm, ⟨5, _⟩ => ⟨S256, .i32⟩
  | .hbm, ⟨6, _⟩ => ⟨S256x2816, .f32⟩
  | .hbm, ⟨7, _⟩ => ⟨S200000x256, .f32⟩
  | .hbm, ⟨8, _⟩ => ⟨S512x256, .f32⟩
  | .hbm, ⟨9, _⟩ => ⟨S512x256, .f32⟩
  | .hbm, ⟨10, _⟩ => ⟨S256x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x8, .f32⟩
  | .hbm, ⟨15, _⟩ => ⟨S8, .f32⟩
  | .hbm, ⟨16, _⟩ => ⟨S_, .i32⟩
  | .hbm, ⟨17, _⟩ => ⟨S73216, .i32⟩
  | .hbm, ⟨18, _⟩ => ⟨S73216, .i1⟩
  | .hbm, ⟨19, _⟩ => ⟨S_, .i32⟩
  | .hbm, ⟨20, _⟩ => ⟨S73216, .i32⟩
  | .hbm, ⟨21, _⟩ => ⟨S73216, .i32⟩
  | .hbm, ⟨22, _⟩ => ⟨S73216, .i32⟩
  | .hbm, ⟨23, _⟩ => ⟨S73216x1, .i32⟩
  | .hbm, ⟨24, _⟩ => ⟨S73216, .i32⟩
  | .hbm, ⟨25, _⟩ => ⟨S_, .i32⟩
  | .hbm, ⟨26, _⟩ => ⟨S2816, .i32⟩
  | .hbm, ⟨27, _⟩ => ⟨S2816, .i1⟩
  | .hbm, ⟨28, _⟩ => ⟨S_, .i32⟩
  | .hbm, ⟨29, _⟩ => ⟨S2816, .i32⟩
  | .hbm, ⟨30, _⟩ => ⟨S2816, .i32⟩
  | .hbm, ⟨31, _⟩ => ⟨S2816, .i32⟩
  | .hbm, ⟨32, _⟩ => ⟨S2816x1, .i32⟩
  | .hbm, ⟨33, _⟩ => ⟨S2816, .i32⟩
  | .hbm, ⟨34, _⟩ => ⟨S_, .i32⟩
  | .hbm, ⟨35, _⟩ => ⟨S73216, .i32⟩
  | .hbm, ⟨36, _⟩ => ⟨S73216, .i1⟩
  | .hbm, ⟨37, _⟩ => ⟨S_, .i32⟩
  | .hbm, ⟨38, _⟩ => ⟨S73216, .i32⟩
  | .hbm, ⟨39, _⟩ => ⟨S73216, .i32⟩
  | .hbm, ⟨40, _⟩ => ⟨S73216, .i32⟩
  | .hbm, ⟨41, _⟩ => ⟨S73216x1, .i32⟩
  | .hbm, ⟨42, _⟩ => ⟨S73216x256, .f32⟩
  | .hbm, ⟨43, _⟩ => ⟨S_, .i32⟩
  | .hbm, ⟨44, _⟩ => ⟨S2816, .i32⟩
  | .hbm, ⟨45, _⟩ => ⟨S2816, .i1⟩
  | .hbm, ⟨46, _⟩ => ⟨S_, .i32⟩
  | .hbm, ⟨47, _⟩ => ⟨S2816, .i32⟩
  | .hbm, ⟨48, _⟩ => ⟨S2816, .i32⟩
  | .hbm, ⟨49, _⟩ => ⟨S2816, .i32⟩
  | .hbm, ⟨50, _⟩ => ⟨S2816x1, .i32⟩
  | .hbm, ⟨51, _⟩ => ⟨S2816x256, .f32⟩
  | .hbm, ⟨52, _⟩ => ⟨S256x256, .f32⟩
  | .hbm, ⟨53, _⟩ => ⟨S256x256, .f32⟩
  | .hbm, ⟨54, _⟩ => ⟨S2816x256, .f32⟩
  | .hbm, ⟨55, _⟩ => ⟨S_, .i32⟩
  | .hbm, ⟨56, _⟩ => ⟨S2816, .i32⟩
  | .hbm, ⟨57, _⟩ => ⟨S2816, .i1⟩
  | .hbm, ⟨58, _⟩ => ⟨S_, .i32⟩
  | .hbm, ⟨59, _⟩ => ⟨S2816, .i32⟩
  | .hbm, ⟨60, _⟩ => ⟨S2816, .i32⟩
  | .hbm, ⟨61, _⟩ => ⟨S2816, .i32⟩
  | .hbm, ⟨62, _⟩ => ⟨S2816x1, .i32⟩
  | .hbm, ⟨63, _⟩ => ⟨S2816x256, .f32⟩
  | .hbm, ⟨64, _⟩ => ⟨S_, .i32⟩
  | .hbm, ⟨65, _⟩ => ⟨S256, .i32⟩
  | .hbm, ⟨66, _⟩ => ⟨S256, .i1⟩
  | .hbm, ⟨67, _⟩ => ⟨S_, .i32⟩
  | .hbm, ⟨68, _⟩ => ⟨S256, .i32⟩
  | .hbm, ⟨69, _⟩ => ⟨S256, .i32⟩
  | .hbm, ⟨70, _⟩ => ⟨S256, .i32⟩
  | .hbm, ⟨71, _⟩ => ⟨S256x1, .i32⟩
  | .hbm, ⟨72, _⟩ => ⟨S256x256, .f32⟩
  | .hbm, ⟨73, _⟩ => ⟨S256x256, .f32⟩
  | .hbm, ⟨74, _⟩ => ⟨S256x256, .f32⟩
  | .hbm, ⟨75, _⟩ => ⟨S1x64, .f32⟩
  | .hbm, ⟨76, _⟩ => ⟨S1x64, .f32⟩
  | .hbm, ⟨77, _⟩ => ⟨S1x8, .f32⟩
  | .hbm, ⟨78, _⟩ => ⟨S256x8, .f32⟩
  | .local _ .vmem, ⟨0, _⟩ => ⟨S1408x1664, .f32⟩
  | .local _ .vmem, ⟨1, _⟩ => ⟨S1408x1664, .f32⟩
  | .local _ .vmem, ⟨2, _⟩ => ⟨S1664x256, .f32⟩
  | .local _ .vmem, ⟨3, _⟩ => ⟨S1664x256, .f32⟩
  | .local _ .vmem, ⟨4, _⟩ => ⟨S1408x256, .f32⟩
  | .local _ .vmem, ⟨5, _⟩ => ⟨S1408x256, .f32⟩
  | .local _ .vmem, ⟨6, _⟩ => ⟨S256x256, .f32⟩
  | .local _ .vmem, ⟨7, _⟩ => ⟨S256x256, .f32⟩
  | .local _ .vmem, ⟨8, _⟩ => ⟨S1408x256, .f32⟩
  | .local _ .vmem, ⟨9, _⟩ => ⟨S1408x256, .f32⟩
  | .local _ .vmem, ⟨10, _⟩ => ⟨S1408x256, .f32⟩
  | .local _ .vmem, ⟨11, _⟩ => ⟨S128x2816, .f32⟩
  | .local _ .vmem, ⟨12, _⟩ => ⟨S128x2816, .f32⟩
  | .local _ .vmem, ⟨13, _⟩ => ⟨S2816x256, .f32⟩
  | .local _ .vmem, ⟨14, _⟩ => ⟨S128x256, .f32⟩
  | .local _ .vmem, ⟨15, _⟩ => ⟨S128x256, .f32⟩
  | .local _ .vmem, ⟨16, _⟩ => ⟨S256x256, .f32⟩
  | .local _ .vmem, ⟨17, _⟩ => ⟨S256x256, .f32⟩
  | .local _ .vmem, ⟨18, _⟩ => ⟨S256x64, .f32⟩
  | .local _ .vmem, ⟨19, _⟩ => ⟨S1x64, .f32⟩
  | .local _ .vmem, ⟨20, _⟩ => ⟨S64x64, .f32⟩
  | .local _ .vmem, ⟨21, _⟩ => ⟨S1x64, .f32⟩
  | .local _ .vmem, ⟨22, _⟩ => ⟨S64x8, .f32⟩
  | .local _ .vmem, ⟨23, _⟩ => ⟨S1x8, .f32⟩
  | .local _ .vmem, ⟨24, _⟩ => ⟨S128x8, .f32⟩
  | .local _ .vmem, ⟨25, _⟩ => ⟨S128x8, .f32⟩
  | _, _ => ⟨S73216, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_1 : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c_3 : Ref sig .tc := ⟨.hbm, 34, rfl⟩
abbrev main_v14 : Ref sig .tc := ⟨.hbm, 35, rfl⟩
abbrev main_v15 : Ref sig .tc := ⟨.hbm, 36, rfl⟩
abbrev main_c_4 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_5 : Ref sig .tc := ⟨.hbm, 43, rfl⟩
abbrev main_v21 : Ref sig .tc := ⟨.hbm, 44, rfl⟩
abbrev main_v22 : Ref sig .tc := ⟨.hbm, 45, rfl⟩
abbrev main_c_6 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_7 : Ref sig .tc := ⟨.hbm, 55, rfl⟩
abbrev main_v31 : Ref sig .tc := ⟨.hbm, 56, rfl⟩
abbrev main_v32 : Ref sig .tc := ⟨.hbm, 57, rfl⟩
abbrev main_c_8 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_9 : Ref sig .tc := ⟨.hbm, 64, rfl⟩
abbrev main_v38 : Ref sig .tc := ⟨.hbm, 65, rfl⟩
abbrev main_v39 : Ref sig .tc := ⟨.hbm, 66, rfl⟩
abbrev main_c_10 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg10_0 : Ref sig .tc := ⟨.vmem, 23, rfl⟩
abbrev cc1_stg11_0 : Ref sig .tc := ⟨.vmem, 24, rfl⟩
abbrev cc1_stg11_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem11_0 : DmaSem sig := 23
abbrev cc1_sem11_1 : DmaSem sig := 24

abbrev nD : Nat := 1
abbrev τ : Topo := Topo.v7x

variable {F : FTy → Type} [FloatOps F]

abbrev grid0 : Pipeline.Grid := ⟨2, ![2, 44], ![false, false]⟩

def k0_cond2 (i : grid0.Coords) : BitVec 1 :=
  let arg1 : BitVec 32 := BitVec.ofNat 32 (i 1).val
  let c43_i32 : BitVec 32 := 43#32
  let v14 : BitVec 1 := Scalar.cmpi .eq arg1 c43_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1408x1664 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1664x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1408x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x2816 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2816x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64x8 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x8 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S128x8 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  bcast_S_S73216 : S_.BroadcastsInDim S73216 (![] : Fin 0 → Fin S73216.rank)
  bcast_S73216_S73216x1_0 : S73216.BroadcastsInDim S73216x1 (![0] : Fin 1 → Fin S73216x1.rank)
  bcast_S_S2816 : S_.BroadcastsInDim S2816 (![] : Fin 0 → Fin S2816.rank)
  bcast_S2816_S2816x1_0 : S2816.BroadcastsInDim S2816x1 (![0] : Fin 1 → Fin S2816x1.rank)
  slices_S512x256_S256x256_0_0 : S512x256.Slices ![0, 0] S256x256
  slices_S512x256_S256x256_256_0 : S512x256.Slices ![256, 0] S256x256
  inb_S1408x256_S1408x256_0_0 : ∀ a, (![0, 0] : Fin 2 → Nat) a + S1408x256.size a ≤ S1408x256.size a
  h_S1408x256 : 0 < S1408x256.numel
  shapeCasts_S1408x256_S1408x256 : S1408x256.ShapeCasts S1408x256
  inb_S1408x1664_S1408x1664_0_0 : ∀ a, (![0, 0] : Fin 2 → Nat) a + S1408x1664.size a ≤ S1408x1664.size a
  h_S1408x1664 : 0 < S1408x1664.numel
  bitsLt_bf16_f32 : FTy.bits .bf16 < FTy.bits .f32
  inb_S1664x256_S1664x256_0_0 : ∀ a, (![0, 0] : Fin 2 → Nat) a + S1664x256.size a ≤ S1664x256.size a
  h_S1664x256 : 0 < S1664x256.numel
  shapeCasts_S1664x256_S1664x256 : S1664x256.ShapeCasts S1664x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S_S256 : S_.BroadcastsInDim S256 (![] : Fin 0 → Fin S256.rank)
  bcast_S256_S256x1_0 : S256.BroadcastsInDim S256x1 (![0] : Fin 1 → Fin S256x1.rank)
  shapeCasts_S64_S1x64 : S64.ShapeCasts S1x64
  shapeCasts_S8_S1x8 : S8.ShapeCasts S1x8
  inb_S128x2816_S128x2816_0_0 : ∀ a, (![0, 0] : Fin 2 → Nat) a + S128x2816.size a ≤ S128x2816.size a
  h_S128x2816 : 0 < S128x2816.numel
  inb_S2816x256_S2816x256_0_0 : ∀ a, (![0, 0] : Fin 2 → Nat) a + S2816x256.size a ≤ S2816x256.size a
  h_S2816x256 : 0 < S2816x256.numel
  shapeCasts_S2816x256_S2816x256 : S2816x256.ShapeCasts S2816x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  reduces_S128x256_S128 : S128x256.Reduces [1] S128
  shapeCasts_S128_S128x1 : S128.ShapeCasts S128x1
  broadcasts_S128x1_S128x256 : S128x1.Broadcasts S128x256
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S128x64 : S1x64.Broadcasts S128x64
  inb_S64x64_S64x64_0_0 : ∀ a, (![0, 0] : Fin 2 → Nat) a + S64x64.size a ≤ S64x64.size a
  h_S64x64 : 0 < S64x64.numel
  inb_S64x8_S64x8_0_0 : ∀ a, (![0, 0] : Fin 2 → Nat) a + S64x8.size a ≤ S64x8.size a
  h_S64x8 : 0 < S64x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S128x8 : S1x8.Broadcasts S128x8
  inb_S128x8_S128x8_0_0 : ∀ a, (![0, 0] : Fin 2 → Nat) a + S128x8.size a ≤ S128x8.size a
  h_S128x8 : 0 < S128x8.numel
  gather_S73216_S73216x1_S73216_n_0_n_n_0_1_1_wf : GatherDims.WF S73216 S73216x1 S73216 [] [0] [] [0] [] 1 ![1]
  gather_S73216_S2816x1_S2816_n_0_n_n_0_1_1_wf : GatherDims.WF S73216 S2816x1 S2816 [] [0] [] [0] [] 1 ![1]
  gather_S200000x256_S73216x1_S73216x256_1_0_n_n_0_1_1256_wf : GatherDims.WF S200000x256 S73216x1 S73216x256 [1] [0] [] [0] [] 1 ![1, 256]
  gather_S200000x256_S2816x1_S2816x256_1_0_n_n_0_1_1256_wf : GatherDims.WF S200000x256 S2816x1 S2816x256 [1] [0] [] [0] [] 1 ![1, 256]
  dot_S1408x1664_S1664x256_S1408x256_1_0_0_1_n_n_wf : DotDims.WF S1408x1664 S1664x256 S1408x256 [1] [0] [0] [1] [] []
  dot_S1408x256_S256x256_S1408x256_1_0_0_1_n_n_wf : DotDims.WF S1408x256 S256x256 S1408x256 [1] [0] [0] [1] [] []
  gather_S2816x256_S2816x1_S2816x256_1_0_n_n_0_1_1256_wf : GatherDims.WF S2816x256 S2816x1 S2816x256 [1] [0] [] [0] [] 1 ![1, 256]
  gather_S2816x256_S256x1_S256x256_1_0_n_n_0_1_1256_wf : GatherDims.WF S2816x256 S256x1 S256x256 [1] [0] [] [0] [] 1 ![1, 256]
  dot_S128x2816_S2816x256_S128x256_1_0_0_1_n_n_wf : DotDims.WF S128x2816 S2816x256 S128x256 [1] [0] [0] [1] [] []
  dot_S128x256_S256x256_S128x256_1_0_0_1_n_n_wf : DotDims.WF S128x256 S256x256 S128x256 [1] [0] [0] [1] [] []
  dot_S128x256_S256x64_S128x64_1_0_0_1_n_n_wf : DotDims.WF S128x256 S256x64 S128x64 [1] [0] [0] [1] [] []
  dot_S128x64_S64x64_S128x64_1_0_0_1_n_n_wf : DotDims.WF S128x64 S64x64 S128x64 [1] [0] [0] [1] [] []
  dot_S128x64_S64x8_S128x8_1_0_0_1_n_n_wf : DotDims.WF S128x64 S64x8 S128x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1408x1664.size a ≤ S2816x73216.size a
  hwx0_0 : ∀ i : grid0.Coords, EltTy.bits .f32 = 32 ∨ (Rect.block (s := S2816x73216) S1408x1664.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1664x256.size a ≤ S73216x256.size a
  hwx0_1 : ∀ i : grid0.Coords, EltTy.bits .f32 = 32 ∨ (Rect.block (s := S73216x256) S1664x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1408x256.size a ≤ S2816x256.size a
  hwx0_2 : ∀ i : grid0.Coords, EltTy.bits .f32 = 32 ∨ (Rect.block (s := S2816x256) S1408x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1408x256.size a ≤ S2816x256.size a
  hwx0_5 : ∀ i : grid0.Coords, EltTy.bits .f32 = 32 ∨ (Rect.block (s := S2816x256) S1408x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x2816.size a ≤ S256x2816.size a
  hwx1_0 : ∀ i : grid1.Coords, EltTy.bits .f32 = 32 ∨ (Rect.block (s := S256x2816) S128x2816.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2816x256.size a ≤ S2816x256.size a
  hwx1_1 : ∀ i : grid1.Coords, EltTy.bits .f32 = 32 ∨ (Rect.block (s := S2816x256) S2816x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S256x256.size a
  hwx1_2 : ∀ i : grid1.Coords, EltTy.bits .f32 = 32 ∨ (Rect.block (s := S256x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x64.size a ≤ S256x64.size a
  hwx1_5 : ∀ i : grid1.Coords, EltTy.bits .f32 = 32 ∨ (Rect.block (s := S256x64) S256x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x64.size a ≤ S64x64.size a
  hwx1_7 : ∀ i : grid1.Coords, EltTy.bits .f32 = 32 ∨ (Rect.block (s := S64x64) S64x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64x8.size a ≤ S64x8.size a
  hwx1_9 : ∀ i : grid1.Coords, EltTy.bits .f32 = 32 ∨ (Rect.block (s := S64x8) S64x8.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x8.size a ≤ S1x8.size a
  hwx1_10 : ∀ i : grid1.Coords, EltTy.bits .f32 = 32 ∨ (Rect.block (s := S1x8) S1x8.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S128x8.size a ≤ S256x8.size a
  hwx1_11 : ∀ i : grid1.Coords, EltTy.bits .f32 = 32 ∨ (Rect.block (s := S256x8) S128x8.size (cc1_transform_11 i) (hinb1_11 i)).WholeWords (EltTy.packing .f32)

variable [Facts₀]

def gather_S73216_S73216x1_S73216_n_0_n_n_0_1_1 : GatherDims S73216 S73216x1 S73216 where
  offsetDims := []
  collapsedSliceDims := [0]
  operandBatchingDims := []
  startIndicesBatchingDims := []
  startIndexMap := [0]
  indexVectorDim := 1
  sliceSizes := ![1]
  wf := gather_S73216_S73216x1_S73216_n_0_n_n_0_1_1_wf
def gather_S73216_S2816x1_S2816_n_0_n_n_0_1_1 : GatherDims S73216 S2816x1 S2816 where
  offsetDims := []
  collapsedSliceDims := [0]
  operandBatchingDims := []
  startIndicesBatchingDims := []
  startIndexMap := [0]
  indexVectorDim := 1
  sliceSizes := ![1]
  wf := gather_S73216_S2816x1_S2816_n_0_n_n_0_1_1_wf
def gather_S200000x256_S73216x1_S73216x256_1_0_n_n_0_1_1256 : GatherDims S200000x256 S73216x1 S73216x256 where
  offsetDims := [1]
  collapsedSliceDims := [0]
  operandBatchingDims := []
  startIndicesBatchingDims := []
  startIndexMap := [0]
  indexVectorDim := 1
  sliceSizes := ![1, 256]
  wf := gather_S200000x256_S73216x1_S73216x256_1_0_n_n_0_1_1256_wf
def gather_S200000x256_S2816x1_S2816x256_1_0_n_n_0_1_1256 : GatherDims S200000x256 S2816x1 S2816x256 where
  offsetDims := [1]
  collapsedSliceDims := [0]
  operandBatchingDims := []
  startIndicesBatchingDims := []
  startIndexMap := [0]
  indexVectorDim := 1
  sliceSizes := ![1, 256]
  wf := gather_S200000x256_S2816x1_S2816x256_1_0_n_n_0_1_1256_wf
def dot_S1408x1664_S1664x256_S1408x256_1_0_0_1_n_n : DotDims S1408x1664 S1664x256 S1408x256 where
  lhsContracting := [1]
  rhsContracting := [0]
  lhsNonContracting := [0]
  rhsNonContracting := [1]
  lhsBatch := []
  rhsBatch := []
  wf := dot_S1408x1664_S1664x256_S1408x256_1_0_0_1_n_n_wf
def dot_S1408x256_S256x256_S1408x256_1_0_0_1_n_n : DotDims S1408x256 S256x256 S1408x256 where
  lhsContracting := [1]
  rhsContracting := [0]
  lhsNonContracting := [0]
  rhsNonContracting := [1]
  lhsBatch := []
  rhsBatch := []
  wf := dot_S1408x256_S256x256_S1408x256_1_0_0_1_n_n_wf
def gather_S2816x256_S2816x1_S2816x256_1_0_n_n_0_1_1256 : GatherDims S2816x256 S2816x1 S2816x256 where
  offsetDims := [1]
  collapsedSliceDims := [0]
  operandBatchingDims := []
  startIndicesBatchingDims := []
  startIndexMap := [0]
  indexVectorDim := 1
  sliceSizes := ![1, 256]
  wf := gather_S2816x256_S2816x1_S2816x256_1_0_n_n_0_1_1256_wf
def gather_S2816x256_S256x1_S256x256_1_0_n_n_0_1_1256 : GatherDims S2816x256 S256x1 S256x256 where
  offsetDims := [1]
  collapsedSliceDims := [0]
  operandBatchingDims := []
  startIndicesBatchingDims := []
  startIndexMap := [0]
  indexVectorDim := 1
  sliceSizes := ![1, 256]
  wf := gather_S2816x256_S256x1_S256x256_1_0_n_n_0_1_1256_wf
def dot_S128x2816_S2816x256_S128x256_1_0_0_1_n_n : DotDims S128x2816 S2816x256 S128x256 where
  lhsContracting := [1]
  rhsContracting := [0]
  lhsNonContracting := [0]
  rhsNonContracting := [1]
  lhsBatch := []
  rhsBatch := []
  wf := dot_S128x2816_S2816x256_S128x256_1_0_0_1_n_n_wf
def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf
def dot_S128x256_S256x64_S128x64_1_0_0_1_n_n : DotDims S128x256 S256x64 S128x64 where
  lhsContracting := [1]
  rhsContracting := [0]
  lhsNonContracting := [0]
  rhsNonContracting := [1]
  lhsBatch := []
  rhsBatch := []
  wf := dot_S128x256_S256x64_S128x64_1_0_0_1_n_n_wf
def dot_S128x64_S64x64_S128x64_1_0_0_1_n_n : DotDims S128x64 S64x64 S128x64 where
  lhsContracting := [1]
  rhsContracting := [0]
  lhsNonContracting := [0]
  rhsNonContracting := [1]
  lhsBatch := []
  rhsBatch := []
  wf := dot_S128x64_S64x64_S128x64_1_0_0_1_n_n_wf
def dot_S128x64_S64x8_S128x8_1_0_0_1_n_n : DotDims S128x64 S64x8 S128x8 where
  lhsContracting := [1]
  rhsContracting := [0]
  lhsNonContracting := [0]
  rhsNonContracting := [1]
  lhsBatch := []
  rhsBatch := []
  wf := dot_S128x64_S64x8_S128x8_1_0_0_1_n_n_wf

abbrev win0_0 : Pipeline.Window sig grid0 :=
  Pipeline.Window.ofSpec (Memref.whole main_arg3) S1408x1664.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S1664x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S1408x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S1408x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg6) S128x2816.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S2816x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S128x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v45) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S256x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v47) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg12) S64x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v48) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg14) S64x8.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v49) S1x8.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v50) S128x8.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S73216 : Shape := ⟨1, ![73216]⟩
abbrev S2816 : Shape := ⟨1, ![2816]⟩
abbrev S2816x73216 : Shape := ⟨2, ![2816, 73216]⟩
abbrev S256 : Shape := ⟨1, ![256]⟩
abbrev S256x2816 : Shape := ⟨2, ![256, 2816]⟩
abbrev S200000x256 : Shape := ⟨2, ![200000, 256]⟩
abbrev S512x256 : Shape := ⟨2, ![512, 256]⟩
abbrev S256x64 : Shape := ⟨2, ![256, 64]⟩
abbrev S64 : Shape := ⟨1, ![64]⟩
abbrev S64x64 : Shape := ⟨2, ![64, 64]⟩
abbrev S64x8 : Shape := ⟨2, ![64, 8]⟩
abbrev S8 : Shape := ⟨1, ![8]⟩
abbrev S_ : Shape := ⟨0, ![]⟩
abbrev S73216x1 : Shape := ⟨2, ![73216, 1]⟩
abbrev S73216x256 : Shape := ⟨2, ![73216, 256]⟩
abbrev S2816x1 : Shape := ⟨2, ![2816, 1]⟩
abbrev S2816x256 : Shape := ⟨2, ![2816, 256]⟩
abbrev S2816x512 : Shape := ⟨2, ![2816, 512]⟩
abbrev S256x1 : Shape := ⟨2, ![256, 1]⟩
abbrev S256x256 : Shape := ⟨2, ![256, 256]⟩
abbrev S256x512 : Shape := ⟨2, ![256, 512]⟩
abbrev S1x64 : Shape := ⟨2, ![1, 64]⟩
abbrev S256x8 : Shape := ⟨2, ![256, 8]⟩
abbrev S1x8 : Shape := ⟨2, ![1, 8]⟩

abbrev nBuf : Space → Nat
  | .hbm => 98
  | .vmem => 0
  | .smem => 0
  | _ => 0

abbrev bufTy : (tb : Table) → Fin (tcTables nBuf tb) → BufTy
  | .hbm, ⟨0, _⟩ => ⟨S73216, .i32⟩
  | .hbm, ⟨1, _⟩ => ⟨S73216, .i32⟩
  | .hbm, ⟨2, _⟩ => ⟨S2816, .i32⟩
  | .hbm, ⟨3, _⟩ => ⟨S2816x73216, .f32⟩
  | .hbm, ⟨4, _⟩ => ⟨S2816, .i32⟩
  | .hbm, ⟨5, _⟩ => ⟨S256, .i32⟩
  | .hbm, ⟨6, _⟩ => ⟨S256x2816, .f32⟩
  | .hbm, ⟨7, _⟩ => ⟨S200000x256, .f32⟩
  | .hbm, ⟨8, _⟩ => ⟨S512x256, .f32⟩
  | .hbm, ⟨9, _⟩ => ⟨S512x256, .f32⟩
  | .hbm, ⟨10, _⟩ => ⟨S256x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x8, .f32⟩
  | .hbm, ⟨15, _⟩ => ⟨S8, .f32⟩
  | .hbm, ⟨16, _⟩ => ⟨S_, .i32⟩
  | .hbm, ⟨17, _⟩ => ⟨S73216, .i32⟩
  | .hbm, ⟨18, _⟩ => ⟨S73216, .i1⟩
  | .hbm, ⟨19, _⟩ => ⟨S_, .i32⟩
  | .hbm, ⟨20, _⟩ => ⟨S73216, .i32⟩
  | .hbm, ⟨21, _⟩ => ⟨S73216, .i32⟩
  | .hbm, ⟨22, _⟩ => ⟨S73216, .i32⟩
  | .hbm, ⟨23, _⟩ => ⟨S73216x1, .i32⟩
  | .hbm, ⟨24, _⟩ => ⟨S73216x256, .f32⟩
  | .hbm, ⟨25, _⟩ => ⟨S_, .i32⟩
  | .hbm, ⟨26, _⟩ => ⟨S73216, .i32⟩
  | .hbm, ⟨27, _⟩ => ⟨S73216, .i1⟩
  | .hbm, ⟨28, _⟩ => ⟨S_, .i32⟩
  | .hbm, ⟨29, _⟩ => ⟨S73216, .i32⟩
  | .hbm, ⟨30, _⟩ => ⟨S73216, .i32⟩
  | .hbm, ⟨31, _⟩ => ⟨S73216, .i32⟩
  | .hbm, ⟨32, _⟩ => ⟨S73216x1, .i32⟩
  | .hbm, ⟨33, _⟩ => ⟨S73216x256, .f32⟩
  | .hbm, ⟨34, _⟩ => ⟨S_, .i32⟩
  | .hbm, ⟨35, _⟩ => ⟨S2816, .i32⟩
  | .hbm, ⟨36, _⟩ => ⟨S2816, .i1⟩
  | .hbm, ⟨37, _⟩ => ⟨S_, .i32⟩
  | .hbm, ⟨38, _⟩ => ⟨S2816, .i32⟩
  | .hbm, ⟨39, _⟩ => ⟨S2816, .i32⟩
  | .hbm, ⟨40, _⟩ => ⟨S2816, .i32⟩
  | .hbm, ⟨41, _⟩ => ⟨S2816x1, .i32⟩
  | .hbm, ⟨42, _⟩ => ⟨S2816x256, .f32⟩
  | .hbm, ⟨43, _⟩ => ⟨S2816x256, .f32⟩
  | .hbm, ⟨44, _⟩ => ⟨S2816x512, .f32⟩
  | .hbm, ⟨45, _⟩ => ⟨S2816x256, .f32⟩
  | .hbm, ⟨46, _⟩ => ⟨S_, .i32⟩
  | .hbm, ⟨47, _⟩ => ⟨S2816, .i32⟩
  | .hbm, ⟨48, _⟩ => ⟨S2816, .i1⟩
  | .hbm, ⟨49, _⟩ => ⟨S_, .i32⟩
  | .hbm, ⟨50, _⟩ => ⟨S2816, .i32⟩
  | .hbm, ⟨51, _⟩ => ⟨S2816, .i32⟩
  | .hbm, ⟨52, _⟩ => ⟨S2816, .i32⟩
  | .hbm, ⟨53, _⟩ => ⟨S2816x1, .i32⟩
  | .hbm, ⟨54, _⟩ => ⟨S2816x256, .f32⟩
  | .hbm, ⟨55, _⟩ => ⟨S_, .i32⟩
  | .hbm, ⟨56, _⟩ => ⟨S256, .i32⟩
  | .hbm, ⟨57, _⟩ => ⟨S256, .i1⟩
  | .hbm, ⟨58, _⟩ => ⟨S_, .i32⟩
  | .hbm, ⟨59, _⟩ => ⟨S256, .i32⟩
  | .hbm, ⟨60, _⟩ => ⟨S256, .i32⟩
  | .hbm, ⟨61, _⟩ => ⟨S256, .i32⟩
  | .hbm, ⟨62, _⟩ => ⟨S256x1, .i32⟩
  | .hbm, ⟨63, _⟩ => ⟨S256x256, .f32⟩
  | .hbm, ⟨64, _⟩ => ⟨S256x256, .f32⟩
  | .hbm, ⟨65, _⟩ => ⟨S256x512, .f32⟩
  | .hbm, ⟨66, _⟩ => ⟨S256x256, .f32⟩
  | .hbm, ⟨67, _⟩ => ⟨S_, .f32⟩
  | .hbm, ⟨68, _⟩ => ⟨S256x256, .f32⟩
  | .hbm, ⟨69, _⟩ => ⟨S256x256, .f32⟩
  | .hbm, ⟨70, _⟩ => ⟨S256x256, .f32⟩
  | .hbm, ⟨71, _⟩ => ⟨S_, .f32⟩
  | .hbm, ⟨72, _⟩ => ⟨S256, .f32⟩
  | .hbm, ⟨73, _⟩ => ⟨S256x1, .f32⟩
  | .hbm, ⟨74, _⟩ => ⟨S_, .f32⟩
  | .hbm, ⟨75, _⟩ => ⟨S256x1, .f32⟩
  | .hbm, ⟨76, _⟩ => ⟨S256x1, .f32⟩
  | .hbm, ⟨77, _⟩ => ⟨S256x1, .f32⟩
  | .hbm, ⟨78, _⟩ => ⟨S256x256, .f32⟩
  | .hbm, ⟨79, _⟩ => ⟨S256x256, .f32⟩
  | .hbm, ⟨80, _⟩ => ⟨S256x64, .f32⟩
  | .hbm, ⟨81, _⟩ => ⟨S1x64, .f32⟩
  | .hbm, ⟨82, _⟩ => ⟨S256x64, .f32⟩
  | .hbm, ⟨83, _⟩ => ⟨S256x64, .f32⟩
  | .hbm, ⟨84, _⟩ => ⟨S_, .f32⟩
  | .hbm, ⟨85, _⟩ => ⟨S256x64, .f32⟩
  | .hbm, ⟨86, _⟩ => ⟨S256x64, .f32⟩
  | .hbm, ⟨87, _⟩ => ⟨S256x64, .f32⟩
  | .hbm, ⟨88, _⟩ => ⟨S1x64, .f32⟩
  | .hbm, ⟨89, _⟩ => ⟨S256x64, .f32⟩
  | .hbm, ⟨90, _⟩ => ⟨S256x64, .f32⟩
  | .hbm, ⟨91, _⟩ => ⟨S_, .f32⟩
  | .hbm, ⟨92, _⟩ => ⟨S256x64, .f32⟩
  | .hbm, ⟨93, _⟩ => ⟨S256x64, .f32⟩
  | .hbm, ⟨94, _⟩ => ⟨S256x8, .f32⟩
  | .hbm, ⟨95, _⟩ => ⟨S1x8, .f32⟩
  | .hbm, ⟨96, _⟩ => ⟨S256x8, .f32⟩
  | .hbm, ⟨97, _⟩ => ⟨S256x8, .f32⟩
  | _, _ => ⟨S73216, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_1 : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c_3 : Ref sig .tc := ⟨.hbm, 34, rfl⟩
abbrev main_v14 : Ref sig .tc := ⟨.hbm, 35, rfl⟩
abbrev main_v15 : Ref sig .tc := ⟨.hbm, 36, rfl⟩
abbrev main_c_4 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_c_6 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_7 : Ref sig .tc := ⟨.hbm, 55, rfl⟩
abbrev main_v31 : Ref sig .tc := ⟨.hbm, 56, rfl⟩
abbrev main_v32 : Ref sig .tc := ⟨.hbm, 57, rfl⟩
abbrev main_c_8 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_call0_cst : Ref sig .tc := ⟨.hbm, 67, rfl⟩
abbrev main_call0_v0 : Ref sig .tc := ⟨.hbm, 68, rfl⟩
abbrev main_v41 : Ref sig .tc := ⟨.hbm, 69, rfl⟩
abbrev main_v42 : Ref sig .tc := ⟨.hbm, 70, rfl⟩
abbrev main_cst : Ref sig .tc := ⟨.hbm, 71, rfl⟩
abbrev main_v43 : Ref sig .tc := ⟨.hbm, 72, rfl⟩
abbrev main_v44 : Ref sig .tc := ⟨.hbm, 73, rfl⟩
abbrev main_cst_9 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_call1_cst : Ref sig .tc := ⟨.hbm, 84, rfl⟩
abbrev main_call1_v0 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_call2_cst : Ref sig .tc := ⟨.hbm, 91, rfl⟩
abbrev main_call2_v0 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩

abbrev nD : Nat := 1
abbrev τ : Topo := Topo.v7x

variable {F : FTy → Type} [FloatOps F]

class Facts₀ : Prop where
  bcast_S_S73216 : S_.BroadcastsInDim S73216 (![] : Fin 0 → Fin S73216.rank)
  bcast_S73216_S73216x1_0 : S73216.BroadcastsInDim S73216x1 (![0] : Fin 1 → Fin S73216x1.rank)
  bcast_S_S2816 : S_.BroadcastsInDim S2816 (![] : Fin 0 → Fin S2816.rank)
  bcast_S2816_S2816x1_0 : S2816.BroadcastsInDim S2816x1 (![0] : Fin 1 → Fin S2816x1.rank)
  concatenates_S2816x256_S2816x256_S2816x512_d1 : Shape.Concatenates [S2816x256, S2816x256] S2816x512 1
  bcast_S_S256 : S_.BroadcastsInDim S256 (![] : Fin 0 → Fin S256.rank)
  bcast_S256_S256x1_0 : S256.BroadcastsInDim S256x1 (![0] : Fin 1 → Fin S256x1.rank)
  concatenates_S256x256_S256x256_S256x512_d1 : Shape.Concatenates [S256x256, S256x256] S256x512 1
  bcast_S_S256x256 : S_.BroadcastsInDim S256x256 (![] : Fin 0 → Fin S256x256.rank)
  reducesTo_S256x256_S256_d1 : S256x256.ReducesTo [1] S256
  h_S_ : 0 < S_.numel
  bcast_S_S256x1 : S_.BroadcastsInDim S256x1 (![] : Fin 0 → Fin S256x1.rank)
  bcast_S256x1_S256x256_0_1 : S256x1.BroadcastsInDim S256x256 (![0, 1] : Fin 2 → Fin S256x256.rank)
  bcast_S64_S1x64_1 : S64.BroadcastsInDim S1x64 (![1] : Fin 1 → Fin S1x64.rank)
  bcast_S1x64_S256x64_0_1 : S1x64.BroadcastsInDim S256x64 (![0, 1] : Fin 2 → Fin S256x64.rank)
  bcast_S_S256x64 : S_.BroadcastsInDim S256x64 (![] : Fin 0 → Fin S256x64.rank)
  bcast_S8_S1x8_1 : S8.BroadcastsInDim S1x8 (![1] : Fin 1 → Fin S1x8.rank)
  bcast_S1x8_S256x8_0_1 : S1x8.BroadcastsInDim S256x8 (![0, 1] : Fin 2 → Fin S256x8.rank)
  gather_S200000x256_S73216x1_S73216x256_1_0_n_n_0_1_1256_wf : GatherDims.WF S200000x256 S73216x1 S73216x256 [1] [0] [] [0] [] 1 ![1, 256]
  gather_S73216x256_S73216x1_S73216x256_1_0_n_n_0_1_1256_wf : GatherDims.WF S73216x256 S73216x1 S73216x256 [1] [0] [] [0] [] 1 ![1, 256]
  gather_S73216x256_S2816x1_S2816x256_1_0_n_n_0_1_1256_wf : GatherDims.WF S73216x256 S2816x1 S2816x256 [1] [0] [] [0] [] 1 ![1, 256]
  dot_S2816x73216_S73216x256_S2816x256_1_0_0_1_n_n_wf : DotDims.WF S2816x73216 S73216x256 S2816x256 [1] [0] [0] [1] [] []
  dot_S2816x512_S512x256_S2816x256_1_0_0_1_n_n_wf : DotDims.WF S2816x512 S512x256 S2816x256 [1] [0] [0] [1] [] []
  gather_S2816x256_S2816x1_S2816x256_1_0_n_n_0_1_1256_wf : GatherDims.WF S2816x256 S2816x1 S2816x256 [1] [0] [] [0] [] 1 ![1, 256]
  gather_S2816x256_S256x1_S256x256_1_0_n_n_0_1_1256_wf : GatherDims.WF S2816x256 S256x1 S256x256 [1] [0] [] [0] [] 1 ![1, 256]
  dot_S256x2816_S2816x256_S256x256_1_0_0_1_n_n_wf : DotDims.WF S256x2816 S2816x256 S256x256 [1] [0] [0] [1] [] []
  dot_S256x512_S512x256_S256x256_1_0_0_1_n_n_wf : DotDims.WF S256x512 S512x256 S256x256 [1] [0] [0] [1] [] []
  dot_S256x256_S256x64_S256x64_1_0_0_1_n_n_wf : DotDims.WF S256x256 S256x64 S256x64 [1] [0] [0] [1] [] []
  dot_S256x64_S64x64_S256x64_1_0_0_1_n_n_wf : DotDims.WF S256x64 S64x64 S256x64 [1] [0] [0] [1] [] []
  dot_S256x64_S64x8_S256x8_1_0_0_1_n_n_wf : DotDims.WF S256x64 S64x8 S256x8 [1] [0] [0] [1] [] []

variable [Facts₀]

def gather_S200000x256_S73216x1_S73216x256_1_0_n_n_0_1_1256 : GatherDims S200000x256 S73216x1 S73216x256 where
  offsetDims := [1]
  collapsedSliceDims := [0]
  operandBatchingDims := []
  startIndicesBatchingDims := []
  startIndexMap := [0]
  indexVectorDim := 1
  sliceSizes := ![1, 256]
  wf := gather_S200000x256_S73216x1_S73216x256_1_0_n_n_0_1_1256_wf
def gather_S73216x256_S73216x1_S73216x256_1_0_n_n_0_1_1256 : GatherDims S73216x256 S73216x1 S73216x256 where
  offsetDims := [1]
  collapsedSliceDims := [0]
  operandBatchingDims := []
  startIndicesBatchingDims := []
  startIndexMap := [0]
  indexVectorDim := 1
  sliceSizes := ![1, 256]
  wf := gather_S73216x256_S73216x1_S73216x256_1_0_n_n_0_1_1256_wf
def gather_S73216x256_S2816x1_S2816x256_1_0_n_n_0_1_1256 : GatherDims S73216x256 S2816x1 S2816x256 where
  offsetDims := [1]
  collapsedSliceDims := [0]
  operandBatchingDims := []
  startIndicesBatchingDims := []
  startIndexMap := [0]
  indexVectorDim := 1
  sliceSizes := ![1, 256]
  wf := gather_S73216x256_S2816x1_S2816x256_1_0_n_n_0_1_1256_wf
def dot_S2816x73216_S73216x256_S2816x256_1_0_0_1_n_n : DotDims S2816x73216 S73216x256 S2816x256 where
  lhsContracting := [1]
  rhsContracting := [0]
  lhsNonContracting := [0]
  rhsNonContracting := [1]
  lhsBatch := []
  rhsBatch := []
  wf := dot_S2816x73216_S73216x256_S2816x256_1_0_0_1_n_n_wf
def dot_S2816x512_S512x256_S2816x256_1_0_0_1_n_n : DotDims S2816x512 S512x256 S2816x256 where
  lhsContracting := [1]
  rhsContracting := [0]
  lhsNonContracting := [0]
  rhsNonContracting := [1]
  lhsBatch := []
  rhsBatch := []
  wf := dot_S2816x512_S512x256_S2816x256_1_0_0_1_n_n_wf
def gather_S2816x256_S2816x1_S2816x256_1_0_n_n_0_1_1256 : GatherDims S2816x256 S2816x1 S2816x256 where
  offsetDims := [1]
  collapsedSliceDims := [0]
  operandBatchingDims := []
  startIndicesBatchingDims := []
  startIndexMap := [0]
  indexVectorDim := 1
  sliceSizes := ![1, 256]
  wf := gather_S2816x256_S2816x1_S2816x256_1_0_n_n_0_1_1256_wf
def gather_S2816x256_S256x1_S256x256_1_0_n_n_0_1_1256 : GatherDims S2816x256 S256x1 S256x256 where
  offsetDims := [1]
  collapsedSliceDims := [0]
  operandBatchingDims := []
  startIndicesBatchingDims := []
  startIndexMap := [0]
  indexVectorDim := 1
  sliceSizes := ![1, 256]
  wf := gather_S2816x256_S256x1_S256x256_1_0_n_n_0_1_1256_wf
def dot_S256x2816_S2816x256_S256x256_1_0_0_1_n_n : DotDims S256x2816 S2816x256 S256x256 where
  lhsContracting := [1]
  rhsContracting := [0]
  lhsNonContracting := [0]
  rhsNonContracting := [1]
  lhsBatch := []
  rhsBatch := []
  wf := dot_S256x2816_S2816x256_S256x256_1_0_0_1_n_n_wf
def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf
def dot_S256x256_S256x64_S256x64_1_0_0_1_n_n : DotDims S256x256 S256x64 S256x64 where
  lhsContracting := [1]
  rhsContracting := [0]
  lhsNonContracting := [0]
  rhsNonContracting := [1]
  lhsBatch := []
  rhsBatch := []
  wf := dot_S256x256_S256x64_S256x64_1_0_0_1_n_n_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf
def dot_S256x64_S64x8_S256x8_1_0_0_1_n_n : DotDims S256x64 S64x8 S256x8 where
  lhsContracting := [1]
  rhsContracting := [0]
  lhsNonContracting := [0]
  rhsNonContracting := [1]
  lhsBatch := []
  rhsBatch := []
  wf := dot_S256x64_S64x8_S256x8_1_0_0_1_n_n_wf

class Facts : Prop extends Facts₀ where

variable [Facts]
-- ==== Proof.Kernel.Layer1Runs.lean ====
/- The first pallas_call (layer 1) on its 2 × 44 grid: what the three control cases of its body share. The body
   zeroes the accumulator when the reduction coordinate is 0, adds one tile product at every point, and when the
   reduction coordinate is 43 stores the output block from the accumulator. Here: a window's block at a point read
   off the entry contents `V`, the two branch conditions in closed form over the grid, where the output window is
   idle, the staging and scratch buffers by name, and the region invariant with the scratch buffer singled out. -/
import proofs.«105755_j27273042329874_2_alg».proof.Proof.Kernel.LaunchP
import proofs.«105755_j27273042329874_2_alg».proof.Proof.Gen.Kernel.Skeleton
import proofs.«105755_j27273042329874_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The first conditional's condition (the reduction coordinate is 0), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 44) — decided over the grid. -/
theorem hcond0_0 : ∀ t : Fin cfg0.N, cond0_0 (grid0.coords t) ↔ t.val % 44 = 0 :=
  (by decide +kernel : ∀ t : Fin grid0.N, cond0_0 (grid0.coords t) ↔ t.val % 44 = 0)

/-- The second conditional's condition (the reduction coordinate is 43). -/
abbrev cond0_1 (i : grid0.Coords) : Prop := k0_cond2 i = 1#1
/-- It holds at the points ≡ 43 (mod 44) — decided over the grid. -/
theorem hcond0_1 : ∀ t : Fin cfg0.N, cond0_1 (grid0.coords t) ↔ t.val % 44 = 43 :=
  (by decide +kernel : ∀ t : Fin grid0.N, cond0_1 (grid0.coords t) ↔ t.val % 44 = 43)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Where the accumulator is only zeroed and added to, the output window is idle and not written back. -/
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
theorem idleAt0_5_B : ∀ t : Fin cfg0.N, ¬cond0_0 (grid0.coords t) → ¬cond0_1 (grid0.coords t) → cfg0.idle 5 (grid0.coords t) = true := by decide +kernel
theorem noFlush0_5_B : ∀ t : Fin cfg0.N, ¬cond0_0 (grid0.coords t) → ¬cond0_1 (grid0.coords t) → (cfg0.win 5).flush t = false := by decide +kernel
/-- At the last reduction step the output window is live: the body stores its block. -/
theorem liveAt0_5_C : ∀ t : Fin cfg0.N, ¬cond0_0 (grid0.coords t) → cond0_1 (grid0.coords t) → cfg0.idle 5 (grid0.coords t) = false := by decide +kernel

/-! ## The buffers by name -/

/-- One staging buffer of the output window, through which its contents are stated. -/
abbrev VO0_5 : View sig .tc .vmem S1408x256 .f32 := (Memref.whole cc0_stg5_0 : Memref sig .tc .vmem S1408x256 .f32).view
abbrev ms0_0 (t : Fin cfg0.N) : Memref sig .tc .vmem S1408x1664 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1664x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1408x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1408x256 .f32 := win0_5.stage (cfg0.slots t 5)
abbrev hs0_5 (t : Fin cfg0.N) : (ms0_5 t).IsWhole := hstage0_5 ((cfg0.slots t 5).cast nbuf0_5)
/-- The accumulator: a whole scoped buffer of the kernel's own, passed beside the windows. -/
abbrev scM0_0 : Memref sig .tc .vmem S1408x256 .f32 := Memref.whole cc0_scratch0
/-- The accumulator as a view: what it holds is stated through it. -/
abbrev VS0_0 : View sig .tc .vmem S1408x256 .f32 := scM0_0.view

/-- The scoped buffers the region neither stages nor uses (the second call's staging buffers), each at some contents. -/
abbrev otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg10_0), ((c : Thread nD τ).loc cc1_stg10_0) ↦{fullShare} f) ∗ (∃ f : Buf (Elt F) ((c : Thread nD τ).loc cc1_stg11_0), ((c : Thread nD τ).loc cc1_stg11_0) ↦{fullShare} f) ∗ (∃ f : Buf (Elt F) ((c : Thread nD τ).loc cc1_stg11_1), ((c : Thread nD τ).loc cc1_stg11_1) ↦{fullShare} f))

/-- The region's invariant with the accumulator as a buffer owned at some contents. -/
theorem PhiA0_eq (c : Dev nD) :
    (Pipeline.ΦA spec0 c : sProp 𝕄)
      = iprop(iprop((∃ d, owns (c : Thread nD τ) scM0_0 fullShare d) ∗ otherScoped (F := F) c) ∗ (∃ r, prngReg c r)) := by
  unfold Pipeline.ΦA; rw [scopedRest0_eq]; simp only [scM0_0, owns_whole]; try rfl

end Cert.Kernel.Hand

end
-- ==== Proof.Kernel.Layer1RunA.lean ====
/- The first pallas_call's body run whole in the control case where the reduction coordinate is 0 (and not 43): the accumulator is zeroed, then one tile product is added; the output window is idle. The run is by symbolic
   execution of the body's memory skeleton; what each buffer ends with is found by the run as a list of stored
   pieces (last first), and packaged with the triple. -/
import proofs.«105755_j27273042329874_2_alg».proof.Proof.Kernel.Layer1Runs

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output window's buffer and in the accumulator in this case, WITH the
    triple: on whole buffers — the inputs' at their contents, the idle output's at contents handed back untouched, the accumulator
    at anything — the body runs to the continuation holding the inputs' as they were and each buffer it stored into with its
    pieces written. -/
noncomputable def kernelRun0_A (c : Dev nD) (i : grid0.Coords) (arg2 : Memref sig .tc .vmem S1408x1664 .f32) (harg2 : arg2.IsWhole) (arg3 : Memref sig .tc .vmem S1664x256 .f32) (harg3 : arg3.IsWhole) (arg4 : Memref sig .tc .vmem S1408x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S1408x256 .f32) (harg7 : arg7.IsWhole) (arg8 : Memref sig .tc .vmem S1408x256 .f32) (harg8 : arg8.IsWhole) (hc0 : cond0_0 i) (hc1 : ¬cond0_1 i)
    (x0 : Vec F S1408x1664 .f32) (x1 : Vec F S1664x256 .f32) (x2 : Vec F S1408x256 .f32) (x3 : Vec F S256x256 .f32) (x4 : Vec F S256x256 .f32) :
    Σ' (L5 : List (View.Piece (Elt F) S1408x256 .f32)), { LS0 : List (View.Piece (Elt F) S1408x256 .f32) //
      ∀ (xi5 : Vec F S1408x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__layer1_kernel i arg2 harg2 arg3 harg3 arg4 harg4 arg5 harg5 arg6 harg6 arg7 harg7 arg8 harg8) K } := by
  refine ⟨[], ?_, fun xi5 E K => ?run⟩
  case run =>
    simp only [cc0__layer1_kernel_eq_skeleton]; unfold cc0__layer1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.Kernel.Layer1RunB.lean ====
/- The first pallas_call's body run whole in the control case where the reduction coordinate is neither 0 nor 43: one tile product is added to the accumulator; the output window is idle. The run is by symbolic
   execution of the body's memory skeleton; what each buffer ends with is found by the run as a list of stored
   pieces (last first), and packaged with the triple. -/
import proofs.«105755_j27273042329874_2_alg».proof.Proof.Kernel.Layer1RunA

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output window's buffer and in the accumulator in this case, WITH the
    triple: on whole buffers — the inputs' at their contents, the idle output's at contents handed back untouched, the accumulator
    at what the point before left — the body runs to the continuation holding the inputs' as they were and each buffer it stored into with its
    pieces written. -/
noncomputable def kernelRun0_B (c : Dev nD) (i : grid0.Coords) (arg2 : Memref sig .tc .vmem S1408x1664 .f32) (harg2 : arg2.IsWhole) (arg3 : Memref sig .tc .vmem S1664x256 .f32) (harg3 : arg3.IsWhole) (arg4 : Memref sig .tc .vmem S1408x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S1408x256 .f32) (harg7 : arg7.IsWhole) (arg8 : Memref sig .tc .vmem S1408x256 .f32) (harg8 : arg8.IsWhole) (hc0 : ¬cond0_0 i) (hc1 : ¬cond0_1 i)
    (x0 : Vec F S1408x1664 .f32) (x1 : Vec F S1664x256 .f32) (x2 : Vec F S1408x256 .f32) (x3 : Vec F S256x256 .f32) (x4 : Vec F S256x256 .f32) (xs0 : Vec F S1408x256 .f32) :
    Σ' (L5 : List (View.Piece (Elt F) S1408x256 .f32)), { LS0 : List (View.Piece (Elt F) S1408x256 .f32) //
      ∀ (xi5 : Vec F S1408x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__layer1_kernel i arg2 harg2 arg3 harg3 arg4 harg4 arg5 harg5 arg6 harg6 arg7 harg7 arg8 harg8) K } := by
  refine ⟨[], ?_, fun xi5 E K => ?run⟩
  case run =>
    simp only [cc0__layer1_kernel_eq_skeleton]; unfold cc0__layer1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.Kernel.Layer1RunC.lean ====
/- The first pallas_call's body run whole in the control case where the reduction coordinate is 43 (and not 0): one tile product is added, then the output block is stored from the accumulator. The run is by symbolic
   execution of the body's memory skeleton; what each buffer ends with is found by the run as a list of stored
   pieces (last first), and packaged with the triple. -/
import proofs.«105755_j27273042329874_2_alg».proof.Proof.Kernel.Layer1RunB

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output window's buffer and in the accumulator in this case, WITH the
    triple: on whole buffers — the inputs' at their contents, the output's at anything, the accumulator
    at what the point before left — the body runs to the continuation holding the inputs' as they were and each buffer it stored into with its
    pieces written. -/
noncomputable def kernelRun0_C (c : Dev nD) (i : grid0.Coords) (arg2 : Memref sig .tc .vmem S1408x1664 .f32) (harg2 : arg2.IsWhole) (arg3 : Memref sig .tc .vmem S1664x256 .f32) (harg3 : arg3.IsWhole) (arg4 : Memref sig .tc .vmem S1408x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S1408x256 .f32) (harg7 : arg7.IsWhole) (arg8 : Memref sig .tc .vmem S1408x256 .f32) (harg8 : arg8.IsWhole) (hc0 : ¬cond0_0 i) (hc1 : cond0_1 i)
    (x0 : Vec F S1408x1664 .f32) (x1 : Vec F S1664x256 .f32) (x2 : Vec F S1408x256 .f32) (x3 : Vec F S256x256 .f32) (x4 : Vec F S256x256 .f32) (xs0 : Vec F S1408x256 .f32) :
    Σ' (L5 : List (View.Piece (Elt F) S1408x256 .f32)), { LS0 : List (View.Piece (Elt F) S1408x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0__layer1_kernel i arg2 harg2 arg3 harg3 arg4 harg4 arg5 harg5 arg6 harg6 arg7 harg7 arg8 harg8) K } := by
  refine ⟨?_, ?_, fun E K => ?run⟩
  case run =>
    simp only [cc0__layer1_kernel_eq_skeleton]; unfold cc0__layer1_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Hand

end
-- ==== Proof.Kernel.Layer1Body.lean ====
/- The first pallas_call point by point. Per control case: what the body leaves in the output window's buffer and in
   the accumulator (the run's pieces read back), and that the accumulator's pieces cover it. Then THE ACCUMULATION:
   what both hold after every grid point, by recursion on the point (the accumulator is read at what the point
   before left); the region invariant that carries the accumulator's contents from point to point; the pipeline's
   proof data; and the body obligation at every point, by cases on the two branch conditions. -/
import proofs.«105755_j27273042329874_2_alg».proof.Proof.Kernel.Layer1RunC

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- In this case nothing is stored into the output window (idle, not written back): a placeholder nothing consults. -/
def out0_A_5 (c : Dev nD) (i : grid0.Coords) (arg2 : Memref sig .tc .vmem S1408x1664 .f32) (harg2 : arg2.IsWhole) (arg3 : Memref sig .tc .vmem S1664x256 .f32) (harg3 : arg3.IsWhole) (arg4 : Memref sig .tc .vmem S1408x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S1408x256 .f32) (harg7 : arg7.IsWhole) (arg8 : Memref sig .tc .vmem S1408x256 .f32) (harg8 : arg8.IsWhole) (hc0 : cond0_0 i) (hc1 : ¬cond0_1 i)
    (x0 : Vec F S1408x1664 .f32) (x1 : Vec F S1664x256 .f32) (x2 : Vec F S1408x256 .f32) (x3 : Vec F S256x256 .f32) (x4 : Vec F S256x256 .f32) : Vec F S1408x256 .f32 :=
  VO0_5.read (Elt F) (VO0_5.writes (Elt F) VO0_5.junk (kernelRun0_A c i arg2 harg2 arg3 harg3 arg4 harg4 arg5 harg5 arg6 harg6 arg7 harg7 arg8 harg8 hc0 hc1 x0 x1 x2 x3 x4).1)

/-- The accumulator's pieces in this case cover it. -/
theorem scover0_A_0 (c : Dev nD) (i : grid0.Coords) (arg2 : Memref sig .tc .vmem S1408x1664 .f32) (harg2 : arg2.IsWhole) (arg3 : Memref sig .tc .vmem S1664x256 .f32) (harg3 : arg3.IsWhole) (arg4 : Memref sig .tc .vmem S1408x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S1408x256 .f32) (harg7 : arg7.IsWhole) (arg8 : Memref sig .tc .vmem S1408x256 .f32) (harg8 : arg8.IsWhole) (hc0 : cond0_0 i) (hc1 : ¬cond0_1 i)
    (x0 : Vec F S1408x1664 .f32) (x1 : Vec F S1664x256 .f32) (x2 : Vec F S1408x256 .f32) (x3 : Vec F S256x256 .f32) (x4 : Vec F S256x256 .f32) (y : S1408x256.Idx) :
    ∃ pc ∈ (kernelRun0_A c i arg2 harg2 arg3 harg3 arg4 harg4 arg5 harg5 arg6 harg6 arg7 harg7 arg8 harg8 hc0 hc1 x0 x1 x2 x3 x4).2.1, y ∈ pc.1.set :=
  View.cover_of_tiledL (kernelRun0_A c i arg2 harg2 arg3 harg3 arg4 harg4 arg5 harg5 arg6 harg6 arg7 harg7 arg8 harg8 hc0 hc1 x0 x1 x2 x3 x4).2.1 S1408x256.size (by sl_kernel_rfl) y

/-- What this case leaves in the accumulator: its pieces read back. -/
def sout0_A_0 (c : Dev nD) (i : grid0.Coords) (arg2 : Memref sig .tc .vmem S1408x1664 .f32) (harg2 : arg2.IsWhole) (arg3 : Memref sig .tc .vmem S1664x256 .f32) (harg3 : arg3.IsWhole) (arg4 : Memref sig .tc .vmem S1408x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S1408x256 .f32) (harg7 : arg7.IsWhole) (arg8 : Memref sig .tc .vmem S1408x256 .f32) (harg8 : arg8.IsWhole) (hc0 : cond0_0 i) (hc1 : ¬cond0_1 i)
    (x0 : Vec F S1408x1664 .f32) (x1 : Vec F S1664x256 .f32) (x2 : Vec F S1408x256 .f32) (x3 : Vec F S256x256 .f32) (x4 : Vec F S256x256 .f32) : Vec F S1408x256 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3 x4).2.1)

/-- In this case nothing is stored into the output window (idle, not written back): a placeholder nothing consults. -/
def out0_B_5 (c : Dev nD) (i : grid0.Coords) (arg2 : Memref sig .tc .vmem S1408x1664 .f32) (harg2 : arg2.IsWhole) (arg3 : Memref sig .tc .vmem S1664x256 .f32) (harg3 : arg3.IsWhole) (arg4 : Memref sig .tc .vmem S1408x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S1408x256 .f32) (harg7 : arg7.IsWhole) (arg8 : Memref sig .tc .vmem S1408x256 .f32) (harg8 : arg8.IsWhole) (hc0 : ¬cond0_0 i) (hc1 : ¬cond0_1 i)
    (x0 : Vec F S1408x1664 .f32) (x1 : Vec F S1664x256 .f32) (x2 : Vec F S1408x256 .f32) (x3 : Vec F S256x256 .f32) (x4 : Vec F S256x256 .f32) (xs0 : Vec F S1408x256 .f32) : Vec F S1408x256 .f32 :=
  VO0_5.read (Elt F) (VO0_5.writes (Elt F) VO0_5.junk (kernelRun0_B c i arg2 harg2 arg3 harg3 arg4 harg4 arg5 harg5 arg6 harg6 arg7 harg7 arg8 harg8 hc0 hc1 x0 x1 x2 x3 x4 xs0).1)

/-- The accumulator's pieces in this case cover it. -/
theorem scover0_B_0 (c : Dev nD) (i : grid0.Coords) (arg2 : Memref sig .tc .vmem S1408x1664 .f32) (harg2 : arg2.IsWhole) (arg3 : Memref sig .tc .vmem S1664x256 .f32) (harg3 : arg3.IsWhole) (arg4 : Memref sig .tc .vmem S1408x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S1408x256 .f32) (harg7 : arg7.IsWhole) (arg8 : Memref sig .tc .vmem S1408x256 .f32) (harg8 : arg8.IsWhole) (hc0 : ¬cond0_0 i) (hc1 : ¬cond0_1 i)
    (x0 : Vec F S1408x1664 .f32) (x1 : Vec F S1664x256 .f32) (x2 : Vec F S1408x256 .f32) (x3 : Vec F S256x256 .f32) (x4 : Vec F S256x256 .f32) (xs0 : Vec F S1408x256 .f32) (y : S1408x256.Idx) :
    ∃ pc ∈ (kernelRun0_B c i arg2 harg2 arg3 harg3 arg4 harg4 arg5 harg5 arg6 harg6 arg7 harg7 arg8 harg8 hc0 hc1 x0 x1 x2 x3 x4 xs0).2.1, y ∈ pc.1.set :=
  View.cover_of_tiledL (kernelRun0_B c i arg2 harg2 arg3 harg3 arg4 harg4 arg5 harg5 arg6 harg6 arg7 harg7 arg8 harg8 hc0 hc1 x0 x1 x2 x3 x4 xs0).2.1 S1408x256.size (by sl_kernel_rfl) y

/-- What this case leaves in the accumulator: its pieces read back. -/
def sout0_B_0 (c : Dev nD) (i : grid0.Coords) (arg2 : Memref sig .tc .vmem S1408x1664 .f32) (harg2 : arg2.IsWhole) (arg3 : Memref sig .tc .vmem S1664x256 .f32) (harg3 : arg3.IsWhole) (arg4 : Memref sig .tc .vmem S1408x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S1408x256 .f32) (harg7 : arg7.IsWhole) (arg8 : Memref sig .tc .vmem S1408x256 .f32) (harg8 : arg8.IsWhole) (hc0 : ¬cond0_0 i) (hc1 : ¬cond0_1 i)
    (x0 : Vec F S1408x1664 .f32) (x1 : Vec F S1664x256 .f32) (x2 : Vec F S1408x256 .f32) (x3 : Vec F S256x256 .f32) (x4 : Vec F S256x256 .f32) (xs0 : Vec F S1408x256 .f32) : Vec F S1408x256 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 x4 xs0).2.1)

/-- At the last reduction step the output block is stored whole: its piece covers the buffer. -/
theorem cover0_C_5 (c : Dev nD) (i : grid0.Coords) (arg2 : Memref sig .tc .vmem S1408x1664 .f32) (harg2 : arg2.IsWhole) (arg3 : Memref sig .tc .vmem S1664x256 .f32) (harg3 : arg3.IsWhole) (arg4 : Memref sig .tc .vmem S1408x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S1408x256 .f32) (harg7 : arg7.IsWhole) (arg8 : Memref sig .tc .vmem S1408x256 .f32) (harg8 : arg8.IsWhole) (hc0 : ¬cond0_0 i) (hc1 : cond0_1 i)
    (x0 : Vec F S1408x1664 .f32) (x1 : Vec F S1664x256 .f32) (x2 : Vec F S1408x256 .f32) (x3 : Vec F S256x256 .f32) (x4 : Vec F S256x256 .f32) (xs0 : Vec F S1408x256 .f32) (y : S1408x256.Idx) :
    ∃ pc ∈ (kernelRun0_C c i arg2 harg2 arg3 harg3 arg4 harg4 arg5 harg5 arg6 harg6 arg7 harg7 arg8 harg8 hc0 hc1 x0 x1 x2 x3 x4 xs0).1, y ∈ pc.1.set :=
  View.cover_of_tiledL (kernelRun0_C c i arg2 harg2 arg3 harg3 arg4 harg4 arg5 harg5 arg6 harg6 arg7 harg7 arg8 harg8 hc0 hc1 x0 x1 x2 x3 x4 xs0).1 S1408x256.size (by sl_kernel_rfl) y

/-- What the last reduction step leaves in the output window's buffer. -/
def out0_C_5 (c : Dev nD) (i : grid0.Coords) (arg2 : Memref sig .tc .vmem S1408x1664 .f32) (harg2 : arg2.IsWhole) (arg3 : Memref sig .tc .vmem S1664x256 .f32) (harg3 : arg3.IsWhole) (arg4 : Memref sig .tc .vmem S1408x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S1408x256 .f32) (harg7 : arg7.IsWhole) (arg8 : Memref sig .tc .vmem S1408x256 .f32) (harg8 : arg8.IsWhole) (hc0 : ¬cond0_0 i) (hc1 : cond0_1 i)
    (x0 : Vec F S1408x1664 .f32) (x1 : Vec F S1664x256 .f32) (x2 : Vec F S1408x256 .f32) (x3 : Vec F S256x256 .f32) (x4 : Vec F S256x256 .f32) (xs0 : Vec F S1408x256 .f32) : Vec F S1408x256 .f32 :=
  VO0_5.read (Elt F) (VO0_5.writes (Elt F) VO0_5.junk (kernelRun0_C c i arg2 harg2 arg3 harg3 arg4 harg4 arg5 harg5 arg6 harg6 arg7 harg7 arg8 harg8 hc0 hc1 x0 x1 x2 x3 x4 xs0).1)

theorem scover0_C_0 (c : Dev nD) (i : grid0.Coords) (arg2 : Memref sig .tc .vmem S1408x1664 .f32) (harg2 : arg2.IsWhole) (arg3 : Memref sig .tc .vmem S1664x256 .f32) (harg3 : arg3.IsWhole) (arg4 : Memref sig .tc .vmem S1408x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S1408x256 .f32) (harg7 : arg7.IsWhole) (arg8 : Memref sig .tc .vmem S1408x256 .f32) (harg8 : arg8.IsWhole) (hc0 : ¬cond0_0 i) (hc1 : cond0_1 i)
    (x0 : Vec F S1408x1664 .f32) (x1 : Vec F S1664x256 .f32) (x2 : Vec F S1408x256 .f32) (x3 : Vec F S256x256 .f32) (x4 : Vec F S256x256 .f32) (xs0 : Vec F S1408x256 .f32) (y : S1408x256.Idx) :
    ∃ pc ∈ (kernelRun0_C c i arg2 harg2 arg3 harg3 arg4 harg4 arg5 harg5 arg6 harg6 arg7 harg7 arg8 harg8 hc0 hc1 x0 x1 x2 x3 x4 xs0).2.1, y ∈ pc.1.set :=
  View.cover_of_tiledL (kernelRun0_C c i arg2 harg2 arg3 harg3 arg4 harg4 arg5 harg5 arg6 harg6 arg7 harg7 arg8 harg8 hc0 hc1 x0 x1 x2 x3 x4 xs0).2.1 S1408x256.size (by sl_kernel_rfl) y

def sout0_C_0 (c : Dev nD) (i : grid0.Coords) (arg2 : Memref sig .tc .vmem S1408x1664 .f32) (harg2 : arg2.IsWhole) (arg3 : Memref sig .tc .vmem S1664x256 .f32) (harg3 : arg3.IsWhole) (arg4 : Memref sig .tc .vmem S1408x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S1408x256 .f32) (harg7 : arg7.IsWhole) (arg8 : Memref sig .tc .vmem S1408x256 .f32) (harg8 : arg8.IsWhole) (hc0 : ¬cond0_0 i) (hc1 : cond0_1 i)
    (x0 : Vec F S1408x1664 .f32) (x1 : Vec F S1664x256 .f32) (x2 : Vec F S1408x256 .f32) (x3 : Vec F S256x256 .f32) (x4 : Vec F S256x256 .f32) (xs0 : Vec F S1408x256 .f32) : Vec F S1408x256 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 x3 x4 xs0).2.1)

/-! ## What the output window's buffer and the accumulator hold after each point -/

/-- THE ACCUMULATION: the pair (output window's buffer, accumulator) after the body at position `n`: the case the
    closed forms select at `n`, run at the point's buffers and input blocks, the accumulator read at what the point
    before left. The two conditions never hold together. -/
def outsAt0 (c : Dev nD) : (n : ℕ) → n < cfg0.N → Vec F S1408x256 .f32 × Vec F S1408x256 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 44 = 0 then
      if h1 : (n + 1) % 44 = 43 then
        False.elim (by omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      if h1 : (n + 1) % 44 = 43 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)

theorem outsAt0_A (c : Dev nD) (t : Fin cfg0.N) (h0 : t.val % 44 = 0) (h1 : ¬t.val % 44 = 43) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans ((dif_neg h1).trans rfl)

theorem outsAt0_B (c : Dev nD) (t : Fin cfg0.N) (h0 : ¬t.val % 44 = 0) (h1 : ¬t.val % 44 = 43) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 44 = 0) (h1 : t.val % 44 = 43) :
    outsAt0 V c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point every scoped buffer the region does not stage is at
    anything; afterwards the accumulator is at what the point before left in it, the others at anything; the generator
    register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ otherScoped (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ otherScoped (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ otherScoped (F := F) c) ∗ (∃ r, prngReg c r)) := by
  cases n with
  | zero => exact absurd rfl hz
  | succ n => rfl

/-! ## The pipeline's proof data -/

/-- The proof data of the first pipeline on core `c`: the arrays as the region finds them; after the body at point `t`
    each input's buffer at its block and the output's at `outsAt0`'s first component; the invariant `PhiS`; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 16000000 in
/-- The body at any point. The inputs' buffers hold their blocks; the closed forms say which case the point is in; the
    invariant hands the body the accumulator at what the point before left (at anything before the first point) and
    takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hN : t.val < 88 := lt_of_lt_of_eq t.isLt (show cfg0.N = 88 from N_0)
  by_cases h0 : t.val % 44 = 0
  · by_cases h1 : t.val % 44 = 43
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [Dat.leavesExact_idle (dat0 V c) 5 t (idleAt0_5_A t ((hcond0_0 t).mpr h0) (fun h => h1 ((hcond0_1 t).mp h))) (noFlush0_5_A t ((hcond0_0 t).mpr h0) (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨⟨HS0, Hrest⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

      · rw [PhiS_castSucc V c t, PhiS_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

  · by_cases h1 : t.val % 44 = 43
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5_C t (fun h => h0 ((hcond0_0 t).mp h)) ((hcond0_1 t).mpr h1)], after0_5]
      rw [outsAt0_C V c t h0 h1]
      unfold out0_C_5 sout0_C_0; (try dsimp only)
      by_cases hz : t.val = 0
      · exfalso; omega
      · rw [PhiS_castSucc V c t, PhiS_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_C_5 c _ _ _ _ _ _ _ _ _ _ _ _ _ _ _ _ _ _ _ _ _ _ _)

    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [Dat.leavesExact_idle (dat0 V c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS_castSucc V c t, PhiS_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the entry form back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hrest⟩, Hg⟩
  isplitl [HS0 Hrest]
  · isplitl [HS0]
    · iexists _; iexact HS0
    iexact Hrest
  iexact Hg

theorem hout0 (c : Dev nD) : (dat0 V c).Φ (Fin.last cfg0.N) ⊢ Pipeline.ΦA spec0 c :=
  Phi_out0 V c _ (by rw [Fin.val_last]; have : cfg0.N = 88 := N_0; omega)

end Cert.Kernel.Hand

end
-- ==== Proof.Kernel.Layer2Body.lean ====
/- The second pallas_call (layer 2 and the head), one grid point at a time, at a PARAMETER `V`: the buffer contents
   the region is entered with. A point reads a block of 128 rows of the diffusion matrix and of the self rows, and
   the whole of the seven small operands; it stores the 128×8 block of the result once. This module states what
   that store leaves (`out1_11`: the body's two payload terms over the loaded blocks), proves the body's triple
   on whole staging buffers by symbolic execution, and packages it as the pipeline's proof data and its body
   obligation at every point. Nothing here depends on the float instance. -/
import proofs.«105755_j27273042329874_2_alg».proof.Proof.Kernel.LaunchP
import proofs.«105755_j27273042329874_2_alg».proof.Proof.Gen.Kernel.Skeleton
import proofs.«105755_j27273042329874_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's current staging buffer holds its block at every point, fetched there or not. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
/-- Input window 9's current staging buffer holds its block at every point, fetched there or not. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
/-- Input window 10's current staging buffer holds its block at every point, fetched there or not. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a whole buffer -/

abbrev rw_S128x2816 : Rect S128x2816 := Rect.unit (s := S128x2816) ![0, 0] S128x2816.size inb_S128x2816_S128x2816_0_0
abbrev rw_S2816x256 : Rect S2816x256 := Rect.unit (s := S2816x256) ![0, 0] S2816x256.size inb_S2816x256_S2816x256_0_0
abbrev rw_S128x256 : Rect S128x256 := Rect.unit (s := S128x256) ![0, 0] S128x256.size inb_S128x256_S128x256_0_0
abbrev rw_S256x256 : Rect S256x256 := Rect.unit (s := S256x256) ![0, 0] S256x256.size inb_S256x256_S256x256_0_0
abbrev rw_S256x64 : Rect S256x64 := Rect.unit (s := S256x64) ![0, 0] S256x64.size inb_S256x64_S256x64_0_0
abbrev rw_S1x64 : Rect S1x64 := Rect.unit (s := S1x64) ![0, 0] S1x64.size inb_S1x64_S1x64_0_0
abbrev rw_S64x64 : Rect S64x64 := Rect.unit (s := S64x64) ![0, 0] S64x64.size inb_S64x64_S64x64_0_0
abbrev rw_S64x8 : Rect S64x8 := Rect.unit (s := S64x8) ![0, 0] S64x8.size inb_S64x8_S64x8_0_0
abbrev rw_S1x8 : Rect S1x8 := Rect.unit (s := S1x8) ![0, 0] S1x8.size inb_S1x8_S1x8_0_0
abbrev rw_S128x8 : Rect S128x8 := Rect.unit (s := S128x8) ![0, 0] S128x8.size inb_S128x8_S128x8_0_0

/-! ## What the body leaves in the output window's buffer -/

/-- The result block after the body, from the input windows' blocks: its one store, of the head's payload over the
    first part's payload (layer 2, the row normalisation and the first head layer) and the remaining loads. -/
def out1_11 (x0 : Vec F S128x2816 .f32) (x1 : Vec F S2816x256 .f32) (x2 : Vec F S128x256 .f32) (x3 : Vec F S256x256 .f32) (x4 : Vec F S256x256 .f32) (x5 : Vec F S256x64 .f32) (x6 : Vec F S1x64 .f32) (x7 : Vec F S64x64 .f32) (x8 : Vec F S1x64 .f32) (x9 : Vec F S64x8 .f32) (x10 : Vec F S1x8 .f32) : Vec F S128x8 .f32 :=
  View.canon [⟨rw_S128x8, k1_pay1 (k1_pay2 (View.ld x0 rw_S128x2816) (View.ld x1 rw_S2816x256) (View.ld x2 rw_S128x256) (View.ld x3 rw_S256x256) (View.ld x4 rw_S256x256) (View.ld x5 rw_S256x64) (View.ld x6 rw_S1x64)) (Scalar.ofBits .f32 0x00000000#32) (View.ld x7 rw_S64x64) (View.ld x8 rw_S1x64) (View.ld x9 rw_S64x8) (View.ld x10 rw_S1x8)⟩]

/-- The store takes the whole buffer, so it covers it. -/
theorem cover1_11 (p0 : Vec F S128x8 .f32) (y : S128x8.Idx) :
    ∃ pc ∈ ([⟨rw_S128x8, p0⟩] : List (View.Piece (Elt F) S128x8 .f32)), y ∈ pc.1.set :=
  View.cover_of_tiled [⟨rw_S128x8, p0⟩] S128x8.size (by rfl) y

/-! ## The body's triple -/

set_option maxHeartbeats 4000000 in
/-- The body on whole staging buffers, the inputs' at contents `xW` and the output's at anything, runs to the
    continuation holding the inputs' as they were and the output's at `out1_11` of them. -/
theorem sound_kernel1 (c : Dev nD) (E : Set ℕ) (i : grid1.Coords) (arg1 : Memref sig .tc .vmem S128x2816 .f32) (harg1 : arg1.IsWhole) (arg2 : Memref sig .tc .vmem S2816x256 .f32) (harg2 : arg2.IsWhole) (arg3 : Memref sig .tc .vmem S128x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x8 .f32) (harg10 : arg10.IsWhole) (arg11 : Memref sig .tc .vmem S1x8 .f32) (harg11 : arg11.IsWhole) (arg12 : Memref sig .tc .vmem S128x8 .f32) (harg12 : arg12.IsWhole)
    (x0 : Vec F S128x2816 .f32) (x1 : Vec F S2816x256 .f32) (x2 : Vec F S128x256 .f32) (x3 : Vec F S256x256 .f32) (x4 : Vec F S256x256 .f32) (x5 : Vec F S256x64 .f32) (x6 : Vec F S1x64 .f32) (x7 : Vec F S64x64 .f32) (x8 : Vec F S1x64 .f32) (x9 : Vec F S64x8 .f32) (x10 : Vec F S1x8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out1_11 x0 x1 x2 x3 x4 x5 x6 x7 x8 x9 x10)) -∗ K ⟨⟩))
      ⊢ wp frame (wpE (defs₀ (F := F)) Variants.none c none) E (cc1__layer2_kernel i arg1 harg1 arg2 harg2 arg3 harg3 arg4 harg4 arg5 harg5 arg6 harg6 arg7 harg7 arg8 harg8 arg9 harg9 arg10 harg10 arg11 harg11 arg12 harg12) K := by
  simp only [cc1__layer2_kernel_eq_skeleton]; unfold cc1__layer2_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (cover1_11 _)

/-! ## The pipeline's proof data -/

/-- The proof data of the second pipeline on core `c`: the arrays as the region finds them; after the body at point
    `t` each input's buffer at its block and the output's at `out1_11` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t))

set_option maxHeartbeats 1000000 in
/-- The body at any point: the inputs' buffers hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel1 c Set.univ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.RunAll.lean ====
/- THE RUN of the whole program: @main is a stretch of host operations (the index arithmetic and the row gathers),
   the first pallas_call, a second stretch (the gathers of layer 1's rows, the weight slices, the bias reshapes) and the
   second pallas_call. The buffer contents at each of the five boundaries are a fold from the launch memory: a host
   stretch applies its operations; a pallas_call leaves its arrays at what its write-backs leave and every other buffer
   as entered. Every weakly fair execution terminates, and every final memory holds every unscoped buffer at the last
   boundary's contents (`run_all`); an argument array read through the fold is its launch contents (`W4_main_argK`). -/
import proofs.«105755_j27273042329874_2_alg».proof.Proof.Kernel.Layer1Body
import proofs.«105755_j27273042329874_2_alg».proof.Proof.Kernel.Layer2Body

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## What the host stretches write -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- The references the first stretch's operations write. -/
abbrev hostOps0_W : List (Ref sig .tc) := [main_c, main_v0, main_v1, main_c_0, main_v2, main_v3, main_v4, main_v5, main_v6, main_c_1, main_v7, main_v8, main_c_2, main_v9, main_v10, main_v11, main_v12, main_v13, main_c_3, main_v14, main_v15, main_c_4, main_v16, main_v17, main_v18, main_v19, main_v20, main_c_5, main_v21, main_v22, main_c_6, main_v23, main_v24, main_v25, main_v26, main_v27, main_v28, main_v29]
/-- The references the second stretch's operations write. -/
abbrev hostOps1_W : List (Ref sig .tc) := [main_c_7, main_v31, main_v32, main_c_8, main_v33, main_v34, main_v35, main_v36, main_v37, main_c_9, main_v38, main_v39, main_c_10, main_v40, main_v41, main_v42, main_v43, main_v44, main_v45, main_v46, main_v47, main_v48, main_v49]
set_option maxHeartbeats 4000000 in
theorem hostOps0_writes : (hostOps0 : List (HloOp τ sig (Elt F))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
set_option maxHeartbeats 4000000 in
theorem hostOps1_writes : (hostOps1 : List (HloOp τ sig (Elt F))).Forall fun op => op.writes ⊆ (hostOps1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- A buffer the first stretch does not write is as launched after it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- A buffer the second stretch does not write is as the first pallas_call left it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := (W2_arr m ρ c 0).trans (((dat0 (V1 m ρ) c).arrAt_in 0 rfl _).trans (A_eq0 (V1 m ρ) c 0))
    _ = W0 m ρ c (Proc.devRef .tc main_arg3) := W1_of m ρ c main_arg3 (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := (W4_arr m ρ c 0).trans (((dat1 (V3 m ρ) c).arrAt_in 0 rfl _).trans (A_eq1 (V3 m ρ) c 0))
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := W3_of m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl
theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := W3_of m ρ c main_arg9 (by decide)
    _ = W1 m ρ c (Proc.devRef .tc main_arg9) := W2_of_ne m ρ c main_arg9 (by decide)
    _ = W0 m ρ c (Proc.devRef .tc main_arg9) := W1_of m ρ c main_arg9 (by decide)
    _ = m ((c : Thread nD τ).loc main_arg9) := rfl
theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := (W4_arr m ρ c 5).trans (((dat1 (V3 m ρ) c).arrAt_in 5 rfl _).trans (A_eq1 (V3 m ρ) c 5))
    _ = W2 m ρ c (Proc.devRef .tc main_arg10) := W3_of m ρ c main_arg10 (by decide)
    _ = W1 m ρ c (Proc.devRef .tc main_arg10) := W2_of_ne m ρ c main_arg10 (by decide)
    _ = W0 m ρ c (Proc.devRef .tc main_arg10) := W1_of m ρ c main_arg10 (by decide)
    _ = m ((c : Thread nD τ).loc main_arg10) := rfl
theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := W3_of m ρ c main_arg11 (by decide)
    _ = W1 m ρ c (Proc.devRef .tc main_arg11) := W2_of_ne m ρ c main_arg11 (by decide)
    _ = W0 m ρ c (Proc.devRef .tc main_arg11) := W1_of m ρ c main_arg11 (by decide)
    _ = m ((c : Thread nD τ).loc main_arg11) := rfl
theorem W4_main_arg12 (c : Dev nD) : W4 m ρ c (Proc.devRef .tc main_arg12) = m ((c : Thread nD τ).loc main_arg12) :=
  calc W4 m ρ c (Proc.devRef .tc main_arg12)
    _ = W3 m ρ c (Proc.devRef .tc main_arg12) := (W4_arr m ρ c 7).trans (((dat1 (V3 m ρ) c).arrAt_in 7 rfl _).trans (A_eq1 (V3 m ρ) c 7))
    _ = W2 m ρ c (Proc.devRef .tc main_arg12) := W3_of m ρ c main_arg12 (by decide)
    _ = W1 m ρ c (Proc.devRef .tc main_arg12) := W2_of_ne m ρ c main_arg12 (by decide)
    _ = W0 m ρ c (Proc.devRef .tc main_arg12) := W1_of m ρ c main_arg12 (by decide)
    _ = m ((c : Thread nD τ).loc main_arg12) := rfl
theorem W4_main_arg13 (c : Dev nD) : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := W3_of m ρ c main_arg13 (by decide)
    _ = W1 m ρ c (Proc.devRef .tc main_arg13) := W2_of_ne m ρ c main_arg13 (by decide)
    _ = W0 m ρ c (Proc.devRef .tc main_arg13) := W1_of m ρ c main_arg13 (by decide)
    _ = m ((c : Thread nD τ).loc main_arg13) := rfl
theorem W4_main_arg14 (c : Dev nD) : W4 m ρ c (Proc.devRef .tc main_arg14) = m ((c : Thread nD τ).loc main_arg14) :=
  calc W4 m ρ c (Proc.devRef .tc main_arg14)
    _ = W3 m ρ c (Proc.devRef .tc main_arg14) := (W4_arr m ρ c 9).trans (((dat1 (V3 m ρ) c).arrAt_in 9 rfl _).trans (A_eq1 (V3 m ρ) c 9))
    _ = W2 m ρ c (Proc.devRef .tc main_arg14) := W3_of m ρ c main_arg14 (by decide)
    _ = W1 m ρ c (Proc.devRef .tc main_arg14) := W2_of_ne m ρ c main_arg14 (by decide)
    _ = W0 m ρ c (Proc.devRef .tc main_arg14) := W1_of m ρ c main_arg14 (by decide)
    _ = m ((c : Thread nD τ).loc main_arg14) := rfl
theorem W4_main_arg15 (c : Dev nD) : W4 m ρ c (Proc.devRef .tc main_arg15) = m ((c : Thread nD τ).loc main_arg15) :=
  calc W4 m ρ c (Proc.devRef .tc main_arg15)
    _ = W3 m ρ c (Proc.devRef .tc main_arg15) := W4_of_ne m ρ c main_arg15 (by decide)
    _ = W2 m ρ c (Proc.devRef .tc main_arg15) := W3_of m ρ c main_arg15 (by decide)
    _ = W1 m ρ c (Proc.devRef .tc main_arg15) := W2_of_ne m ρ c main_arg15 (by decide)
    _ = W0 m ρ c (Proc.devRef .tc main_arg15) := W1_of m ρ c main_arg15 (by decide)
    _ = m ((c : Thread nD τ).loc main_arg15) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

/-- The first call's entry invariant from what the region hands over, whatever rides in the middle. -/
theorem phiA_intro0 (c : Dev nD) (P : sProp 𝕄) :
    iprop((∃ r, prngReg c r) ∗ P ∗ Pipeline.scopedRest spec0 c) ⊢ (Pipeline.ΦA spec0 c : sProp 𝕄) := by
  unfold Pipeline.ΦA
  iintro ⟨Hp, -, Hr⟩
  isplitl [Hr]; · iexact Hr
  iexact Hp
/-- and what it gives back at the exit. -/
theorem phiA_elim0 (c : Dev nD) :
    (Pipeline.ΦA spec0 c : sProp 𝕄) ⊢ iprop((∃ r, prngReg c r) ∗ BI.emp ∗ Pipeline.scopedRest spec0 c) := by
  unfold Pipeline.ΦA
  iintro ⟨Hr, Hp⟩
  isplitl [Hp]; · iexact Hp
  isplitr; · iempintro
  iexact Hr

set_option backward.isDefEq.respectTransparency.types false in
/-- The first pallas_call as a segment over the thread state: entered with every unscoped buffer at the boundary's
    contents, left with them at the next boundary's. Its arrays are split out of the unscoped buffers and put back at
    the contents its write-backs leave; the generator register goes into the invariant and comes back; nothing is owed;
    the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact (phiA_intro0 c _).trans (hin0 (V1 m ρ) c)
  hout c := by
    rw [Pipeline.ownSems0_none]
    exact (hout0 (V1 m ρ) c).trans (phiA_elim0 c)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call as a segment over the thread state: entered with every unscoped buffer at the boundary's
    contents, left with them at the next boundary's. Its arrays are split out of the unscoped buffers and put back at
    the contents its write-backs leave; the generator register goes into the invariant and comes back; nothing is owed;
    the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters, every weakly fair execution of @main terminates, nothing faulting, and
    every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨(h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c),
      (h c _ (mem_uc main_arg9 (by decide))).trans (W4_main_arg9 m ρ c),
      (h c _ (mem_uc main_arg10 (by decide))).trans (W4_main_arg10 m ρ c),
      (h c _ (mem_uc main_arg11 (by decide))).trans (W4_main_arg11 m ρ c),
      (h c _ (mem_uc main_arg12 (by decide))).trans (W4_main_arg12 m ρ c),
      (h c _ (mem_uc main_arg13 (by decide))).trans (W4_main_arg13 m ρ c),
      (h c _ (mem_uc main_arg14 (by decide))).trans (W4_main_arg14 m ρ c),
      (h c _ (mem_uc main_arg15 (by decide))).trans (W4_main_arg15 m ρ c)⟩) (run_all m ρ)

end Cert.Kernel.Hand

end
-- ==== Proof.KernelIdeal.Layer1Runs.lean ====
/- The first pallas_call (layer 1) on its 2 × 44 grid: what the three control cases of its body share. The body
   zeroes the accumulator when the reduction coordinate is 0, adds one tile product at every point, and when the
   reduction coordinate is 43 stores the output block from the accumulator. Here: a window's block at a point read
   off the entry contents `V`, the two branch conditions in closed form over the grid, where the output window is
   idle, the staging and scratch buffers by name, and the region invariant with the scratch buffer singled out. -/
import proofs.«105755_j27273042329874_2_alg».proof.Proof.KernelIdeal.LaunchP
import proofs.«105755_j27273042329874_2_alg».proof.Proof.Gen.KernelIdeal.Skeleton
import proofs.«105755_j27273042329874_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The first conditional's condition (the reduction coordinate is 0), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 44) — decided over the grid. -/
theorem hcond0_0 : ∀ t : Fin cfg0.N, cond0_0 (grid0.coords t) ↔ t.val % 44 = 0 :=
  (by decide +kernel : ∀ t : Fin grid0.N, cond0_0 (grid0.coords t) ↔ t.val % 44 = 0)

/-- The second conditional's condition (the reduction coordinate is 43). -/
abbrev cond0_1 (i : grid0.Coords) : Prop := k0_cond2 i = 1#1
/-- It holds at the points ≡ 43 (mod 44) — decided over the grid. -/
theorem hcond0_1 : ∀ t : Fin cfg0.N, cond0_1 (grid0.coords t) ↔ t.val % 44 = 43 :=
  (by decide +kernel : ∀ t : Fin grid0.N, cond0_1 (grid0.coords t) ↔ t.val % 44 = 43)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Where the accumulator is only zeroed and added to, the output window is idle and not written back. -/
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
theorem idleAt0_5_B : ∀ t : Fin cfg0.N, ¬cond0_0 (grid0.coords t) → ¬cond0_1 (grid0.coords t) → cfg0.idle 5 (grid0.coords t) = true := by decide +kernel
theorem noFlush0_5_B : ∀ t : Fin cfg0.N, ¬cond0_0 (grid0.coords t) → ¬cond0_1 (grid0.coords t) → (cfg0.win 5).flush t = false := by decide +kernel
/-- At the last reduction step the output window is live: the body stores its block. -/
theorem liveAt0_5_C : ∀ t : Fin cfg0.N, ¬cond0_0 (grid0.coords t) → cond0_1 (grid0.coords t) → cfg0.idle 5 (grid0.coords t) = false := by decide +kernel

/-! ## The buffers by name -/

/-- One staging buffer of the output window, through which its contents are stated. -/
abbrev VO0_5 : View sig .tc .vmem S1408x256 .f32 := (Memref.whole cc0_stg5_0 : Memref sig .tc .vmem S1408x256 .f32).view
abbrev ms0_0 (t : Fin cfg0.N) : Memref sig .tc .vmem S1408x1664 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1664x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1408x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1408x256 .f32 := win0_5.stage (cfg0.slots t 5)
abbrev hs0_5 (t : Fin cfg0.N) : (ms0_5 t).IsWhole := hstage0_5 ((cfg0.slots t 5).cast nbuf0_5)
/-- The accumulator: a whole scoped buffer of the kernel's own, passed beside the windows. -/
abbrev scM0_0 : Memref sig .tc .vmem S1408x256 .f32 := Memref.whole cc0_scratch0
/-- The accumulator as a view: what it holds is stated through it. -/
abbrev VS0_0 : View sig .tc .vmem S1408x256 .f32 := scM0_0.view

/-- The scoped buffers the region neither stages nor uses (the second call's staging buffers), each at some contents. -/
abbrev otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg10_0), ((c : Thread nD τ).loc cc1_stg10_0) ↦{fullShare} f) ∗ (∃ f : Buf (Elt F) ((c : Thread nD τ).loc cc1_stg11_0), ((c : Thread nD τ).loc cc1_stg11_0) ↦{fullShare} f) ∗ (∃ f : Buf (Elt F) ((c : Thread nD τ).loc cc1_stg11_1), ((c : Thread nD τ).loc cc1_stg11_1) ↦{fullShare} f))

/-- The region's invariant with the accumulator as a buffer owned at some contents. -/
theorem PhiA0_eq (c : Dev nD) :
    (Pipeline.ΦA spec0 c : sProp 𝕄)
      = iprop(iprop((∃ d, owns (c : Thread nD τ) scM0_0 fullShare d) ∗ otherScoped (F := F) c) ∗ (∃ r, prngReg c r)) := by
  unfold Pipeline.ΦA; rw [scopedRest0_eq]; simp only [scM0_0, owns_whole]; try rfl

end Cert.KernelIdeal.Hand

end
-- ==== Proof.KernelIdeal.Layer1RunA.lean ====
/- The first pallas_call's body run whole in the control case where the reduction coordinate is 0 (and not 43): the accumulator is zeroed, then one tile product is added; the output window is idle. The run is by symbolic
   execution of the body's memory skeleton; what each buffer ends with is found by the run as a list of stored
   pieces (last first), and packaged with the triple. -/
import proofs.«105755_j27273042329874_2_alg».proof.Proof.KernelIdeal.Layer1Runs

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output window's buffer and in the accumulator in this case, WITH the
    triple: on whole buffers — the inputs' at their contents, the idle output's at contents handed back untouched, the accumulator
    at anything — the body runs to the continuation holding the inputs' as they were and each buffer it stored into with its
    pieces written. -/
noncomputable def kernelRun0_A (c : Dev nD) (i : grid0.Coords) (arg2 : Memref sig .tc .vmem S1408x1664 .f32) (harg2 : arg2.IsWhole) (arg3 : Memref sig .tc .vmem S1664x256 .f32) (harg3 : arg3.IsWhole) (arg4 : Memref sig .tc .vmem S1408x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S1408x256 .f32) (harg7 : arg7.IsWhole) (arg8 : Memref sig .tc .vmem S1408x256 .f32) (harg8 : arg8.IsWhole) (hc0 : cond0_0 i) (hc1 : ¬cond0_1 i)
    (x0 : Vec F S1408x1664 .f32) (x1 : Vec F S1664x256 .f32) (x2 : Vec F S1408x256 .f32) (x3 : Vec F S256x256 .f32) (x4 : Vec F S256x256 .f32) :
    Σ' (L5 : List (View.Piece (Elt F) S1408x256 .f32)), { LS0 : List (View.Piece (Elt F) S1408x256 .f32) //
      ∀ (xi5 : Vec F S1408x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__layer1_kernel i arg2 harg2 arg3 harg3 arg4 harg4 arg5 harg5 arg6 harg6 arg7 harg7 arg8 harg8) K } := by
  refine ⟨[], ?_, fun xi5 E K => ?run⟩
  case run =>
    simp only [cc0__layer1_kernel_eq_skeleton]; unfold cc0__layer1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.KernelIdeal.Layer1RunB.lean ====
/- The first pallas_call's body run whole in the control case where the reduction coordinate is neither 0 nor 43: one tile product is added to the accumulator; the output window is idle. The run is by symbolic
   execution of the body's memory skeleton; what each buffer ends with is found by the run as a list of stored
   pieces (last first), and packaged with the triple. -/
import proofs.«105755_j27273042329874_2_alg».proof.Proof.KernelIdeal.Layer1RunA

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output window's buffer and in the accumulator in this case, WITH the
    triple: on whole buffers — the inputs' at their contents, the idle output's at contents handed back untouched, the accumulator
    at what the point before left — the body runs to the continuation holding the inputs' as they were and each buffer it stored into with its
    pieces written. -/
noncomputable def kernelRun0_B (c : Dev nD) (i : grid0.Coords) (arg2 : Memref sig .tc .vmem S1408x1664 .f32) (harg2 : arg2.IsWhole) (arg3 : Memref sig .tc .vmem S1664x256 .f32) (harg3 : arg3.IsWhole) (arg4 : Memref sig .tc .vmem S1408x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S1408x256 .f32) (harg7 : arg7.IsWhole) (arg8 : Memref sig .tc .vmem S1408x256 .f32) (harg8 : arg8.IsWhole) (hc0 : ¬cond0_0 i) (hc1 : ¬cond0_1 i)
    (x0 : Vec F S1408x1664 .f32) (x1 : Vec F S1664x256 .f32) (x2 : Vec F S1408x256 .f32) (x3 : Vec F S256x256 .f32) (x4 : Vec F S256x256 .f32) (xs0 : Vec F S1408x256 .f32) :
    Σ' (L5 : List (View.Piece (Elt F) S1408x256 .f32)), { LS0 : List (View.Piece (Elt F) S1408x256 .f32) //
      ∀ (xi5 : Vec F S1408x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__layer1_kernel i arg2 harg2 arg3 harg3 arg4 harg4 arg5 harg5 arg6 harg6 arg7 harg7 arg8 harg8) K } := by
  refine ⟨[], ?_, fun xi5 E K => ?run⟩
  case run =>
    simp only [cc0__layer1_kernel_eq_skeleton]; unfold cc0__layer1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.KernelIdeal.Layer1RunC.lean ====
/- The first pallas_call's body run whole in the control case where the reduction coordinate is 43 (and not 0): one tile product is added, then the output block is stored from the accumulator. The run is by symbolic
   execution of the body's memory skeleton; what each buffer ends with is found by the run as a list of stored
   pieces (last first), and packaged with the triple. -/
import proofs.«105755_j27273042329874_2_alg».proof.Proof.KernelIdeal.Layer1RunB

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output window's buffer and in the accumulator in this case, WITH the
    triple: on whole buffers — the inputs' at their contents, the output's at anything, the accumulator
    at what the point before left — the body runs to the continuation holding the inputs' as they were and each buffer it stored into with its
    pieces written. -/
noncomputable def kernelRun0_C (c : Dev nD) (i : grid0.Coords) (arg2 : Memref sig .tc .vmem S1408x1664 .f32) (harg2 : arg2.IsWhole) (arg3 : Memref sig .tc .vmem S1664x256 .f32) (harg3 : arg3.IsWhole) (arg4 : Memref sig .tc .vmem S1408x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S1408x256 .f32) (harg7 : arg7.IsWhole) (arg8 : Memref sig .tc .vmem S1408x256 .f32) (harg8 : arg8.IsWhole) (hc0 : ¬cond0_0 i) (hc1 : cond0_1 i)
    (x0 : Vec F S1408x1664 .f32) (x1 : Vec F S1664x256 .f32) (x2 : Vec F S1408x256 .f32) (x3 : Vec F S256x256 .f32) (x4 : Vec F S256x256 .f32) (xs0 : Vec F S1408x256 .f32) :
    Σ' (L5 : List (View.Piece (Elt F) S1408x256 .f32)), { LS0 : List (View.Piece (Elt F) S1408x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0__layer1_kernel i arg2 harg2 arg3 harg3 arg4 harg4 arg5 harg5 arg6 harg6 arg7 harg7 arg8 harg8) K } := by
  refine ⟨?_, ?_, fun E K => ?run⟩
  case run =>
    simp only [cc0__layer1_kernel_eq_skeleton]; unfold cc0__layer1_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Hand

end
-- ==== Proof.KernelIdeal.Layer1Body.lean ====
/- The first pallas_call point by point. Per control case: what the body leaves in the output window's buffer and in
   the accumulator (the run's pieces read back), and that the accumulator's pieces cover it. Then THE ACCUMULATION:
   what both hold after every grid point, by recursion on the point (the accumulator is read at what the point
   before left); the region invariant that carries the accumulator's contents from point to point; the pipeline's
   proof data; and the body obligation at every point, by cases on the two branch conditions. -/
import proofs.«105755_j27273042329874_2_alg».proof.Proof.KernelIdeal.Layer1RunC

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- In this case nothing is stored into the output window (idle, not written back): a placeholder nothing consults. -/
def out0_A_5 (c : Dev nD) (i : grid0.Coords) (arg2 : Memref sig .tc .vmem S1408x1664 .f32) (harg2 : arg2.IsWhole) (arg3 : Memref sig .tc .vmem S1664x256 .f32) (harg3 : arg3.IsWhole) (arg4 : Memref sig .tc .vmem S1408x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S1408x256 .f32) (harg7 : arg7.IsWhole) (arg8 : Memref sig .tc .vmem S1408x256 .f32) (harg8 : arg8.IsWhole) (hc0 : cond0_0 i) (hc1 : ¬cond0_1 i)
    (x0 : Vec F S1408x1664 .f32) (x1 : Vec F S1664x256 .f32) (x2 : Vec F S1408x256 .f32) (x3 : Vec F S256x256 .f32) (x4 : Vec F S256x256 .f32) : Vec F S1408x256 .f32 :=
  VO0_5.read (Elt F) (VO0_5.writes (Elt F) VO0_5.junk (kernelRun0_A c i arg2 harg2 arg3 harg3 arg4 harg4 arg5 harg5 arg6 harg6 arg7 harg7 arg8 harg8 hc0 hc1 x0 x1 x2 x3 x4).1)

/-- The accumulator's pieces in this case cover it. -/
theorem scover0_A_0 (c : Dev nD) (i : grid0.Coords) (arg2 : Memref sig .tc .vmem S1408x1664 .f32) (harg2 : arg2.IsWhole) (arg3 : Memref sig .tc .vmem S1664x256 .f32) (harg3 : arg3.IsWhole) (arg4 : Memref sig .tc .vmem S1408x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S1408x256 .f32) (harg7 : arg7.IsWhole) (arg8 : Memref sig .tc .vmem S1408x256 .f32) (harg8 : arg8.IsWhole) (hc0 : cond0_0 i) (hc1 : ¬cond0_1 i)
    (x0 : Vec F S1408x1664 .f32) (x1 : Vec F S1664x256 .f32) (x2 : Vec F S1408x256 .f32) (x3 : Vec F S256x256 .f32) (x4 : Vec F S256x256 .f32) (y : S1408x256.Idx) :
    ∃ pc ∈ (kernelRun0_A c i arg2 harg2 arg3 harg3 arg4 harg4 arg5 harg5 arg6 harg6 arg7 harg7 arg8 harg8 hc0 hc1 x0 x1 x2 x3 x4).2.1, y ∈ pc.1.set :=
  View.cover_of_tiledL (kernelRun0_A c i arg2 harg2 arg3 harg3 arg4 harg4 arg5 harg5 arg6 harg6 arg7 harg7 arg8 harg8 hc0 hc1 x0 x1 x2 x3 x4).2.1 S1408x256.size (by sl_kernel_rfl) y

/-- What this case leaves in the accumulator: its pieces read back. -/
def sout0_A_0 (c : Dev nD) (i : grid0.Coords) (arg2 : Memref sig .tc .vmem S1408x1664 .f32) (harg2 : arg2.IsWhole) (arg3 : Memref sig .tc .vmem S1664x256 .f32) (harg3 : arg3.IsWhole) (arg4 : Memref sig .tc .vmem S1408x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S1408x256 .f32) (harg7 : arg7.IsWhole) (arg8 : Memref sig .tc .vmem S1408x256 .f32) (harg8 : arg8.IsWhole) (hc0 : cond0_0 i) (hc1 : ¬cond0_1 i)
    (x0 : Vec F S1408x1664 .f32) (x1 : Vec F S1664x256 .f32) (x2 : Vec F S1408x256 .f32) (x3 : Vec F S256x256 .f32) (x4 : Vec F S256x256 .f32) : Vec F S1408x256 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3 x4).2.1)

/-- In this case nothing is stored into the output window (idle, not written back): a placeholder nothing consults. -/
def out0_B_5 (c : Dev nD) (i : grid0.Coords) (arg2 : Memref sig .tc .vmem S1408x1664 .f32) (harg2 : arg2.IsWhole) (arg3 : Memref sig .tc .vmem S1664x256 .f32) (harg3 : arg3.IsWhole) (arg4 : Memref sig .tc .vmem S1408x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S1408x256 .f32) (harg7 : arg7.IsWhole) (arg8 : Memref sig .tc .vmem S1408x256 .f32) (harg8 : arg8.IsWhole) (hc0 : ¬cond0_0 i) (hc1 : ¬cond0_1 i)
    (x0 : Vec F S1408x1664 .f32) (x1 : Vec F S1664x256 .f32) (x2 : Vec F S1408x256 .f32) (x3 : Vec F S256x256 .f32) (x4 : Vec F S256x256 .f32) (xs0 : Vec F S1408x256 .f32) : Vec F S1408x256 .f32 :=
  VO0_5.read (Elt F) (VO0_5.writes (Elt F) VO0_5.junk (kernelRun0_B c i arg2 harg2 arg3 harg3 arg4 harg4 arg5 harg5 arg6 harg6 arg7 harg7 arg8 harg8 hc0 hc1 x0 x1 x2 x3 x4 xs0).1)

/-- The accumulator's pieces in this case cover it. -/
theorem scover0_B_0 (c : Dev nD) (i : grid0.Coords) (arg2 : Memref sig .tc .vmem S1408x1664 .f32) (harg2 : arg2.IsWhole) (arg3 : Memref sig .tc .vmem S1664x256 .f32) (harg3 : arg3.IsWhole) (arg4 : Memref sig .tc .vmem S1408x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S1408x256 .f32) (harg7 : arg7.IsWhole) (arg8 : Memref sig .tc .vmem S1408x256 .f32) (harg8 : arg8.IsWhole) (hc0 : ¬cond0_0 i) (hc1 : ¬cond0_1 i)
    (x0 : Vec F S1408x1664 .f32) (x1 : Vec F S1664x256 .f32) (x2 : Vec F S1408x256 .f32) (x3 : Vec F S256x256 .f32) (x4 : Vec F S256x256 .f32) (xs0 : Vec F S1408x256 .f32) (y : S1408x256.Idx) :
    ∃ pc ∈ (kernelRun0_B c i arg2 harg2 arg3 harg3 arg4 harg4 arg5 harg5 arg6 harg6 arg7 harg7 arg8 harg8 hc0 hc1 x0 x1 x2 x3 x4 xs0).2.1, y ∈ pc.1.set :=
  View.cover_of_tiledL (kernelRun0_B c i arg2 harg2 arg3 harg3 arg4 harg4 arg5 harg5 arg6 harg6 arg7 harg7 arg8 harg8 hc0 hc1 x0 x1 x2 x3 x4 xs0).2.1 S1408x256.size (by sl_kernel_rfl) y

/-- What this case leaves in the accumulator: its pieces read back. -/
def sout0_B_0 (c : Dev nD) (i : grid0.Coords) (arg2 : Memref sig .tc .vmem S1408x1664 .f32) (harg2 : arg2.IsWhole) (arg3 : Memref sig .tc .vmem S1664x256 .f32) (harg3 : arg3.IsWhole) (arg4 : Memref sig .tc .vmem S1408x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S1408x256 .f32) (harg7 : arg7.IsWhole) (arg8 : Memref sig .tc .vmem S1408x256 .f32) (harg8 : arg8.IsWhole) (hc0 : ¬cond0_0 i) (hc1 : ¬cond0_1 i)
    (x0 : Vec F S1408x1664 .f32) (x1 : Vec F S1664x256 .f32) (x2 : Vec F S1408x256 .f32) (x3 : Vec F S256x256 .f32) (x4 : Vec F S256x256 .f32) (xs0 : Vec F S1408x256 .f32) : Vec F S1408x256 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 x4 xs0).2.1)

/-- At the last reduction step the output block is stored whole: its piece covers the buffer. -/
theorem cover0_C_5 (c : Dev nD) (i : grid0.Coords) (arg2 : Memref sig .tc .vmem S1408x1664 .f32) (harg2 : arg2.IsWhole) (arg3 : Memref sig .tc .vmem S1664x256 .f32) (harg3 : arg3.IsWhole) (arg4 : Memref sig .tc .vmem S1408x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S1408x256 .f32) (harg7 : arg7.IsWhole) (arg8 : Memref sig .tc .vmem S1408x256 .f32) (harg8 : arg8.IsWhole) (hc0 : ¬cond0_0 i) (hc1 : cond0_1 i)
    (x0 : Vec F S1408x1664 .f32) (x1 : Vec F S1664x256 .f32) (x2 : Vec F S1408x256 .f32) (x3 : Vec F S256x256 .f32) (x4 : Vec F S256x256 .f32) (xs0 : Vec F S1408x256 .f32) (y : S1408x256.Idx) :
    ∃ pc ∈ (kernelRun0_C c i arg2 harg2 arg3 harg3 arg4 harg4 arg5 harg5 arg6 harg6 arg7 harg7 arg8 harg8 hc0 hc1 x0 x1 x2 x3 x4 xs0).1, y ∈ pc.1.set :=
  View.cover_of_tiledL (kernelRun0_C c i arg2 harg2 arg3 harg3 arg4 harg4 arg5 harg5 arg6 harg6 arg7 harg7 arg8 harg8 hc0 hc1 x0 x1 x2 x3 x4 xs0).1 S1408x256.size (by sl_kernel_rfl) y

/-- What the last reduction step leaves in the output window's buffer. -/
def out0_C_5 (c : Dev nD) (i : grid0.Coords) (arg2 : Memref sig .tc .vmem S1408x1664 .f32) (harg2 : arg2.IsWhole) (arg3 : Memref sig .tc .vmem S1664x256 .f32) (harg3 : arg3.IsWhole) (arg4 : Memref sig .tc .vmem S1408x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S1408x256 .f32) (harg7 : arg7.IsWhole) (arg8 : Memref sig .tc .vmem S1408x256 .f32) (harg8 : arg8.IsWhole) (hc0 : ¬cond0_0 i) (hc1 : cond0_1 i)
    (x0 : Vec F S1408x1664 .f32) (x1 : Vec F S1664x256 .f32) (x2 : Vec F S1408x256 .f32) (x3 : Vec F S256x256 .f32) (x4 : Vec F S256x256 .f32) (xs0 : Vec F S1408x256 .f32) : Vec F S1408x256 .f32 :=
  VO0_5.read (Elt F) (VO0_5.writes (Elt F) VO0_5.junk (kernelRun0_C c i arg2 harg2 arg3 harg3 arg4 harg4 arg5 harg5 arg6 harg6 arg7 harg7 arg8 harg8 hc0 hc1 x0 x1 x2 x3 x4 xs0).1)

theorem scover0_C_0 (c : Dev nD) (i : grid0.Coords) (arg2 : Memref sig .tc .vmem S1408x1664 .f32) (harg2 : arg2.IsWhole) (arg3 : Memref sig .tc .vmem S1664x256 .f32) (harg3 : arg3.IsWhole) (arg4 : Memref sig .tc .vmem S1408x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S1408x256 .f32) (harg7 : arg7.IsWhole) (arg8 : Memref sig .tc .vmem S1408x256 .f32) (harg8 : arg8.IsWhole) (hc0 : ¬cond0_0 i) (hc1 : cond0_1 i)
    (x0 : Vec F S1408x1664 .f32) (x1 : Vec F S1664x256 .f32) (x2 : Vec F S1408x256 .f32) (x3 : Vec F S256x256 .f32) (x4 : Vec F S256x256 .f32) (xs0 : Vec F S1408x256 .f32) (y : S1408x256.Idx) :
    ∃ pc ∈ (kernelRun0_C c i arg2 harg2 arg3 harg3 arg4 harg4 arg5 harg5 arg6 harg6 arg7 harg7 arg8 harg8 hc0 hc1 x0 x1 x2 x3 x4 xs0).2.1, y ∈ pc.1.set :=
  View.cover_of_tiledL (kernelRun0_C c i arg2 harg2 arg3 harg3 arg4 harg4 arg5 harg5 arg6 harg6 arg7 harg7 arg8 harg8 hc0 hc1 x0 x1 x2 x3 x4 xs0).2.1 S1408x256.size (by sl_kernel_rfl) y

def sout0_C_0 (c : Dev nD) (i : grid0.Coords) (arg2 : Memref sig .tc .vmem S1408x1664 .f32) (harg2 : arg2.IsWhole) (arg3 : Memref sig .tc .vmem S1664x256 .f32) (harg3 : arg3.IsWhole) (arg4 : Memref sig .tc .vmem S1408x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S1408x256 .f32) (harg7 : arg7.IsWhole) (arg8 : Memref sig .tc .vmem S1408x256 .f32) (harg8 : arg8.IsWhole) (hc0 : ¬cond0_0 i) (hc1 : cond0_1 i)
    (x0 : Vec F S1408x1664 .f32) (x1 : Vec F S1664x256 .f32) (x2 : Vec F S1408x256 .f32) (x3 : Vec F S256x256 .f32) (x4 : Vec F S256x256 .f32) (xs0 : Vec F S1408x256 .f32) : Vec F S1408x256 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 x3 x4 xs0).2.1)

/-! ## What the output window's buffer and the accumulator hold after each point -/

/-- THE ACCUMULATION: the pair (output window's buffer, accumulator) after the body at position `n`: the case the
    closed forms select at `n`, run at the point's buffers and input blocks, the accumulator read at what the point
    before left. The two conditions never hold together. -/
def outsAt0 (c : Dev nD) : (n : ℕ) → n < cfg0.N → Vec F S1408x256 .f32 × Vec F S1408x256 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 44 = 0 then
      if h1 : (n + 1) % 44 = 43 then
        False.elim (by omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      if h1 : (n + 1) % 44 = 43 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)

theorem outsAt0_A (c : Dev nD) (t : Fin cfg0.N) (h0 : t.val % 44 = 0) (h1 : ¬t.val % 44 = 43) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans ((dif_neg h1).trans rfl)

theorem outsAt0_B (c : Dev nD) (t : Fin cfg0.N) (h0 : ¬t.val % 44 = 0) (h1 : ¬t.val % 44 = 43) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 44 = 0) (h1 : t.val % 44 = 43) :
    outsAt0 V c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point every scoped buffer the region does not stage is at
    anything; afterwards the accumulator is at what the point before left in it, the others at anything; the generator
    register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ otherScoped (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ otherScoped (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ otherScoped (F := F) c) ∗ (∃ r, prngReg c r)) := by
  cases n with
  | zero => exact absurd rfl hz
  | succ n => rfl

/-! ## The pipeline's proof data -/

/-- The proof data of the first pipeline on core `c`: the arrays as the region finds them; after the body at point `t`
    each input's buffer at its block and the output's at `outsAt0`'s first component; the invariant `PhiS`; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 16000000 in
/-- The body at any point. The inputs' buffers hold their blocks; the closed forms say which case the point is in; the
    invariant hands the body the accumulator at what the point before left (at anything before the first point) and
    takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hN : t.val < 88 := lt_of_lt_of_eq t.isLt (show cfg0.N = 88 from N_0)
  by_cases h0 : t.val % 44 = 0
  · by_cases h1 : t.val % 44 = 43
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [Dat.leavesExact_idle (dat0 V c) 5 t (idleAt0_5_A t ((hcond0_0 t).mpr h0) (fun h => h1 ((hcond0_1 t).mp h))) (noFlush0_5_A t ((hcond0_0 t).mpr h0) (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨⟨HS0, Hrest⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

      · rw [PhiS_castSucc V c t, PhiS_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

  · by_cases h1 : t.val % 44 = 43
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5_C t (fun h => h0 ((hcond0_0 t).mp h)) ((hcond0_1 t).mpr h1)], after0_5]
      rw [outsAt0_C V c t h0 h1]
      unfold out0_C_5 sout0_C_0; (try dsimp only)
      by_cases hz : t.val = 0
      · exfalso; omega
      · rw [PhiS_castSucc V c t, PhiS_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_C_5 c _ _ _ _ _ _ _ _ _ _ _ _ _ _ _ _ _ _ _ _ _ _ _)

    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [Dat.leavesExact_idle (dat0 V c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS_castSucc V c t, PhiS_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the entry form back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hrest⟩, Hg⟩
  isplitl [HS0 Hrest]
  · isplitl [HS0]
    · iexists _; iexact HS0
    iexact Hrest
  iexact Hg

theorem hout0 (c : Dev nD) : (dat0 V c).Φ (Fin.last cfg0.N) ⊢ Pipeline.ΦA spec0 c :=
  Phi_out0 V c _ (by rw [Fin.val_last]; have : cfg0.N = 88 := N_0; omega)

end Cert.KernelIdeal.Hand

end
-- ==== Proof.KernelIdeal.Layer2Body.lean ====
/- The second pallas_call (layer 2 and the head), one grid point at a time, at a PARAMETER `V`: the buffer contents
   the region is entered with. A point reads a block of 128 rows of the diffusion matrix and of the self rows, and
   the whole of the seven small operands; it stores the 128×8 block of the result once. This module states what
   that store leaves (`out1_11`: the body's two payload terms over the loaded blocks), proves the body's triple
   on whole staging buffers by symbolic execution, and packages it as the pipeline's proof data and its body
   obligation at every point. Nothing here depends on the float instance. -/
import proofs.«105755_j27273042329874_2_alg».proof.Proof.KernelIdeal.LaunchP
import proofs.«105755_j27273042329874_2_alg».proof.Proof.Gen.KernelIdeal.Skeleton
import proofs.«105755_j27273042329874_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's current staging buffer holds its block at every point, fetched there or not. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
/-- Input window 9's current staging buffer holds its block at every point, fetched there or not. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
/-- Input window 10's current staging buffer holds its block at every point, fetched there or not. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a whole buffer -/

abbrev rw_S128x2816 : Rect S128x2816 := Rect.unit (s := S128x2816) ![0, 0] S128x2816.size inb_S128x2816_S128x2816_0_0
abbrev rw_S2816x256 : Rect S2816x256 := Rect.unit (s := S2816x256) ![0, 0] S2816x256.size inb_S2816x256_S2816x256_0_0
abbrev rw_S128x256 : Rect S128x256 := Rect.unit (s := S128x256) ![0, 0] S128x256.size inb_S128x256_S128x256_0_0
abbrev rw_S256x256 : Rect S256x256 := Rect.unit (s := S256x256) ![0, 0] S256x256.size inb_S256x256_S256x256_0_0
abbrev rw_S256x64 : Rect S256x64 := Rect.unit (s := S256x64) ![0, 0] S256x64.size inb_S256x64_S256x64_0_0
abbrev rw_S1x64 : Rect S1x64 := Rect.unit (s := S1x64) ![0, 0] S1x64.size inb_S1x64_S1x64_0_0
abbrev rw_S64x64 : Rect S64x64 := Rect.unit (s := S64x64) ![0, 0] S64x64.size inb_S64x64_S64x64_0_0
abbrev rw_S64x8 : Rect S64x8 := Rect.unit (s := S64x8) ![0, 0] S64x8.size inb_S64x8_S64x8_0_0
abbrev rw_S1x8 : Rect S1x8 := Rect.unit (s := S1x8) ![0, 0] S1x8.size inb_S1x8_S1x8_0_0
abbrev rw_S128x8 : Rect S128x8 := Rect.unit (s := S128x8) ![0, 0] S128x8.size inb_S128x8_S128x8_0_0

/-! ## What the body leaves in the output window's buffer -/

/-- The result block after the body, from the input windows' blocks: its one store, of the head's payload over the
    first part's payload (layer 2, the row normalisation and the first head layer) and the remaining loads. -/
def out1_11 (x0 : Vec F S128x2816 .f32) (x1 : Vec F S2816x256 .f32) (x2 : Vec F S128x256 .f32) (x3 : Vec F S256x256 .f32) (x4 : Vec F S256x256 .f32) (x5 : Vec F S256x64 .f32) (x6 : Vec F S1x64 .f32) (x7 : Vec F S64x64 .f32) (x8 : Vec F S1x64 .f32) (x9 : Vec F S64x8 .f32) (x10 : Vec F S1x8 .f32) : Vec F S128x8 .f32 :=
  View.canon [⟨rw_S128x8, k1_pay1 (k1_pay2 (View.ld x0 rw_S128x2816) (View.ld x1 rw_S2816x256) (View.ld x2 rw_S128x256) (View.ld x3 rw_S256x256) (View.ld x4 rw_S256x256) (View.ld x5 rw_S256x64) (View.ld x6 rw_S1x64)) (Scalar.ofBits .f32 0x00000000#32) (View.ld x7 rw_S64x64) (View.ld x8 rw_S1x64) (View.ld x9 rw_S64x8) (View.ld x10 rw_S1x8)⟩]

/-- The store takes the whole buffer, so it covers it. -/
theorem cover1_11 (p0 : Vec F S128x8 .f32) (y : S128x8.Idx) :
    ∃ pc ∈ ([⟨rw_S128x8, p0⟩] : List (View.Piece (Elt F) S128x8 .f32)), y ∈ pc.1.set :=
  View.cover_of_tiled [⟨rw_S128x8, p0⟩] S128x8.size (by rfl) y

/-! ## The body's triple -/

set_option maxHeartbeats 4000000 in
/-- The body on whole staging buffers, the inputs' at contents `xW` and the output's at anything, runs to the
    continuation holding the inputs' as they were and the output's at `out1_11` of them. -/
theorem sound_kernel1 (c : Dev nD) (E : Set ℕ) (i : grid1.Coords) (arg1 : Memref sig .tc .vmem S128x2816 .f32) (harg1 : arg1.IsWhole) (arg2 : Memref sig .tc .vmem S2816x256 .f32) (harg2 : arg2.IsWhole) (arg3 : Memref sig .tc .vmem S128x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x8 .f32) (harg10 : arg10.IsWhole) (arg11 : Memref sig .tc .vmem S1x8 .f32) (harg11 : arg11.IsWhole) (arg12 : Memref sig .tc .vmem S128x8 .f32) (harg12 : arg12.IsWhole)
    (x0 : Vec F S128x2816 .f32) (x1 : Vec F S2816x256 .f32) (x2 : Vec F S128x256 .f32) (x3 : Vec F S256x256 .f32) (x4 : Vec F S256x256 .f32) (x5 : Vec F S256x64 .f32) (x6 : Vec F S1x64 .f32) (x7 : Vec F S64x64 .f32) (x8 : Vec F S1x64 .f32) (x9 : Vec F S64x8 .f32) (x10 : Vec F S1x8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out1_11 x0 x1 x2 x3 x4 x5 x6 x7 x8 x9 x10)) -∗ K ⟨⟩))
      ⊢ wp frame (wpE (defs₀ (F := F)) Variants.none c none) E (cc1__layer2_kernel i arg1 harg1 arg2 harg2 arg3 harg3 arg4 harg4 arg5 harg5 arg6 harg6 arg7 harg7 arg8 harg8 arg9 harg9 arg10 harg10 arg11 harg11 arg12 harg12) K := by
  simp only [cc1__layer2_kernel_eq_skeleton]; unfold cc1__layer2_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (cover1_11 _)

/-! ## The pipeline's proof data -/

/-- The proof data of the second pipeline on core `c`: the arrays as the region finds them; after the body at point
    `t` each input's buffer at its block and the output's at `out1_11` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t))

set_option maxHeartbeats 1000000 in
/-- The body at any point: the inputs' buffers hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel1 c Set.univ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.RunAll.lean ====
/- THE RUN of the whole program: @main is a stretch of host operations (the index arithmetic and the row gathers),
   the first pallas_call, a second stretch (the gathers of layer 1's rows, the weight slices, the bias reshapes) and the
   second pallas_call. The buffer contents at each of the five boundaries are a fold from the launch memory: a host
   stretch applies its operations; a pallas_call leaves its arrays at what its write-backs leave and every other buffer
   as entered. Every weakly fair execution terminates, and every final memory holds every unscoped buffer at the last
   boundary's contents (`run_all`); an argument array read through the fold is its launch contents (`W4_main_argK`). -/
import proofs.«105755_j27273042329874_2_alg».proof.Proof.KernelIdeal.Layer1Body
import proofs.«105755_j27273042329874_2_alg».proof.Proof.KernelIdeal.Layer2Body

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## What the host stretches write -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- The references the first stretch's operations write. -/
abbrev hostOps0_W : List (Ref sig .tc) := [main_c, main_v0, main_v1, main_c_0, main_v2, main_v3, main_v4, main_v5, main_v6, main_c_1, main_v7, main_v8, main_c_2, main_v9, main_v10, main_v11, main_v12, main_v13, main_c_3, main_v14, main_v15, main_c_4, main_v16, main_v17, main_v18, main_v19, main_v20, main_c_5, main_v21, main_v22, main_c_6, main_v23, main_v24, main_v25, main_v26, main_v27, main_v28, main_v29]
/-- The references the second stretch's operations write. -/
abbrev hostOps1_W : List (Ref sig .tc) := [main_c_7, main_v31, main_v32, main_c_8, main_v33, main_v34, main_v35, main_v36, main_v37, main_c_9, main_v38, main_v39, main_c_10, main_v40, main_v41, main_v42, main_v43, main_v44, main_v45, main_v46, main_v47, main_v48, main_v49]
set_option maxHeartbeats 4000000 in
theorem hostOps0_writes : (hostOps0 : List (HloOp τ sig (Elt F))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
set_option maxHeartbeats 4000000 in
theorem hostOps1_writes : (hostOps1 : List (HloOp τ sig (Elt F))).Forall fun op => op.writes ⊆ (hostOps1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- A buffer the first stretch does not write is as launched after it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- A buffer the second stretch does not write is as the first pallas_call left it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := (W2_arr m ρ c 0).trans (((dat0 (V1 m ρ) c).arrAt_in 0 rfl _).trans (A_eq0 (V1 m ρ) c 0))
    _ = W0 m ρ c (Proc.devRef .tc main_arg3) := W1_of m ρ c main_arg3 (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := (W4_arr m ρ c 0).trans (((dat1 (V3 m ρ) c).arrAt_in 0 rfl _).trans (A_eq1 (V3 m ρ) c 0))
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := W3_of m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl
theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := W3_of m ρ c main_arg9 (by decide)
    _ = W1 m ρ c (Proc.devRef .tc main_arg9) := W2_of_ne m ρ c main_arg9 (by decide)
    _ = W0 m ρ c (Proc.devRef .tc main_arg9) := W1_of m ρ c main_arg9 (by decide)
    _ = m ((c : Thread nD τ).loc main_arg9) := rfl
theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := (W4_arr m ρ c 5).trans (((dat1 (V3 m ρ) c).arrAt_in 5 rfl _).trans (A_eq1 (V3 m ρ) c 5))
    _ = W2 m ρ c (Proc.devRef .tc main_arg10) := W3_of m ρ c main_arg10 (by decide)
    _ = W1 m ρ c (Proc.devRef .tc main_arg10) := W2_of_ne m ρ c main_arg10 (by decide)
    _ = W0 m ρ c (Proc.devRef .tc main_arg10) := W1_of m ρ c main_arg10 (by decide)
    _ = m ((c : Thread nD τ).loc main_arg10) := rfl
theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := W3_of m ρ c main_arg11 (by decide)
    _ = W1 m ρ c (Proc.devRef .tc main_arg11) := W2_of_ne m ρ c main_arg11 (by decide)
    _ = W0 m ρ c (Proc.devRef .tc main_arg11) := W1_of m ρ c main_arg11 (by decide)
    _ = m ((c : Thread nD τ).loc main_arg11) := rfl
theorem W4_main_arg12 (c : Dev nD) : W4 m ρ c (Proc.devRef .tc main_arg12) = m ((c : Thread nD τ).loc main_arg12) :=
  calc W4 m ρ c (Proc.devRef .tc main_arg12)
    _ = W3 m ρ c (Proc.devRef .tc main_arg12) := (W4_arr m ρ c 7).trans (((dat1 (V3 m ρ) c).arrAt_in 7 rfl _).trans (A_eq1 (V3 m ρ) c 7))
    _ = W2 m ρ c (Proc.devRef .tc main_arg12) := W3_of m ρ c main_arg12 (by decide)
    _ = W1 m ρ c (Proc.devRef .tc main_arg12) := W2_of_ne m ρ c main_arg12 (by decide)
    _ = W0 m ρ c (Proc.devRef .tc main_arg12) := W1_of m ρ c main_arg12 (by decide)
    _ = m ((c : Thread nD τ).loc main_arg12) := rfl
theorem W4_main_arg13 (c : Dev nD) : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := W3_of m ρ c main_arg13 (by decide)
    _ = W1 m ρ c (Proc.devRef .tc main_arg13) := W2_of_ne m ρ c main_arg13 (by decide)
    _ = W0 m ρ c (Proc.devRef .tc main_arg13) := W1_of m ρ c main_arg13 (by decide)
    _ = m ((c : Thread nD τ).loc main_arg13) := rfl
theorem W4_main_arg14 (c : Dev nD) : W4 m ρ c (Proc.devRef .tc main_arg14) = m ((c : Thread nD τ).loc main_arg14) :=
  calc W4 m ρ c (Proc.devRef .tc main_arg14)
    _ = W3 m ρ c (Proc.devRef .tc main_arg14) := (W4_arr m ρ c 9).trans (((dat1 (V3 m ρ) c).arrAt_in 9 rfl _).trans (A_eq1 (V3 m ρ) c 9))
    _ = W2 m ρ c (Proc.devRef .tc main_arg14) := W3_of m ρ c main_arg14 (by decide)
    _ = W1 m ρ c (Proc.devRef .tc main_arg14) := W2_of_ne m ρ c main_arg14 (by decide)
    _ = W0 m ρ c (Proc.devRef .tc main_arg14) := W1_of m ρ c main_arg14 (by decide)
    _ = m ((c : Thread nD τ).loc main_arg14) := rfl
theorem W4_main_arg15 (c : Dev nD) : W4 m ρ c (Proc.devRef .tc main_arg15) = m ((c : Thread nD τ).loc main_arg15) :=
  calc W4 m ρ c (Proc.devRef .tc main_arg15)
    _ = W3 m ρ c (Proc.devRef .tc main_arg15) := W4_of_ne m ρ c main_arg15 (by decide)
    _ = W2 m ρ c (Proc.devRef .tc main_arg15) := W3_of m ρ c main_arg15 (by decide)
    _ = W1 m ρ c (Proc.devRef .tc main_arg15) := W2_of_ne m ρ c main_arg15 (by decide)
    _ = W0 m ρ c (Proc.devRef .tc main_arg15) := W1_of m ρ c main_arg15 (by decide)
    _ = m ((c : Thread nD τ).loc main_arg15) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

/-- The first call's entry invariant from what the region hands over, whatever rides in the middle. -/
theorem phiA_intro0 (c : Dev nD) (P : sProp 𝕄) :
    iprop((∃ r, prngReg c r) ∗ P ∗ Pipeline.scopedRest spec0 c) ⊢ (Pipeline.ΦA spec0 c : sProp 𝕄) := by
  unfold Pipeline.ΦA
  iintro ⟨Hp, -, Hr⟩
  isplitl [Hr]; · iexact Hr
  iexact Hp
/-- and what it gives back at the exit. -/
theorem phiA_elim0 (c : Dev nD) :
    (Pipeline.ΦA spec0 c : sProp 𝕄) ⊢ iprop((∃ r, prngReg c r) ∗ BI.emp ∗ Pipeline.scopedRest spec0 c) := by
  unfold Pipeline.ΦA
  iintro ⟨Hr, Hp⟩
  isplitl [Hp]; · iexact Hp
  isplitr; · iempintro
  iexact Hr

set_option backward.isDefEq.respectTransparency.types false in
/-- The first pallas_call as a segment over the thread state: entered with every unscoped buffer at the boundary's
    contents, left with them at the next boundary's. Its arrays are split out of the unscoped buffers and put back at
    the contents its write-backs leave; the generator register goes into the invariant and comes back; nothing is owed;
    the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact (phiA_intro0 c _).trans (hin0 (V1 m ρ) c)
  hout c := by
    rw [Pipeline.ownSems0_none]
    exact (hout0 (V1 m ρ) c).trans (phiA_elim0 c)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call as a segment over the thread state: entered with every unscoped buffer at the boundary's
    contents, left with them at the next boundary's. Its arrays are split out of the unscoped buffers and put back at
    the contents its write-backs leave; the generator register goes into the invariant and comes back; nothing is owed;
    the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters, every weakly fair execution of @main terminates, nothing faulting, and
    every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨(h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c),
      (h c _ (mem_uc main_arg9 (by decide))).trans (W4_main_arg9 m ρ c),
      (h c _ (mem_uc main_arg10 (by decide))).trans (W4_main_arg10 m ρ c),
      (h c _ (mem_uc main_arg11 (by decide))).trans (W4_main_arg11 m ρ c),
      (h c _ (mem_uc main_arg12 (by decide))).trans (W4_main_arg12 m ρ c),
      (h c _ (mem_uc main_arg13 (by decide))).trans (W4_main_arg13 m ρ c),
      (h c _ (mem_uc main_arg14 (by decide))).trans (W4_main_arg14 m ρ c),
      (h c _ (mem_uc main_arg15 (by decide))).trans (W4_main_arg15 m ρ c)⟩) (run_all m ρ)

end Cert.KernelIdeal.Hand

end
-- ==== Proof.LibMatmul.lean ====
/-
  A matrix product with one contracted axis, accumulated into zero, read at one entry.

  Over the extended reals the product of an A by K matrix and a K by B matrix at entry (p, q) is the sum over k of
  l (p, k) r (k, q): the accumulator is zero, and the contraction index of a product with one contracted axis is
  that axis' coordinate. The lemma is stated for any dimension record whose operand indices are (row, contraction)
  on the left and (contraction, column) on the right, which the four coordinate hypotheses say.
-/
import Idealize.ShloMosaic.PureOps.Ideal.Laws
import Idealize.ShloMosaic.Lib.ValueIdx

noncomputable section

namespace Cert.LibMatmul

open Idealize.ShloMosaic Idealize.ShloMosaic.ValueIdx

/-- Entry (p, q) of a plain matrix product into the zero accumulator is the sum over the contracted axis. -/
theorem matmul_zero_ix2 {A K B : ℕ} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (prec : Option ContractPrecision)
    (l : FVec Ideal (⟨2, ![A, K]⟩ : Shape) φ₁) (r : FVec Ideal (⟨2, ![K, B]⟩ : Shape) φ₂) (p : Fin A) (q : Fin B) :
    FloatOps.matmul d prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.LibMatmul

end
-- ==== Proof.LibLayerProduct.lean ====
/-
  One layer of the network, read at an entry, over the extended reals.

  A layer multiplies a matrix of node features by a weight matrix. From the second layer on, the features are first
  shifted by a bias row and clamped below at zero. Entry (r, q) of the result is therefore a sum over the contracted
  axis k: of a (r, k) · w (k, q) for the first layer, and of max (a (r, k) + b (0, k)) 0 · w (k, q) for the others.
  Rounding the two factors to a narrower float format changes nothing over the extended reals, and a product
  accumulated into zero is the plain sum, so the tiled kernel body's stored value, read at an entry of its tile, is
  that sum over the tile's own rows.
-/
import Idealize.ShloMosaic.PureOps.Ideal.Laws
import Idealize.ShloMosaic.Lib.ValueIdx
import Idealize.ShloMosaic.Lib.ValueLayout
import Idealize.ShloMosaic.Lib.Pipeline.Value
import proofs.«105755_j27273042329874_2_alg».proof.Proof.LibMatmul

noncomputable section

namespace Cert.Layer

open Idealize.ShloMosaic Idealize.ShloMosaic.ValueIdx

/-- The plain product: entry (r, q) is the sum over k of a (r, k) · w (k, q). -/
def prod {A K B : ℕ} (a : FVec Ideal (⟨2, ![A, K]⟩ : Shape) .f32) (w : FVec Ideal (⟨2, ![K, B]⟩ : Shape) .f32) :
    FVec Ideal (⟨2, ![A, B]⟩ : Shape) .f32 :=
  fun i => ∑ k : Fin K, a (ix2 (i 0) k) * w (ix2 k (i 1))

/-- The product after the bias row is added and negatives are clamped to zero:
    entry (r, q) is the sum over k of max (a (r, k) + b (0, k)) 0 · w (k, q). -/
def biasReluProd {A K B : ℕ} (a : FVec Ideal (⟨2, ![A, K]⟩ : Shape) .f32) (b : FVec Ideal (⟨2, ![1, K]⟩ : Shape) .f32)
    (w : FVec Ideal (⟨2, ![K, B]⟩ : Shape) .f32) : FVec Ideal (⟨2, ![A, B]⟩ : Shape) .f32 :=
  fun i => ∑ k : Fin K, max (a (ix2 (i 0) k) + b (ix2 (0 : Fin 1) k)) 0 * w (ix2 k (i 1))

/-- Two entries of the plain product agree when the row and the column they sum over agree, term by term. -/
theorem prod_congr {A A' K B B' : ℕ}
    (a : FVec Ideal (⟨2, ![A, K]⟩ : Shape) .f32) (w : FVec Ideal (⟨2, ![K, B]⟩ : Shape) .f32)
    (a' : FVec Ideal (⟨2, ![A', K]⟩ : Shape) .f32) (w' : FVec Ideal (⟨2, ![K, B']⟩ : Shape) .f32)
    (r : Fin A) (q : Fin B) (r' : Fin A') (q' : Fin B')
    (ha : ∀ k : Fin K, a (ix2 r k) = a' (ix2 r' k)) (hw : ∀ k : Fin K, w (ix2 k q) = w' (ix2 k q')) :
    prod a w (ix2 r q) = prod a' w' (ix2 r' q') := by
  show (∑ k : Fin K, a (ix2 r k) * w (ix2 k q)) = ∑ k : Fin K, a' (ix2 r' k) * w' (ix2 k q')
  exact Finset.sum_congr rfl fun k _ => by rw [ha k, hw k]

/-- Two entries of the clamped product agree when the row, the bias row and the column they sum over agree. -/
theorem biasReluProd_congr {A A' K B B' : ℕ}
    (a : FVec Ideal (⟨2, ![A, K]⟩ : Shape) .f32) (b : FVec Ideal (⟨2, ![1, K]⟩ : Shape) .f32) (w : FVec Ideal (⟨2, ![K, B]⟩ : Shape) .f32)
    (a' : FVec Ideal (⟨2, ![A', K]⟩ : Shape) .f32) (b' : FVec Ideal (⟨2, ![1, K]⟩ : Shape) .f32) (w' : FVec Ideal (⟨2, ![K, B']⟩ : Shape) .f32)
    (r : Fin A) (q : Fin B) (r' : Fin A') (q' : Fin B')
    (ha : ∀ k : Fin K, a (ix2 r k) = a' (ix2 r' k)) (hb : ∀ k : Fin K, b (ix2 (0 : Fin 1) k) = b' (ix2 (0 : Fin 1) k))
    (hw : ∀ k : Fin K, w (ix2 k q) = w' (ix2 k q')) :
    biasReluProd a b w (ix2 r q) = biasReluProd a' b' w' (ix2 r' q') := by
  show (∑ k : Fin K, max (a (ix2 r k) + b (ix2 (0 : Fin 1) k)) 0 * w (ix2 k q))
    = ∑ k : Fin K, max (a' (ix2 r' k) + b' (ix2 (0 : Fin 1) k)) 0 * w' (ix2 k q')
  exact Finset.sum_congr rfl fun k _ => by rw [ha k, hb k, hw k]

/-- The two factors rounded to a narrower format and multiplied into a zero accumulator: the plain product. -/
theorem matmul_trunc_apply {A K B : ℕ}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (h16 : FTy.bf16.bits < FTy.f32.bits)
    (x0 : FVec Ideal (⟨2, ![A, K]⟩ : Shape) .f32) (x2 : FVec Ideal (⟨2, ![K, B]⟩ : Shape) .f32) (p : Fin A) (q : Fin B) :
    FloatOps.matmul d none (truncf .bf16 x0 h16) (truncf .bf16 x2 h16)
        (constant (F := Ideal) (⟨2, ![A, B]⟩ : Shape) .f32 0x00000000#32) (ix2 p q)
      = prod x0 x2 (ix2 p q) :=
  (Cert.LibMatmul.matmul_zero_ix2 d hr hs hl0 hl1 hr0 hr1 none _ _ p q).trans
    (Finset.sum_congr rfl fun _ _ => rfl)

/-- The same with the left factor first shifted by a bias row spread over all rows and clamped below at zero. -/
theorem biasRelu_matmul_apply {A K B : ℕ}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (h16 : FTy.bf16.bits < FTy.f32.bits)
    (hbc : (⟨2, ![1, K]⟩ : Shape).Broadcasts ⟨2, ![A, K]⟩)
    (x0 : FVec Ideal (⟨2, ![A, K]⟩ : Shape) .f32) (x1 : FVec Ideal (⟨2, ![1, K]⟩ : Shape) .f32)
    (x2 : FVec Ideal (⟨2, ![K, B]⟩ : Shape) .f32) (p : Fin A) (q : Fin B) :
    FloatOps.matmul d none
        (truncf .bf16 (maximumf (addf x0 (broadcastTo (⟨2, ![A, K]⟩ : Shape) x1 hbc))
          (broadcast (⟨2, ![A, K]⟩ : Shape) (Scalar.ofBits (F := Ideal) .f32 0x00000000#32))) h16)
        (truncf .bf16 x2 h16)
        (constant (F := Ideal) (⟨2, ![A, B]⟩ : Shape) .f32 0x00000000#32) (ix2 p q)
      = biasReluProd x0 x1 x2 (ix2 p q) := by
  refine (Cert.LibMatmul.matmul_zero_ix2 d hr hs hl0 hl1 hr0 hr1 none _ _ p q).trans ?_
  refine Finset.sum_congr rfl fun k _ => ?_
  show max (x0 (ix2 p k) + broadcastTo (⟨2, ![A, K]⟩ : Shape) x1 hbc (ix2 p k)) (Ideal.ofBits .f32 0x00000000#32) * x2 (ix2 k q)
    = max (x0 (ix2 p k) + x1 (ix2 (0 : Fin 1) k)) 0 * x2 (ix2 k q)
  rw [broadcastTo_1b_ab_apply, Ideal.ofBits_zero_f32]

end Cert.Layer

end
-- ==== Proof.Spec.lean ====
/-
  What the whole program computes, as ONE function of its sixteen argument arrays, over the extended reals.

  Rows of the feature table are taken at the node list; the sources and the targets of the first layer are rows of
  that at two integer lists; layer 1 diffuses the sources with a dense matrix, and applies the upper half of a weight
  matrix to the diffused rows and the lower half to the targets; layer 2 does the same on rows of layer 1's result
  and clamps below at zero; each row is then scaled by the reciprocal square root of its sum of squares (clamped
  below at a small constant), and three dense layers with bias rows follow, the first two clamped below at zero.
  An integer list is read the way the host reads it: a negative entry is shifted up by the table's length, and the
  result is clamped into the table.

  Every function is generic in the number of rows it is applied to, so that one definition serves a whole array and
  a block of its rows; the congruence lemmas say that a result row depends only on the operand rows it names.
-/
import Idealize.ShloMosaic.PureOps.Ideal.Laws
import Idealize.ShloMosaic.Lib.ValueIdx
import proofs.«105755_j27273042329874_2_alg».proof.Proof.LibLayerProduct

noncomputable section

namespace Cert.Spec

open Idealize.ShloMosaic Idealize.ShloMosaic.ValueIdx Cert.Layer

/-- An a × b array of extended reals. -/
abbrev Mat (a b : ℕ) : Type := FVec Ideal (⟨2, ![a, b]⟩ : Shape) .f32
/-- A vector of a extended reals. -/
abbrev Vc (a : ℕ) : Type := FVec Ideal (⟨1, ![a]⟩ : Shape) .f32
/-- A list of a 32-bit integers. -/
abbrev IL (a : ℕ) : Type := IVec (⟨1, ![a]⟩ : Shape) 32

/-- A signed index as the host normalises it: a negative one is shifted up by the table's length. -/
def normIdx (N v : BitVec 32) : BitVec 32 := Scalar.select (IntOp.cmpi .slt v 0#32) (IntOp.addi v N) v

/-- The table row an index selects: normalised, read signed, clamped into the table. -/
def rowOf (N : ℕ) (hN : 0 < N) (v : BitVec 32) : Fin N :=
  ⟨min (normIdx (BitVec.ofNat 32 N) v).toInt.toNat (N - 1), by omega⟩

/-- Rows of a table at an integer list. -/
def takeRows {N D E : ℕ} (hN : 0 < N) (x : Mat N D) (idx : IL E) : Mat E D :=
  fun i => x (ix2 (rowOf N hN (idx (ix1 (i 0)))) (i 1))

/-- The upper and the lower half of a stacked weight matrix. -/
def top (w : Mat 512 256) : Mat 256 256 := fun i => w (ix2 ⟨(i 0).val, by have : (i 0).val < 256 := (i 0).isLt; omega⟩ (i 1))
def bot (w : Mat 512 256) : Mat 256 256 := fun i => w (ix2 ⟨256 + (i 0).val, by have : (i 0).val < 256 := (i 0).isLt; omega⟩ (i 1))

/-- One aggregation layer: the diffused sources through `wa`, plus the targets through `wb`. -/
def layer {A S : ℕ} (dm : Mat A S) (src : Mat S 256) (dst : Mat A 256) (wa wb : Mat 256 256) : Mat A 256 :=
  fun i => prod (prod dm src) wa i + prod dst wb i

/-- Clamping below at zero, entry by entry. -/
def relu {A K : ℕ} (x : Mat A K) : Mat A K := fun i => max (x i) 0

/-- Adding a bias vector to every row. -/
def addRow {A K : ℕ} (x : Mat A K) (b : Vc K) : Mat A K := fun i => x i + b (ix1 (i 1))

/-- The small constant the row norms are clamped at (the same 32-bit pattern in both programs). -/
def eps : EReal := Ideal.ofBits .f32 0x2B8CBCCC#32

/-- A row's sum of squares. -/
def rowSq {A : ℕ} (h : Mat A 256) (r : Fin A) : EReal := ∑ c : Fin 256, h (ix2 r c) * h (ix2 r c)

/-- Every row scaled by the reciprocal square root of its clamped sum of squares. -/
def normalize {A : ℕ} (h : Mat A 256) : Mat A 256 := fun i => h i * Ideal.rsqrt (max (rowSq h (i 0)) eps)

/-- Layer 2, the row normalisation and the three dense layers, on any number of rows. -/
def head {A : ℕ} (dm : Mat A 2816) (src : Mat 2816 256) (dst : Mat A 256) (wa wb : Mat 256 256)
    (W3 : Mat 256 64) (b3 : Vc 64) (W4 : Mat 64 64) (b4 : Vc 64) (W5 : Mat 64 8) (b5 : Vc 8) : Mat A 8 :=
  addRow (prod (relu (addRow (prod (relu (addRow (prod (normalize (relu (layer dm src dst wa wb))) W3) b3)) W4) b4)) W5) b5

/-- Layer 1's result: 2816 rows. -/
def hidden1 (sn d1 : IL 73216) (d2 : IL 2816) (dm1 : Mat 2816 73216) (feat : Mat 200000 256) (w1 : Mat 512 256) : Mat 2816 256 :=
  layer dm1 (takeRows (by decide) (takeRows (by decide) feat sn) d1) (takeRows (by decide) (takeRows (by decide) feat sn) d2) (top w1) (bot w1)

/-- THE RESULT: 256 rows of 8 numbers. -/
def result (sn d1 : IL 73216) (d2 : IL 2816) (dm1 : Mat 2816 73216) (d4 : IL 2816) (d5 : IL 256) (dm2 : Mat 256 2816)
    (feat : Mat 200000 256) (w1 w2 : Mat 512 256) (W3 : Mat 256 64) (b3 : Vc 64) (W4 : Mat 64 64) (b4 : Vc 64)
    (W5 : Mat 64 8) (b5 : Vc 8) : Mat 256 8 :=
  head dm2 (takeRows (by decide) (hidden1 sn d1 d2 dm1 feat w1) d4) (takeRows (by decide) (hidden1 sn d1 d2 dm1 feat w1) d5)
    (top w2) (bot w2) W3 b3 W4 b4 W5 b5

/-! ## A result row depends only on the operand rows it names -/

/-- An entry of a layer depends on one row of the diffusion matrix and one row of the targets. -/
theorem layer_congr {A A' S : ℕ} (dm : Mat A S) (dm' : Mat A' S) (src : Mat S 256) (dst : Mat A 256) (dst' : Mat A' 256)
    (wa wb : Mat 256 256) (r : Fin A) (r' : Fin A') (q : Fin 256)
    (hdm : ∀ s : Fin S, dm (ix2 r s) = dm' (ix2 r' s)) (hdst : ∀ k : Fin 256, dst (ix2 r k) = dst' (ix2 r' k)) :
    layer dm src dst wa wb (ix2 r q) = layer dm' src dst' wa wb (ix2 r' q) := by
  show prod (prod dm src) wa (ix2 r q) + prod dst wb (ix2 r q) = prod (prod dm' src) wa (ix2 r' q) + prod dst' wb (ix2 r' q)
  rw [prod_congr (prod dm src) wa (prod dm' src) wa r q r' q
      (fun k => prod_congr dm src dm' src r k r' k hdm (fun _ => rfl)) (fun _ => rfl),
    prod_congr dst wb dst' wb r q r' q hdst (fun _ => rfl)]

/-- An entry of the head depends on one row of the diffusion matrix and one row of the targets. -/
theorem head_congr {A A' : ℕ} (dm : Mat A 2816) (dm' : Mat A' 2816) (src : Mat 2816 256) (dst : Mat A 256) (dst' : Mat A' 256)
    (wa wb : Mat 256 256) (W3 : Mat 256 64) (b3 : Vc 64) (W4 : Mat 64 64) (b4 : Vc 64) (W5 : Mat 64 8) (b5 : Vc 8)
    (r : Fin A) (r' : Fin A') (q : Fin 8)
    (hdm : ∀ s : Fin 2816, dm (ix2 r s) = dm' (ix2 r' s)) (hdst : ∀ k : Fin 256, dst (ix2 r k) = dst' (ix2 r' k)) :
    head dm src dst wa wb W3 b3 W4 b4 W5 b5 (ix2 r q) = head dm' src dst' wa wb W3 b3 W4 b4 W5 b5 (ix2 r' q) := by
  have hL : ∀ k : Fin 256, relu (layer dm src dst wa wb) (ix2 r k) = relu (layer dm' src dst' wa wb) (ix2 r' k) := fun k => by
    show max (layer dm src dst wa wb (ix2 r k)) 0 = max (layer dm' src dst' wa wb (ix2 r' k)) 0
    rw [layer_congr dm dm' src dst dst' wa wb r r' k hdm hdst]
  have hS : rowSq (relu (layer dm src dst wa wb)) r = rowSq (relu (layer dm' src dst' wa wb)) r' :=
    Finset.sum_congr rfl fun c _ => by rw [hL c]
  have hN : ∀ k : Fin 256, normalize (relu (layer dm src dst wa wb)) (ix2 r k) = normalize (relu (layer dm' src dst' wa wb)) (ix2 r' k) := fun k => by
    show relu (layer dm src dst wa wb) (ix2 r k) * Ideal.rsqrt (max (rowSq (relu (layer dm src dst wa wb)) r) eps)
      = relu (layer dm' src dst' wa wb) (ix2 r' k) * Ideal.rsqrt (max (rowSq (relu (layer dm' src dst' wa wb)) r') eps)
    rw [hL k, hS]
  have h3 : ∀ k : Fin 64, relu (addRow (prod (normalize (relu (layer dm src dst wa wb))) W3) b3) (ix2 r k)
      = relu (addRow (prod (normalize (relu (layer dm' src dst' wa wb))) W3) b3) (ix2 r' k) := fun k => by
    show max (prod (normalize (relu (layer dm src dst wa wb))) W3 (ix2 r k) + b3 (ix1 k)) 0
      = max (prod (normalize (relu (layer dm' src dst' wa wb))) W3 (ix2 r' k) + b3 (ix1 k)) 0
    rw [prod_congr _ W3 _ W3 r k r' k hN (fun _ => rfl)]
  have h4 : ∀ k : Fin 64, relu (addRow (prod (relu (addRow (prod (normalize (relu (layer dm src dst wa wb))) W3) b3)) W4) b4) (ix2 r k)
      = relu (addRow (prod (relu (addRow (prod (normalize (relu (layer dm' src dst' wa wb))) W3) b3)) W4) b4) (ix2 r' k) := fun k => by
    show max (prod (relu (addRow (prod (normalize (relu (layer dm src dst wa wb))) W3) b3)) W4 (ix2 r k) + b4 (ix1 k)) 0
      = max (prod (relu (addRow (prod (normalize (relu (layer dm' src dst' wa wb))) W3) b3)) W4 (ix2 r' k) + b4 (ix1 k)) 0
    rw [prod_congr _ W4 _ W4 r k r' k h3 (fun _ => rfl)]
  show prod (relu (addRow (prod (relu (addRow (prod (normalize (relu (layer dm src dst wa wb))) W3) b3)) W4) b4)) W5 (ix2 r q) + b5 (ix1 q)
    = prod (relu (addRow (prod (relu (addRow (prod (normalize (relu (layer dm' src dst' wa wb))) W3) b3)) W4) b4)) W5 (ix2 r' q) + b5 (ix1 q)
  rw [prod_congr _ W5 _ W5 r q r' q h4 (fun _ => rfl)]

end Cert.Spec

end
-- ==== Proof.LibKeepdims.lean ====
/-
  A reduction over the last axis kept as a unit axis, read at an index.

  A vector of `a` numbers viewed as an `a × 1` column holds, at (i, u), the vector's entry i, whatever the unit
  coordinate u; and an `a × 1` column spread over `b` columns holds, at (p, c), the column's entry (p, 0): every
  entry of row p is that row's one number. Together they read the common pattern "sum each row, keep the axis,
  combine with the matrix again" at an entry (p, c) as the row sum of row p.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the one entry of the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.KernelIdeal.Payloads.lean ====
/-
  The values the two kernel bodies store, read at one entry, over the extended reals.

  The first body clears its accumulator block, adds to it the product of a block of the diffusion matrix and a
  block of the source rows, and finally stores the accumulated rows through one weight matrix plus the target rows
  through another. The second body does the same for layer 2 on a block of 128 rows, clamps below at zero, scales
  each row by the reciprocal square root of its clamped sum of squares, and applies three dense layers with bias
  rows. Over the extended reals a rounding to a narrower format is the identity, a product accumulated into zero
  is the plain sum over the contracted axis, and the lane sum of a row is the sum over its 256 columns; so each
  stored value, at an entry, is the corresponding entry of the plain mathematical expression.
-/
import proofs.«105755_j27273042329874_2_alg».proof.Proof.Gen.KernelIdeal.Skeleton
import proofs.«105755_j27273042329874_2_alg».proof.Proof.Spec
import proofs.«105755_j27273042329874_2_alg».proof.Proof.LibMatmul
import proofs.«105755_j27273042329874_2_alg».proof.Proof.LibLayerProduct
import proofs.«105755_j27273042329874_2_alg».proof.Proof.LibKeepdims
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx Cert.Layer

/-! ## The matrix products of the two bodies -/

/-- The first body's product of a block of the diffusion matrix and a block of the source rows. -/
theorem mm_1408_1664_256 (x0 : FVec Ideal S1408x1664 .f32) (x2 : FVec Ideal S1664x256 .f32) (p : Fin 1408) (q : Fin 256) :
    matmul dot_S1408x1664_S1664x256_S1408x256_1_0_0_1_n_n none (truncf .bf16 x0 bitsLt_bf16_f32) (truncf .bf16 x2 bitsLt_bf16_f32)
        (constant (F := Ideal) S1408x256 .f32 0x00000000#32) (ix2 p q)
      = prod x0 x2 (ix2 p q) :=
  matmul_trunc_apply dot_S1408x1664_S1664x256_S1408x256_1_0_0_1_n_n rfl rfl
    (fun i q => by
      unfold DotDims.lhsIdx
      rw [dif_neg (show ¬(0 : Fin S1408x1664.rank) ∈ dot_S1408x1664_S1664x256_S1408x256_1_0_0_1_n_n.lhsBatch by decide),
        dif_pos (show (0 : Fin S1408x1664.rank) ∈ dot_S1408x1664_S1664x256_S1408x256_1_0_0_1_n_n.lhsNonContracting by decide)]
      rfl)
    (fun i q => dot_S1408x1664_S1664x256_S1408x256_1_0_0_1_n_n.lhsIdx_val_of_single rfl i q)
    (fun i q => dot_S1408x1664_S1664x256_S1408x256_1_0_0_1_n_n.rhsIdx_val_of_single rfl i q)
    (fun i q => by
      unfold DotDims.rhsIdx
      rw [dif_neg (show ¬(1 : Fin S1664x256.rank) ∈ dot_S1408x1664_S1664x256_S1408x256_1_0_0_1_n_n.rhsBatch by decide),
        dif_pos (show (1 : Fin S1664x256.rank) ∈ dot_S1408x1664_S1664x256_S1408x256_1_0_0_1_n_n.rhsNonContracting by decide)]
      rfl)
    bitsLt_bf16_f32 x0 x2 p q

/-- The first body's product of 1408 rows and a 256 × 256 weight matrix. -/
theorem mm_1408_256_256 (x0 : FVec Ideal S1408x256 .f32) (x2 : FVec Ideal S256x256 .f32) (p : Fin 1408) (q : Fin 256) :
    matmul dot_S1408x256_S256x256_S1408x256_1_0_0_1_n_n none (truncf .bf16 x0 bitsLt_bf16_f32) (truncf .bf16 x2 bitsLt_bf16_f32)
        (constant (F := Ideal) S1408x256 .f32 0x00000000#32) (ix2 p q)
      = prod x0 x2 (ix2 p q) :=
  matmul_trunc_apply dot_S1408x256_S256x256_S1408x256_1_0_0_1_n_n rfl rfl
    (fun i q => by
      unfold DotDims.lhsIdx
      rw [dif_neg (show ¬(0 : Fin S1408x256.rank) ∈ dot_S1408x256_S256x256_S1408x256_1_0_0_1_n_n.lhsBatch by decide),
        dif_pos (show (0 : Fin S1408x256.rank) ∈ dot_S1408x256_S256x256_S1408x256_1_0_0_1_n_n.lhsNonContracting by decide)]
      rfl)
    (fun i q => dot_S1408x256_S256x256_S1408x256_1_0_0_1_n_n.lhsIdx_val_of_single rfl i q)
    (fun i q => dot_S1408x256_S256x256_S1408x256_1_0_0_1_n_n.rhsIdx_val_of_single rfl i q)
    (fun i q => by
      unfold DotDims.rhsIdx
      rw [dif_neg (show ¬(1 : Fin S256x256.rank) ∈ dot_S1408x256_S256x256_S1408x256_1_0_0_1_n_n.rhsBatch by decide),
        dif_pos (show (1 : Fin S256x256.rank) ∈ dot_S1408x256_S256x256_S1408x256_1_0_0_1_n_n.rhsNonContracting by decide)]
      rfl)
    bitsLt_bf16_f32 x0 x2 p q

/-- The second body's product of a block of the diffusion matrix and the source rows. -/
theorem mm_128_2816_256 (x0 : FVec Ideal S128x2816 .f32) (x2 : FVec Ideal S2816x256 .f32) (p : Fin 128) (q : Fin 256) :
    matmul dot_S128x2816_S2816x256_S128x256_1_0_0_1_n_n none (truncf .bf16 x0 bitsLt_bf16_f32) (truncf .bf16 x2 bitsLt_bf16_f32)
        (constant (F := Ideal) S128x256 .f32 0x00000000#32) (ix2 p q)
      = prod x0 x2 (ix2 p q) :=
  matmul_trunc_apply dot_S128x2816_S2816x256_S128x256_1_0_0_1_n_n rfl rfl
    (fun i q => by
      unfold DotDims.lhsIdx
      rw [dif_neg (show ¬(0 : Fin S128x2816.rank) ∈ dot_S128x2816_S2816x256_S128x256_1_0_0_1_n_n.lhsBatch by decide),
        dif_pos (show (0 : Fin S128x2816.rank) ∈ dot_S128x2816_S2816x256_S128x256_1_0_0_1_n_n.lhsNonContracting by decide)]
      rfl)
    (fun i q => dot_S128x2816_S2816x256_S128x256_1_0_0_1_n_n.lhsIdx_val_of_single rfl i q)
    (fun i q => dot_S128x2816_S2816x256_S128x256_1_0_0_1_n_n.rhsIdx_val_of_single rfl i q)
    (fun i q => by
      unfold DotDims.rhsIdx
      rw [dif_neg (show ¬(1 : Fin S2816x256.rank) ∈ dot_S128x2816_S2816x256_S128x256_1_0_0_1_n_n.rhsBatch by decide),
        dif_pos (show (1 : Fin S2816x256.rank) ∈ dot_S128x2816_S2816x256_S128x256_1_0_0_1_n_n.rhsNonContracting by decide)]
      rfl)
    bitsLt_bf16_f32 x0 x2 p q

/-- The second body's product of 128 rows and a 256 × 256 weight matrix. -/
theorem mm_128_256_256 (x0 : FVec Ideal S128x256 .f32) (x2 : FVec Ideal S256x256 .f32) (p : Fin 128) (q : Fin 256) :
    matmul dot_S128x256_S256x256_S128x256_1_0_0_1_n_n none (truncf .bf16 x0 bitsLt_bf16_f32) (truncf .bf16 x2 bitsLt_bf16_f32)
        (constant (F := Ideal) S128x256 .f32 0x00000000#32) (ix2 p q)
      = prod x0 x2 (ix2 p q) :=
  matmul_trunc_apply dot_S128x256_S256x256_S128x256_1_0_0_1_n_n rfl rfl
    (fun i q => by
      unfold DotDims.lhsIdx
      rw [dif_neg (show ¬(0 : Fin S128x256.rank) ∈ dot_S128x256_S256x256_S128x256_1_0_0_1_n_n.lhsBatch by decide),
        dif_pos (show (0 : Fin S128x256.rank) ∈ dot_S128x256_S256x256_S128x256_1_0_0_1_n_n.lhsNonContracting by decide)]
      rfl)
    (fun i q => dot_S128x256_S256x256_S128x256_1_0_0_1_n_n.lhsIdx_val_of_single rfl i q)
    (fun i q => dot_S128x256_S256x256_S128x256_1_0_0_1_n_n.rhsIdx_val_of_single rfl i q)
    (fun i q => by
      unfold DotDims.rhsIdx
      rw [dif_neg (show ¬(1 : Fin S256x256.rank) ∈ dot_S128x256_S256x256_S128x256_1_0_0_1_n_n.rhsBatch by decide),
        dif_pos (show (1 : Fin S256x256.rank) ∈ dot_S128x256_S256x256_S128x256_1_0_0_1_n_n.rhsNonContracting by decide)]
      rfl)
    bitsLt_bf16_f32 x0 x2 p q

/-- The first dense layer's product. -/
theorem mm_128_256_64 (x0 : FVec Ideal S128x256 .f32) (x2 : FVec Ideal S256x64 .f32) (p : Fin 128) (q : Fin 64) :
    matmul dot_S128x256_S256x64_S128x64_1_0_0_1_n_n none (truncf .bf16 x0 bitsLt_bf16_f32) (truncf .bf16 x2 bitsLt_bf16_f32)
        (constant (F := Ideal) S128x64 .f32 0x00000000#32) (ix2 p q)
      = prod x0 x2 (ix2 p q) :=
  matmul_trunc_apply dot_S128x256_S256x64_S128x64_1_0_0_1_n_n rfl rfl
    (fun i q => by
      unfold DotDims.lhsIdx
      rw [dif_neg (show ¬(0 : Fin S128x256.rank) ∈ dot_S128x256_S256x64_S128x64_1_0_0_1_n_n.lhsBatch by decide),
        dif_pos (show (0 : Fin S128x256.rank) ∈ dot_S128x256_S256x64_S128x64_1_0_0_1_n_n.lhsNonContracting by decide)]
      rfl)
    (fun i q => dot_S128x256_S256x64_S128x64_1_0_0_1_n_n.lhsIdx_val_of_single rfl i q)
    (fun i q => dot_S128x256_S256x64_S128x64_1_0_0_1_n_n.rhsIdx_val_of_single rfl i q)
    (fun i q => by
      unfold DotDims.rhsIdx
      rw [dif_neg (show ¬(1 : Fin S256x64.rank) ∈ dot_S128x256_S256x64_S128x64_1_0_0_1_n_n.rhsBatch by decide),
        dif_pos (show (1 : Fin S256x64.rank) ∈ dot_S128x256_S256x64_S128x64_1_0_0_1_n_n.rhsNonContracting by decide)]
      rfl)
    bitsLt_bf16_f32 x0 x2 p q

/-- The second dense layer's product. -/
theorem mm_128_64_64 (x0 : FVec Ideal S128x64 .f32) (x2 : FVec Ideal S64x64 .f32) (p : Fin 128) (q : Fin 64) :
    matmul dot_S128x64_S64x64_S128x64_1_0_0_1_n_n none (truncf .bf16 x0 bitsLt_bf16_f32) (truncf .bf16 x2 bitsLt_bf16_f32)
        (constant (F := Ideal) S128x64 .f32 0x00000000#32) (ix2 p q)
      = prod x0 x2 (ix2 p q) :=
  matmul_trunc_apply dot_S128x64_S64x64_S128x64_1_0_0_1_n_n rfl rfl
    (fun i q => by
      unfold DotDims.lhsIdx
      rw [dif_neg (show ¬(0 : Fin S128x64.rank) ∈ dot_S128x64_S64x64_S128x64_1_0_0_1_n_n.lhsBatch by decide),
        dif_pos (show (0 : Fin S128x64.rank) ∈ dot_S128x64_S64x64_S128x64_1_0_0_1_n_n.lhsNonContracting by decide)]
      rfl)
    (fun i q => dot_S128x64_S64x64_S128x64_1_0_0_1_n_n.lhsIdx_val_of_single rfl i q)
    (fun i q => dot_S128x64_S64x64_S128x64_1_0_0_1_n_n.rhsIdx_val_of_single rfl i q)
    (fun i q => by
      unfold DotDims.rhsIdx
      rw [dif_neg (show ¬(1 : Fin S64x64.rank) ∈ dot_S128x64_S64x64_S128x64_1_0_0_1_n_n.rhsBatch by decide),
        dif_pos (show (1 : Fin S64x64.rank) ∈ dot_S128x64_S64x64_S128x64_1_0_0_1_n_n.rhsNonContracting by decide)]
      rfl)
    bitsLt_bf16_f32 x0 x2 p q

/-- The third dense layer's product. -/
theorem mm_128_64_8 (x0 : FVec Ideal S128x64 .f32) (x2 : FVec Ideal S64x8 .f32) (p : Fin 128) (q : Fin 8) :
    matmul dot_S128x64_S64x8_S128x8_1_0_0_1_n_n none (truncf .bf16 x0 bitsLt_bf16_f32) (truncf .bf16 x2 bitsLt_bf16_f32)
        (constant (F := Ideal) S128x8 .f32 0x00000000#32) (ix2 p q)
      = prod x0 x2 (ix2 p q) :=
  matmul_trunc_apply dot_S128x64_S64x8_S128x8_1_0_0_1_n_n rfl rfl
    (fun i q => by
      unfold DotDims.lhsIdx
      rw [dif_neg (show ¬(0 : Fin S128x64.rank) ∈ dot_S128x64_S64x8_S128x8_1_0_0_1_n_n.lhsBatch by decide),
        dif_pos (show (0 : Fin S128x64.rank) ∈ dot_S128x64_S64x8_S128x8_1_0_0_1_n_n.lhsNonContracting by decide)]
      rfl)
    (fun i q => dot_S128x64_S64x8_S128x8_1_0_0_1_n_n.lhsIdx_val_of_single rfl i q)
    (fun i q => dot_S128x64_S64x8_S128x8_1_0_0_1_n_n.rhsIdx_val_of_single rfl i q)
    (fun i q => by
      unfold DotDims.rhsIdx
      rw [dif_neg (show ¬(1 : Fin S64x8.rank) ∈ dot_S128x64_S64x8_S128x8_1_0_0_1_n_n.rhsBatch by decide),
        dif_pos (show (1 : Fin S64x8.rank) ∈ dot_S128x64_S64x8_S128x8_1_0_0_1_n_n.rhsNonContracting by decide)]
      rfl)
    bitsLt_bf16_f32 x0 x2 p q

/-! ## The first body's three stored values -/

/-- The cleared accumulator block is zero at every entry. -/
theorem pay1_apply (p : Fin 1408) (q : Fin 256) : k0_pay1 (F := Ideal) (ix2 p q) = 0 := by
  unfold k0_pay1
  rw [shapeCast_self]
  exact Ideal.ofBits_zero_f32

/-- One accumulation step: the accumulator's entry plus the entry of the product of the two blocks. -/
theorem pay2_apply (v3 : Vec Ideal S1408x1664 .f32) (v5 : Vec Ideal S1664x256 .f32) (v8 : Vec Ideal S1408x256 .f32)
    (p : Fin 1408) (q : Fin 256) :
    k0_pay2 v3 v5 v8 (ix2 p q) = v8 (ix2 p q) + prod v3 v5 (ix2 p q) := by
  unfold k0_pay2
  rw [shapeCast_self, shapeCast_self]
  exact congrArg (v8 (ix2 p q) + ·) (mm_1408_1664_256 v3 v5 p q)

/-- The stored block: the accumulated rows through one weight matrix plus the target rows through the other. -/
theorem pay3_apply (v17 v19 : Vec Ideal S1408x256 .f32) (v22 v25 : Vec Ideal S256x256 .f32) (p : Fin 1408) (q : Fin 256) :
    k0_pay3 v17 v19 v22 v25 (ix2 p q) = prod (A := 1408) v17 v22 (ix2 p q) + prod v19 v25 (ix2 p q) := by
  unfold k0_pay3
  rw [shapeCast_self, shapeCast_self, shapeCast_self]
  exact congrArg₂ (· + ·) (mm_1408_256_256 v17 v22 p q) (mm_1408_256_256 v19 v25 p q)

/-! ## The second body's products as equalities of arrays -/

theorem mmf_128_2816_256 (x0 : FVec Ideal S128x2816 .f32) (x2 : FVec Ideal S2816x256 .f32) :
    matmul dot_S128x2816_S2816x256_S128x256_1_0_0_1_n_n none (truncf .bf16 x0 bitsLt_bf16_f32) (truncf .bf16 x2 bitsLt_bf16_f32)
        (constant (F := Ideal) S128x256 .f32 0x00000000#32)
      = prod x0 x2 :=
  funext fun j => by
    obtain ⟨p, q, rfl⟩ : ∃ (p : Fin 128) (q : Fin 256), j = ix2 p q := ⟨j 0, j 1, eq_ix2 j⟩
    exact mm_128_2816_256 x0 x2 p q

theorem mmf_128_256_256 (x0 : FVec Ideal S128x256 .f32) (x2 : FVec Ideal S256x256 .f32) :
    matmul dot_S128x256_S256x256_S128x256_1_0_0_1_n_n none (truncf .bf16 x0 bitsLt_bf16_f32) (truncf .bf16 x2 bitsLt_bf16_f32)
        (constant (F := Ideal) S128x256 .f32 0x00000000#32)
      = prod x0 x2 :=
  funext fun j => by
    obtain ⟨p, q, rfl⟩ : ∃ (p : Fin 128) (q : Fin 256), j = ix2 p q := ⟨j 0, j 1, eq_ix2 j⟩
    exact mm_128_256_256 x0 x2 p q

theorem mmf_128_256_64 (x0 : FVec Ideal S128x256 .f32) (x2 : FVec Ideal S256x64 .f32) :
    matmul dot_S128x256_S256x64_S128x64_1_0_0_1_n_n none (truncf .bf16 x0 bitsLt_bf16_f32) (truncf .bf16 x2 bitsLt_bf16_f32)
        (constant (F := Ideal) S128x64 .f32 0x00000000#32)
      = prod x0 x2 :=
  funext fun j => by
    obtain ⟨p, q, rfl⟩ : ∃ (p : Fin 128) (q : Fin 64), j = ix2 p q := ⟨j 0, j 1, eq_ix2 j⟩
    exact mm_128_256_64 x0 x2 p q

theorem mmf_128_64_64 (x0 : FVec Ideal S128x64 .f32) (x2 : FVec Ideal S64x64 .f32) :
    matmul dot_S128x64_S64x64_S128x64_1_0_0_1_n_n none (truncf .bf16 x0 bitsLt_bf16_f32) (truncf .bf16 x2 bitsLt_bf16_f32)
        (constant (F := Ideal) S128x64 .f32 0x00000000#32)
      = prod x0 x2 :=
  funext fun j => by
    obtain ⟨p, q, rfl⟩ : ∃ (p : Fin 128) (q : Fin 64), j = ix2 p q := ⟨j 0, j 1, eq_ix2 j⟩
    exact mm_128_64_64 x0 x2 p q

theorem mmf_128_64_8 (x0 : FVec Ideal S128x64 .f32) (x2 : FVec Ideal S64x8 .f32) :
    matmul dot_S128x64_S64x8_S128x8_1_0_0_1_n_n none (truncf .bf16 x0 bitsLt_bf16_f32) (truncf .bf16 x2 bitsLt_bf16_f32)
        (constant (F := Ideal) S128x8 .f32 0x00000000#32)
      = prod x0 x2 :=
  funext fun j => by
    obtain ⟨p, q, rfl⟩ : ∃ (p : Fin 128) (q : Fin 8), j = ix2 p q := ⟨j 0, j 1, eq_ix2 j⟩
    exact mm_128_64_8 x0 x2 p q

/-! ## The pointwise and layout steps of the second body, as equalities of arrays -/

/-- A one-row array as the vector of its entries. -/
def rowVec {K : ℕ} (b : Cert.Spec.Mat 1 K) : Cert.Spec.Vc K := fun i => b (ix2 (0 : Fin 1) (i 0))

/-- Taking the maximum with the zero splat is clamping below at zero. -/
theorem relu_eq {A K : ℕ} (x : Cert.Spec.Mat A K) :
    maximumf x (broadcast (⟨2, ![A, K]⟩ : Shape) (Scalar.ofBits (F := Ideal) .f32 0x00000000#32)) = Cert.Spec.relu x :=
  funext fun j => by
    show max (x j) (Ideal.ofBits .f32 0x00000000#32) = max (x j) 0
    rw [Ideal.ofBits_zero_f32]

/-- Adding a one-row array spread over all rows is adding the bias vector to every row. -/
theorem addRow_eq {A K : ℕ} (x : Cert.Spec.Mat A K) (b : Cert.Spec.Mat 1 K)
    (hbc : (⟨2, ![1, K]⟩ : Shape).Broadcasts ⟨2, ![A, K]⟩) :
    addf x (broadcastTo (⟨2, ![A, K]⟩ : Shape) b hbc) = Cert.Spec.addRow x (rowVec b) :=
  funext fun j => by
    obtain ⟨p, q, rfl⟩ : ∃ (p : Fin A) (q : Fin K), j = ix2 p q := ⟨j 0, j 1, eq_ix2 j⟩
    show x (ix2 p q) + broadcastTo (⟨2, ![A, K]⟩ : Shape) b hbc (ix2 p q) = x (ix2 p q) + b (ix2 (0 : Fin 1) q)
    rw [broadcastTo_1b_ab_apply]

/-- The lane sum of the squares of a row is the sum over the row's 256 columns. -/
theorem laneSum_apply (x : Cert.Spec.Mat 128 256) (h : S128x256.Reduces [1] S128) (hφ : FKind.Formats .f32)
    (hacc : (0x00000000#32 : BitVec 32) = 0x00000000#32) (r : Fin 128) :
    multiReduction (F := Ideal) .add [1] S128 (mulf x x) 0x00000000#32 h hφ hacc (ix1 r) = Cert.Spec.rowSq x r := by
  refine (Ideal.multiReduction_add_single (mulf x x) 0x00000000#32 h hφ hacc (ix1 r)).trans ?_
  show (∑ k : Fin 256, mulf x x (h.lift (ix1 r) k)) = ∑ c : Fin 256, x (ix2 r c) * x (ix2 r c)
  refine Finset.sum_congr rfl fun c _ => ?_
  have e : h.lift (ix1 r) c = ix2 r c := funext fun a => Fin.ext (by
    match a with
    | ⟨0, _⟩ => rfl
    | ⟨1, _⟩ => rfl)
  rw [e]
  rfl

/-- Scaling every entry by the reciprocal square root of its row's clamped lane sum is the row normalisation. -/
theorem normalize_eq (x : Cert.Spec.Mat 128 256) (h : S128x256.Reduces [1] S128) (hφ : FKind.Formats .f32)
    (hacc : (0x00000000#32 : BitVec 32) = 0x00000000#32) (hsc : S128.ShapeCasts S128x1) (hbc : S128x1.Broadcasts S128x256) :
    mulf x (broadcastTo S128x256
        (rsqrt (maximumf (shapeCast S128x1 (multiReduction (F := Ideal) .add [1] S128 (mulf x x) 0x00000000#32 h hφ hacc) hsc)
          (broadcast S128x1 (Scalar.ofBits (F := Ideal) .f32 0x2B8CBCCC#32)))) hbc)
      = Cert.Spec.normalize x :=
  funext fun j => by
    obtain ⟨p, q, rfl⟩ : ∃ (p : Fin 128) (q : Fin 256), j = ix2 p q := ⟨j 0, j 1, eq_ix2 j⟩
    refine (congrArg (x (ix2 p q) * ·) (Cert.LibKeepdims.broadcastTo_a1_ab_apply _ hbc p q)).trans ?_
    show x (ix2 p q) * Ideal.rsqrt (max (shapeCast S128x1 (multiReduction (F := Ideal) .add [1] S128 (mulf x x) 0x00000000#32 h hφ hacc) hsc (ix2 p (0 : Fin 1)))
        (Ideal.ofBits .f32 0x2B8CBCCC#32))
      = x (ix2 p q) * Ideal.rsqrt (max (Cert.Spec.rowSq x p) Cert.Spec.eps)
    rw [Cert.LibKeepdims.shapeCast_a_a1_apply, laneSum_apply]
    rfl

/-! ## The second body's two stored values -/

/-- The value the second body carries to its last stage: layer 2 clamped below at zero, each row normalised, and the
    first dense layer with its bias row. -/
theorem pay2_eq (v0 : Vec Ideal S128x2816 .f32) (v2 : Vec Ideal S2816x256 .f32) (v6 : Vec Ideal S128x256 .f32)
    (v9 v12 : Vec Ideal S256x256 .f32) (v29 : Vec Ideal S256x64 .f32) (v33 : Vec Ideal S1x64 .f32) :
    k1_pay2 v0 v2 v6 v9 v12 v29 v33
      = Cert.Spec.addRow (prod (Cert.Spec.normalize (Cert.Spec.relu (Cert.Spec.layer (A := 128) v0 v2 v6 v9 v12))) v29) (rowVec v33) := by
  unfold k1_pay2
  simp only [shapeCast_self]
  have hL : addf (prod (prod v0 v2) v9) (prod v6 v12) = Cert.Spec.layer (A := 128) v0 v2 v6 v9 v12 := rfl
  rw [mmf_128_2816_256, mmf_128_256_256, mmf_128_256_256, hL, relu_eq, normalize_eq, mmf_128_256_64, addRow_eq]

/-- The stored block: the carried value clamped below at zero, then the last two dense layers with their bias rows,
    the first of them clamped below at zero. -/
theorem pay1_eq (v36 : FVec Ideal S128x64 .f32) (v39 : Vec Ideal S64x64 .f32) (v43 : Vec Ideal S1x64 .f32)
    (v49 : Vec Ideal S64x8 .f32) (v53 : Vec Ideal S1x8 .f32) :
    k1_pay1 v36 (Scalar.ofBits (F := Ideal) .f32 0x00000000#32) v39 v43 v49 v53
      = Cert.Spec.addRow (prod (Cert.Spec.relu (Cert.Spec.addRow (prod (Cert.Spec.relu v36) v39) (rowVec v43))) v49) (rowVec v53) := by
  unfold k1_pay1
  simp only [shapeCast_self]
  rw [relu_eq, mmf_128_64_64, addRow_eq, relu_eq, mmf_128_64_8, addRow_eq]

/-- The second body's stored block, at an entry, is the head of the network on the body's 128 rows. -/
theorem head_apply (v0 : Vec Ideal S128x2816 .f32) (v2 : Vec Ideal S2816x256 .f32) (v6 : Vec Ideal S128x256 .f32)
    (v9 v12 : Vec Ideal S256x256 .f32) (v29 : Vec Ideal S256x64 .f32) (v33 : Vec Ideal S1x64 .f32)
    (v39 : Vec Ideal S64x64 .f32) (v43 : Vec Ideal S1x64 .f32) (v49 : Vec Ideal S64x8 .f32) (v53 : Vec Ideal S1x8 .f32)
    (p : Fin 128) (q : Fin 8) :
    k1_pay1 (k1_pay2 v0 v2 v6 v9 v12 v29 v33) (Scalar.ofBits (F := Ideal) .f32 0x00000000#32) v39 v43 v49 v53 (ix2 p q)
      = Cert.Spec.head (A := 128) v0 v2 v6 v9 v12 v29 (rowVec v33) v39 (rowVec v43) v49 (rowVec v53) (ix2 p q) := by
  rw [pay1_eq, pay2_eq]
  rfl

end Cert.KernelIdeal.Pay

end
-- ==== Proof.LibIndexed.lean ====
/-
  Reading the host gather and the host accumulating scatter AT AN INDEX, for the two patterns of dimension
  numbers that "take rows of a table at an integer array" and "add rows into a table at an integer array" lower to:

  * ROW pattern: a table of shape [N, D], one start index per row e of an index array of shape [E, 1],
    whole rows of length D moved (offset / window axis 1, collapsed / inserted axis 0);
  * FLAT pattern: a table of shape [N], an index array of shape [E, 1], single elements moved.

  The gather reads its start index signed and CLAMPS it into [0, N - 1]; the scatter reads it signed and does NOT
  clamp: an update whose row falls outside [0, N) is dropped. All statements are generic in the extents N, D, E
  and in the index width, and take the dimension-number record as a variable with equations on its fields.
-/
import Idealize.ShloMosaic.PureOps.Ideal
import Idealize.ShloMosaic.PureOps.Dims
import Idealize.ShloMosaic.PureOps.ShapeOps
import Idealize.ShloMosaic.PureOps.Contract
import Idealize.ShloMosaic.Lib.ValueIdx

noncomputable section

open scoped BigOperators

namespace Cert.LibIndexed

open Idealize.ShloMosaic Idealize.ShloMosaic.ValueIdx

/-! ## The row pattern: a table [N, D] at an index array [E, 1] -/

/-- ROW GATHER read at (e, k): the table's row at the start index idx[e, 0], read signed and clamped into
    [0, N - 1], at column k. -/
theorem row_gather_apply {α : Type} {N D E w : Nat} (hN : 0 < N)
    (d : GatherDims ⟨2, ![N, D]⟩ ⟨2, ![E, 1]⟩ ⟨2, ![E, D]⟩)
    (h_od : d.offsetDims = [1]) (h_cd : d.collapsedSliceDims = [0]) (h_ob : d.operandBatchingDims = [])
    (h_sb : d.startIndicesBatchingDims = []) (h_sm : d.startIndexMap = [0]) (h_iv : d.indexVectorDim = 1)
    (h_ss : d.sliceSizes = ![1, D])
    (x : (⟨2, ![N, D]⟩ : Shape).Idx → α) (idx : IVec ⟨2, ![E, 1]⟩ w) (e : Fin E) (k : Fin D) :
    Host.gather d x idx (ix2 e k)
      = x (ix2 ⟨min (idx (ix2 e (0 : Fin 1))).toInt.toNat (N - 1), by omega⟩ k) := by
  obtain ⟨od, cd, ob, sb, sm, iv, ss, wf⟩ := d
  simp only at h_od h_cd h_ob h_sb h_sm h_iv h_ss
  subst h_od h_cd h_ob h_sb h_sm h_iv h_ss
  unfold Host.gather
  congr 1
  funext a
  refine Fin.ext ?_
  match a with
  | ⟨0, _⟩ =>
    show GatherDims.start _ (ix2 e k) idx 0 + GatherDims.batchCoord _ (ix2 e k) 0 + GatherDims.offCoord _ (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    refine congrArg (fun v : BitVec w => min v.toInt.toNat (N - 1)) (congrArg idx ?_)
    funext b; refine Fin.ext ?_
    match b with
    | ⟨0, _⟩ => rfl
    | ⟨1, _⟩ => rfl
  | ⟨1, _⟩ =>
    show GatherDims.start _ (ix2 e k) idx 1 + GatherDims.batchCoord _ (ix2 e k) 1 + GatherDims.offCoord _ (ix2 e k) 1 = _
    rw [GatherDims.batchCoord_eq_zero _ _ _ List.not_mem_nil]
    unfold GatherDims.start GatherDims.offCoord
    rw [dif_neg (show (1 : Fin 2) ∉ [(0 : Fin 2)] by decide),
      dif_pos ((GatherDims.mem_sKept _ _).mpr ⟨show (1 : Fin 2) ∉ [(0 : Fin 2)] by decide, List.not_mem_nil⟩)]
    simp only [Nat.zero_add]
    rfl

/-- The ROW SCATTER's dimension numbers for a table [N, D], scatter indices [E, 1] and updates [E, D]: window axis 1
    of the updates goes to axis 1 of the table, axis 0 of the table is addressed by the one index component. -/
abbrev rowScatterDims (N D E : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- ROW SCATTER, axis 0 of "start plus window coordinate": the start index idx[e', 0] read signed (no window
    coordinate on the inserted axis). -/
theorem rowScatter_pos0 {N D E w : Nat} (wf : ScatterDims.WF ⟨2, ![N, D]⟩ ⟨2, ![E, 1]⟩ ⟨2, ![E, D]⟩ [1] [0] [0] 1)
    (idx : IVec ⟨2, ![E, 1]⟩ w) (j : (⟨2, ![E, D]⟩ : Shape).Idx) :
    (rowScatterDims N D E wf).start j idx 0 + ((rowScatterDims N D E wf).window j 0 : ℤ)
      = (idx (ix2 (j 0) (0 : Fin 1))).toInt := by
  unfold ScatterDims.start ScatterDims.window
  rw [dif_pos (List.mem_singleton.mpr rfl),
    dif_neg (show (0 : Fin 2) ∉ Shape.kept ⟨2, ![N, D]⟩ [(0 : Fin 2)] by simp [Shape.kept])]
  simp only [Nat.cast_zero, add_zero]
  refine congrArg (fun v : BitVec w => v.toInt) (congrArg idx ?_)
  funext b; refine Fin.ext ?_
  match b with
  | ⟨0, _⟩ => rfl
  | ⟨1, _⟩ => rfl

/-- ROW SCATTER, axis 1 of "start plus window coordinate": the update's own column (no start on that axis). -/
theorem rowScatter_pos1 {N D E w : Nat} (wf : ScatterDims.WF ⟨2, ![N, D]⟩ ⟨2, ![E, 1]⟩ ⟨2, ![E, D]⟩ [1] [0] [0] 1)
    (idx : IVec ⟨2, ![E, 1]⟩ w) (j : (⟨2, ![E, D]⟩ : Shape).Idx) :
    (rowScatterDims N D E wf).start j idx 1 + ((rowScatterDims N D E wf).window j 1 : ℤ) = ((j 1).val : ℤ) := by
  unfold ScatterDims.start ScatterDims.window
  rw [dif_neg (show (1 : Fin 2) ∉ [(0 : Fin 2)] by decide),
    dif_pos (show (1 : Fin 2) ∈ Shape.kept ⟨2, ![N, D]⟩ [(0 : Fin 2)] by simp [Shape.kept])]
  simp only [zero_add]
  rfl

/-- ROW SCATTER, where an update lands: update j = (e', k') lands at table element i exactly when its start index
    idx[e', 0], read signed and not clamped, is i's row and k' is i's column. -/
theorem rowScatter_resultIdx_eq_some {N D E w : Nat}
    (wf : ScatterDims.WF ⟨2, ![N, D]⟩ ⟨2, ![E, 1]⟩ ⟨2, ![E, D]⟩ [1] [0] [0] 1)
    (idx : IVec ⟨2, ![E, 1]⟩ w) (j : (⟨2, ![E, D]⟩ : Shape).Idx) (i : (⟨2, ![N, D]⟩ : Shape).Idx) :
    (rowScatterDims N D E wf).resultIdx? j idx = some i
      ↔ (idx (ix2 (j 0) (0 : Fin 1))).toInt = ((i 0).val : ℤ) ∧ (j 1).val = (i 1).val := by
  have h0 := rowScatter_pos0 wf idx j
  have h1 := rowScatter_pos1 wf idx j
  have hi0 := idx2_lt0 i
  have hi1 := idx2_lt1 i
  have hj1 := idx2_lt1 j
  unfold ScatterDims.resultIdx?
  split
  · rename_i h
    rw [Option.some.injEq]
    constructor
    · intro hfi
      have e0 : ((rowScatterDims N D E wf).start j idx 0 + ((rowScatterDims N D E wf).window j 0 : ℤ)).toNat = (i 0).val :=
        congrArg (fun f : (⟨2, ![N, D]⟩ : Shape).Idx => (f 0).val) hfi
      have e1 : ((rowScatterDims N D E wf).start j idx 1 + ((rowScatterDims N D E wf).window j 1 : ℤ)).toNat = (i 1).val :=
        congrArg (fun f : (⟨2, ![N, D]⟩ : Shape).Idx => (f 1).val) hfi
      have g0 := (h 0).1
      rw [h0] at e0 g0
      rw [h1] at e1
      constructor
      · omega
      · omega
    · rintro ⟨ha, hb⟩
      funext a; refine Fin.ext ?_
      match a with
      | ⟨0, _⟩ =>
        show ((rowScatterDims N D E wf).start j idx 0 + ((rowScatterDims N D E wf).window j 0 : ℤ)).toNat = (i 0).val
        rw [h0, ha]; exact Int.toNat_natCast _
      | ⟨1, _⟩ =>
        show ((rowScatterDims N D E wf).start j idx 1 + ((rowScatterDims N D E wf).window j 1 : ℤ)).toNat = (i 1).val
        rw [h1, Int.toNat_natCast]; exact hb
  · rename_i h
    constructor
    · intro hh; cases hh
    · rintro ⟨ha, hb⟩
      exfalso; apply h
      intro a
      match a with
      | ⟨0, _⟩ =>
        show 0 ≤ (rowScatterDims N D E wf).start j idx 0 + ((rowScatterDims N D E wf).window j 0 : ℤ)
          ∧ (rowScatterDims N D E wf).start j idx 0 + ((rowScatterDims N D E wf).window j 0 : ℤ) < ((N : ℕ) : ℤ)
        rw [h0, ha]; omega
      | ⟨1, _⟩ =>
        show 0 ≤ (rowScatterDims N D E wf).start j idx 1 + ((rowScatterDims N D E wf).window j 1 : ℤ)
          ∧ (rowScatterDims N D E wf).start j idx 1 + ((rowScatterDims N D E wf).window j 1 : ℤ) < ((D : ℕ) : ℤ)
        rw [h1]; omega

/-- ROW SCATTER-ADD read at (n, k): the table's element plus the sum, over the rows e of the index array whose start
    index idx[e, 0] (read signed, not clamped) is n, of the update's element (e, k). Rows whose start index is
    outside [0, N) contribute to no element. -/
theorem row_scatterAdd_apply {N D E w : Nat}
    (d : ScatterDims ⟨2, ![N, D]⟩ ⟨2, ![E, 1]⟩ ⟨2, ![E, D]⟩)
    (h_uw : d.updateWindowDims = [1]) (h_iw : d.insertedWindowDims = [0])
    (h_sd : d.scatterDimsToOperandDims = [0]) (h_iv : d.indexVectorDim = 1)
    (x : (⟨2, ![N, D]⟩ : Shape).Idx → EReal) (idx : IVec ⟨2, ![E, 1]⟩ w)
    (upd : (⟨2, ![E, D]⟩ : Shape).Idx → EReal) (n : Fin N) (k : Fin D) :
    Ideal.hostScatterAdd d x idx upd (ix2 n k)
      = x (ix2 n k) + ∑ e ∈ Finset.univ.filter (fun e : Fin E => (idx (ix2 e (0 : Fin 1))).toInt = (n.val : ℤ)),
          upd (ix2 e k) := by
  obtain ⟨uw, iw, sd, iv, wf⟩ := d
  simp only at h_uw h_iw h_sd h_iv
  subst h_uw h_iw h_sd h_iv
  show x (ix2 n k) + ∑ j ∈ Finset.univ.filter (fun j => (rowScatterDims N D E wf).resultIdx? j idx = some (ix2 n k)), upd j = _
  congr 1
  refine Finset.sum_nbij' (fun j : (⟨2, ![E, D]⟩ : Shape).Idx => (j 0 : Fin E)) (fun e : Fin E => ix2 e k) ?_ ?_ ?_ ?_ ?_
  · intro j hj
    exact Finset.mem_filter.mpr ⟨Finset.mem_univ _,
      ((rowScatter_resultIdx_eq_some wf idx j (ix2 n k)).mp (Finset.mem_filter.mp hj).2).1⟩
  · intro e he
    exact Finset.mem_filter.mpr ⟨Finset.mem_univ _,
      (rowScatter_resultIdx_eq_some wf idx (ix2 e k) (ix2 n k)).mpr ⟨(Finset.mem_filter.mp he).2, rfl⟩⟩
  · intro j hj
    have hk : j 1 = k := Fin.ext ((rowScatter_resultIdx_eq_some wf idx j (ix2 n k)).mp (Finset.mem_filter.mp hj).2).2
    subst hk; exact (eq_ix2 j).symm
  · intro e _
    rfl
  · intro j hj
    have hk : j 1 = k := Fin.ext ((rowScatter_resultIdx_eq_some wf idx j (ix2 n k)).mp (Finset.mem_filter.mp hj).2).2
    subst hk; exact congrArg upd (eq_ix2 j)

/-- The same read of `Host.scatterAdd` at the ideal instance. -/
theorem row_host_scatterAdd_apply {N D E w : Nat} {φ : FTy}
    (d : ScatterDims ⟨2, ![N, D]⟩ ⟨2, ![E, 1]⟩ ⟨2, ![E, D]⟩)
    (h_uw : d.updateWindowDims = [1]) (h_iw : d.insertedWindowDims = [0])
    (h_sd : d.scatterDimsToOperandDims = [0]) (h_iv : d.indexVectorDim = 1)
    (x : FVec Ideal ⟨2, ![N, D]⟩ φ) (idx : IVec ⟨2, ![E, 1]⟩ w)
    (upd : FVec Ideal ⟨2, ![E, D]⟩ φ) (n : Fin N) (k : Fin D) :
    Host.scatterAdd (F := Ideal) d x idx upd (ix2 n k)
      = x (ix2 n k) + ∑ e ∈ Finset.univ.filter (fun e : Fin E => (idx (ix2 e (0 : Fin 1))).toInt = (n.val : ℤ)),
          upd (ix2 e k) :=
  row_scatterAdd_apply d h_uw h_iw h_sd h_iv x idx upd n k

/-! ## The flat pattern: a table [N] at an index array [E, 1] -/

/-- FLAT GATHER read at e: the table's element at the start index idx[e, 0], read signed and clamped into
    [0, N - 1]. -/
theorem flat_gather_apply {α : Type} {N E w : Nat} (hN : 0 < N)
    (d : GatherDims ⟨1, ![N]⟩ ⟨2, ![E, 1]⟩ ⟨1, ![E]⟩)
    (h_od : d.offsetDims = []) (h_cd : d.collapsedSliceDims = [0]) (h_ob : d.operandBatchingDims = [])
    (h_sb : d.startIndicesBatchingDims = []) (h_sm : d.startIndexMap = [0]) (h_iv : d.indexVectorDim = 1)
    (h_ss : d.sliceSizes = ![1])
    (x : (⟨1, ![N]⟩ : Shape).Idx → α) (idx : IVec ⟨2, ![E, 1]⟩ w) (e : Fin E) :
    Host.gather d x idx (ix1 e)
      = x (ix1 ⟨min (idx (ix2 e (0 : Fin 1))).toInt.toNat (N - 1), by omega⟩) := by
  obtain ⟨od, cd, ob, sb, sm, iv, ss, wf⟩ := d
  simp only at h_od h_cd h_ob h_sb h_sm h_iv h_ss
  subst h_od h_cd h_ob h_sb h_sm h_iv h_ss
  unfold Host.gather
  congr 1
  funext a
  refine Fin.ext ?_
  match a with
  | ⟨0, _⟩ =>
    show GatherDims.start _ (ix1 e) idx 0 + GatherDims.batchCoord _ (ix1 e) 0 + GatherDims.offCoord _ (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    refine congrArg (fun v : BitVec w => min v.toInt.toNat (N - 1)) (congrArg idx ?_)
    funext b; refine Fin.ext ?_
    match b with
    | ⟨0, _⟩ => rfl
    | ⟨1, _⟩ => rfl

/-- The FLAT SCATTER's dimension numbers for a table [N], scatter indices [E, 1] and updates [E]: no window axis,
    the table's one axis is addressed by the one index component. -/
abbrev flatScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- FLAT SCATTER, the one axis of "start plus window coordinate": the start index idx[e', 0] read signed. -/
theorem flatScatter_pos0 {N E w : Nat} (wf : ScatterDims.WF ⟨1, ![N]⟩ ⟨2, ![E, 1]⟩ ⟨1, ![E]⟩ [] [0] [0] 1)
    (idx : IVec ⟨2, ![E, 1]⟩ w) (j : (⟨1, ![E]⟩ : Shape).Idx) :
    (flatScatterDims N E wf).start j idx 0 + ((flatScatterDims N E wf).window j 0 : ℤ)
      = (idx (ix2 (j 0) (0 : Fin 1))).toInt := by
  unfold ScatterDims.start ScatterDims.window
  rw [dif_pos (List.mem_singleton.mpr rfl),
    dif_neg (show (0 : Fin 1) ∉ Shape.kept ⟨1, ![N]⟩ [(0 : Fin 1)] by simp [Shape.kept])]
  simp only [Nat.cast_zero, add_zero]
  refine congrArg (fun v : BitVec w => v.toInt) (congrArg idx ?_)
  funext b; refine Fin.ext ?_
  match b with
  | ⟨0, _⟩ => rfl
  | ⟨1, _⟩ => rfl

/-- FLAT SCATTER, where an update lands: update e' lands at table element i exactly when its start index
    idx[e', 0], read signed and not clamped, is i. -/
theorem flatScatter_resultIdx_eq_some {N E w : Nat}
    (wf : ScatterDims.WF ⟨1, ![N]⟩ ⟨2, ![E, 1]⟩ ⟨1, ![E]⟩ [] [0] [0] 1)
    (idx : IVec ⟨2, ![E, 1]⟩ w) (j : (⟨1, ![E]⟩ : Shape).Idx) (i : (⟨1, ![N]⟩ : Shape).Idx) :
    (flatScatterDims N E wf).resultIdx? j idx = some i
      ↔ (idx (ix2 (j 0) (0 : Fin 1))).toInt = ((i 0).val : ℤ) := by
  have h0 := flatScatter_pos0 wf idx j
  have hi0 : (i 0).val < N := (i 0).isLt
  unfold ScatterDims.resultIdx?
  split
  · rename_i h
    rw [Option.some.injEq]
    constructor
    · intro hfi
      have e0 : ((flatScatterDims N E wf).start j idx 0 + ((flatScatterDims N E wf).window j 0 : ℤ)).toNat = (i 0).val :=
        congrArg (fun f : (⟨1, ![N]⟩ : Shape).Idx => (f 0).val) hfi
      have g0 := (h 0).1
      rw [h0] at e0 g0
      omega
    · intro ha
      funext a; refine Fin.ext ?_
      match a with
      | ⟨0, _⟩ =>
        show ((flatScatterDims N E wf).start j idx 0 + ((flatScatterDims N E wf).window j 0 : ℤ)).toNat = (i 0).val
        rw [h0, ha]; exact Int.toNat_natCast _
  · rename_i h
    constructor
    · intro hh; cases hh
    · intro ha
      exfalso; apply h
      intro a
      match a with
      | ⟨0, _⟩ =>
        show 0 ≤ (flatScatterDims N E wf).start j idx 0 + ((flatScatterDims N E wf).window j 0 : ℤ)
          ∧ (flatScatterDims N E wf).start j idx 0 + ((flatScatterDims N E wf).window j 0 : ℤ) < ((N : ℕ) : ℤ)
        rw [h0, ha]; omega

/-- FLAT SCATTER-ADD read at n: the table's element plus the sum, over the rows e of the index array whose start
    index idx[e, 0] (read signed, not clamped) is n, of the update's element e. Rows whose start index is outside
    [0, N) contribute to no element. -/
theorem flat_scatterAdd_apply {N E w : Nat}
    (d : ScatterDims ⟨1, ![N]⟩ ⟨2, ![E, 1]⟩ ⟨1, ![E]⟩)
    (h_uw : d.updateWindowDims = []) (h_iw : d.insertedWindowDims = [0])
    (h_sd : d.scatterDimsToOperandDims = [0]) (h_iv : d.indexVectorDim = 1)
    (x : (⟨1, ![N]⟩ : Shape).Idx → EReal) (idx : IVec ⟨2, ![E, 1]⟩ w)
    (upd : (⟨1, ![E]⟩ : Shape).Idx → EReal) (n : Fin N) :
    Ideal.hostScatterAdd d x idx upd (ix1 n)
      = x (ix1 n) + ∑ e ∈ Finset.univ.filter (fun e : Fin E => (idx (ix2 e (0 : Fin 1))).toInt = (n.val : ℤ)),
          upd (ix1 e) := by
  obtain ⟨uw, iw, sd, iv, wf⟩ := d
  simp only at h_uw h_iw h_sd h_iv
  subst h_uw h_iw h_sd h_iv
  show x (ix1 n) + ∑ j ∈ Finset.univ.filter (fun j => (flatScatterDims N E wf).resultIdx? j idx = some (ix1 n)), upd j = _
  congr 1
  refine Finset.sum_nbij' (fun j : (⟨1, ![E]⟩ : Shape).Idx => (j 0 : Fin E)) (fun e : Fin E => ix1 e) ?_ ?_ ?_ ?_ ?_
  · intro j hj
    exact Finset.mem_filter.mpr ⟨Finset.mem_univ _,
      (flatScatter_resultIdx_eq_some wf idx j (ix1 n)).mp (Finset.mem_filter.mp hj).2⟩
  · intro e he
    exact Finset.mem_filter.mpr ⟨Finset.mem_univ _,
      (flatScatter_resultIdx_eq_some wf idx (ix1 e) (ix1 n)).mpr (Finset.mem_filter.mp he).2⟩
  · intro j _
    exact (eq_ix1 j).symm
  · intro e _
    rfl
  · intro j _
    exact congrArg upd (eq_ix1 j)

/-- The same read of `Host.scatterAdd` at the ideal instance. -/
theorem flat_host_scatterAdd_apply {N E w : Nat} {φ : FTy}
    (d : ScatterDims ⟨1, ![N]⟩ ⟨2, ![E, 1]⟩ ⟨1, ![E]⟩)
    (h_uw : d.updateWindowDims = []) (h_iw : d.insertedWindowDims = [0])
    (h_sd : d.scatterDimsToOperandDims = [0]) (h_iv : d.indexVectorDim = 1)
    (x : FVec Ideal ⟨1, ![N]⟩ φ) (idx : IVec ⟨2, ![E, 1]⟩ w)
    (upd : FVec Ideal ⟨1, ![E]⟩ φ) (n : Fin N) :
    Host.scatterAdd (F := Ideal) d x idx upd (ix1 n)
      = x (ix1 n) + ∑ e ∈ Finset.univ.filter (fun e : Fin E => (idx (ix2 e (0 : Fin 1))).toInt = (n.val : ℤ)),
          upd (ix1 e) :=
  flat_scatterAdd_apply d h_uw h_iw h_sd h_iv x idx upd n

end Cert.LibIndexed

end
-- ==== Proof.Gathers.lean ====
/-
  Rows of a table at an integer list, as the host computes them.

  The host first normalises the list entry by entry (a negative entry is shifted up by the table's length), views
  the list as a one-column array, and then gathers: the gather reads each start index signed and clamps it into the
  table. Read at an entry, that is the contract's `takeRows` (whole rows of a two-axis table) or the table's element
  at `rowOf` (a one-axis table). Taking rows at a list that was itself taken from a table of indices is taking rows
  twice. Last, the two halves of a stacked weight matrix as slices, and a vector viewed as a one-row matrix.
-/
import Idealize.ShloMosaic.PureOps.Ideal.Laws
import Idealize.ShloMosaic.Lib.ValueIdx
import Idealize.ShloMosaic.Lib.Pipeline.Value
import proofs.«105755_j27273042329874_2_alg».proof.Proof.LibIndexed
import proofs.«105755_j27273042329874_2_alg».proof.Proof.Spec

noncomputable section

namespace Cert.Gathers

open Idealize.ShloMosaic Idealize.ShloMosaic.ValueIdx Cert.Spec

/-! ## The start-index column -/

/-- The start-index column the host prepares from an integer list for a table of `N` rows: every entry
    normalised, the list viewed as an `E × 1` array. -/
abbrev col {E : ℕ} (N : ℕ)
    (hz : (⟨0, ![]⟩ : Shape).BroadcastsInDim ⟨1, ![E]⟩ (![] : Fin 0 → Fin 1))
    (hb : (⟨1, ![E]⟩ : Shape).BroadcastsInDim ⟨2, ![E, 1]⟩ (![0] : Fin 1 → Fin 2))
    (idx : IL E) : IVec ⟨2, ![E, 1]⟩ 32 :=
  broadcastInDim ⟨2, ![E, 1]⟩ ![0] hb
    (select (cmpi .slt idx (broadcastInDim ⟨1, ![E]⟩ ![] hz (constantI ⟨0, ![]⟩ 32 0#32)))
      (addi idx (broadcastInDim ⟨1, ![E]⟩ ![] hz (constantI ⟨0, ![]⟩ 32 (BitVec.ofNat 32 N)))) idx)

/-- The column's entry `(e, u)` is the list's entry `e`, normalised. -/
theorem col_apply {E : ℕ} (N : ℕ)
    (hz : (⟨0, ![]⟩ : Shape).BroadcastsInDim ⟨1, ![E]⟩ (![] : Fin 0 → Fin 1))
    (hb : (⟨1, ![E]⟩ : Shape).BroadcastsInDim ⟨2, ![E, 1]⟩ (![0] : Fin 1 → Fin 2))
    (idx : IL E) (e : Fin E) (u : Fin 1) :
    col N hz hb idx (ix2 e u) = normIdx (BitVec.ofNat 32 N) (idx (ix1 e)) := by
  refine (broadcastInDim_apply (![0] : Fin 1 → Fin 2) hb _ (ix2 e u) (ix1 e) fun a => ?_).trans rfl
  match a with
  | ⟨0, _⟩ =>
    show e.val = if E = 1 then 0 else e.val
    split
    · have := e.isLt; omega
    · rfl

/-! ## (a) Rows of a two-axis table -/

/-- ROWS: the host's gather of whole rows of an `N × D` table at the prepared column is `takeRows`. -/
theorem row_gather_col {N D E : ℕ} (hN : 0 < N)
    (d : GatherDims ⟨2, ![N, D]⟩ ⟨2, ![E, 1]⟩ ⟨2, ![E, D]⟩)
    (h_od : d.offsetDims = [1]) (h_cd : d.collapsedSliceDims = [0]) (h_ob : d.operandBatchingDims = [])
    (h_sb : d.startIndicesBatchingDims = []) (h_sm : d.startIndexMap = [0]) (h_iv : d.indexVectorDim = 1)
    (h_ss : d.sliceSizes = ![1, D])
    (hz : (⟨0, ![]⟩ : Shape).BroadcastsInDim ⟨1, ![E]⟩ (![] : Fin 0 → Fin 1))
    (hb : (⟨1, ![E]⟩ : Shape).BroadcastsInDim ⟨2, ![E, 1]⟩ (![0] : Fin 1 → Fin 2))
    (x : Mat N D) (idx : IL E) :
    Host.gather d x (col N hz hb idx) = takeRows hN x idx := by
  funext i
  obtain ⟨r, q, rfl⟩ : ∃ r q, i = ix2 r q := ⟨i 0, i 1, eq_ix2 i⟩
  refine (Cert.LibIndexed.row_gather_apply hN d h_od h_cd h_ob h_sb h_sm h_iv h_ss x _ r q).trans ?_
  refine congrArg (fun t : Fin N => x (ix2 t q)) (Fin.ext ?_)
  show min (col N hz hb idx (ix2 r (0 : Fin 1))).toInt.toNat (N - 1)
    = min (normIdx (BitVec.ofNat 32 N) (idx (ix1 r))).toInt.toNat (N - 1)
  rw [col_apply]

/-- The same read at an entry. -/
theorem row_gather_col_apply {N D E : ℕ} (hN : 0 < N)
    (d : GatherDims ⟨2, ![N, D]⟩ ⟨2, ![E, 1]⟩ ⟨2, ![E, D]⟩)
    (h_od : d.offsetDims = [1]) (h_cd : d.collapsedSliceDims = [0]) (h_ob : d.operandBatchingDims = [])
    (h_sb : d.startIndicesBatchingDims = []) (h_sm : d.startIndexMap = [0]) (h_iv : d.indexVectorDim = 1)
    (h_ss : d.sliceSizes = ![1, D])
    (hz : (⟨0, ![]⟩ : Shape).BroadcastsInDim ⟨1, ![E]⟩ (![] : Fin 0 → Fin 1))
    (hb : (⟨1, ![E]⟩ : Shape).BroadcastsInDim ⟨2, ![E, 1]⟩ (![0] : Fin 1 → Fin 2))
    (x : Mat N D) (idx : IL E) (r : Fin E) (q : Fin D) :
    Host.gather d x (col N hz hb idx) (ix2 r q) = x (ix2 (rowOf N hN (idx (ix1 r))) q) :=
  congrFun (row_gather_col hN d h_od h_cd h_ob h_sb h_sm h_iv h_ss hz hb x idx) (ix2 r q)

/-! ## (b) Elements of a one-axis table -/

/-- ELEMENTS: the host's gather of single elements of a table of `N` entries at the prepared column reads the
    table at `rowOf`. -/
theorem flat_gather_col_apply {α : Type} {N E : ℕ} (hN : 0 < N)
    (d : GatherDims ⟨1, ![N]⟩ ⟨2, ![E, 1]⟩ ⟨1, ![E]⟩)
    (h_od : d.offsetDims = []) (h_cd : d.collapsedSliceDims = [0]) (h_ob : d.operandBatchingDims = [])
    (h_sb : d.startIndicesBatchingDims = []) (h_sm : d.startIndexMap = [0]) (h_iv : d.indexVectorDim = 1)
    (h_ss : d.sliceSizes = ![1])
    (hz : (⟨0, ![]⟩ : Shape).BroadcastsInDim ⟨1, ![E]⟩ (![] : Fin 0 → Fin 1))
    (hb : (⟨1, ![E]⟩ : Shape).BroadcastsInDim ⟨2, ![E, 1]⟩ (![0] : Fin 1 → Fin 2))
    (sn : (⟨1, ![N]⟩ : Shape).Idx → α) (idx : IL E) (e : Fin E) :
    Host.gather d sn (col N hz hb idx) (ix1 e) = sn (ix1 (rowOf N hN (idx (ix1 e)))) := by
  refine (Cert.LibIndexed.flat_gather_apply hN d h_od h_cd h_ob h_sb h_sm h_iv h_ss sn _ e).trans ?_
  refine congrArg (fun t : Fin N => sn (ix1 t)) (Fin.ext ?_)
  show min (col N hz hb idx (ix2 e (0 : Fin 1))).toInt.toNat (N - 1)
    = min (normIdx (BitVec.ofNat 32 N) (idx (ix1 e))).toInt.toNat (N - 1)
  rw [col_apply]

/-- The same as a function of the entry. -/
theorem flat_gather_col {α : Type} {N E : ℕ} (hN : 0 < N)
    (d : GatherDims ⟨1, ![N]⟩ ⟨2, ![E, 1]⟩ ⟨1, ![E]⟩)
    (h_od : d.offsetDims = []) (h_cd : d.collapsedSliceDims = [0]) (h_ob : d.operandBatchingDims = [])
    (h_sb : d.startIndicesBatchingDims = []) (h_sm : d.startIndexMap = [0]) (h_iv : d.indexVectorDim = 1)
    (h_ss : d.sliceSizes = ![1])
    (hz : (⟨0, ![]⟩ : Shape).BroadcastsInDim ⟨1, ![E]⟩ (![] : Fin 0 → Fin 1))
    (hb : (⟨1, ![E]⟩ : Shape).BroadcastsInDim ⟨2, ![E, 1]⟩ (![0] : Fin 1 → Fin 2))
    (sn : (⟨1, ![N]⟩ : Shape).Idx → α) (idx : IL E) :
    Host.gather d sn (col N hz hb idx) = fun i => sn (ix1 (rowOf N hN (idx (ix1 (i 0))))) := by
  funext i
  obtain ⟨e, rfl⟩ : ∃ e, i = ix1 e := ⟨i 0, eq_ix1 i⟩
  exact flat_gather_col_apply hN d h_od h_cd h_ob h_sb h_sm h_iv h_ss hz hb sn idx e

/-! ## (c) Rows at a list taken from a table of indices -/

/-- Taking rows of `feat` at the list "`sn` at `idx`" is taking rows, at `idx`, of the rows of `feat` at `sn`. -/
theorem takeRows_takeRows {M N D E : ℕ} (hM : 0 < M) (hN : 0 < N) (feat : Mat M D) (sn : IL N) (idx : IL E) :
    takeRows hM feat (fun i : (⟨1, ![E]⟩ : Shape).Idx => sn (ix1 (rowOf N hN (idx (ix1 (i 0))))))
      = takeRows hN (takeRows hM feat sn) idx :=
  rfl

/-! ## (d) The halves of a stacked matrix, and a vector as a one-row matrix -/

/-- Rows `[0, 256)` of a `512 × 256` matrix: its upper half. -/
theorem slice_top (w : Mat 512 256) (h : (⟨2, ![512, 256]⟩ : Shape).Slices ![0, 0] ⟨2, ![256, 256]⟩) :
    extractStridedSlice ⟨2, ![256, 256]⟩ ![0, 0] w h = top w := by
  funext j
  refine extractStridedSlice_apply ![0, 0] w h j (ix2 ⟨(j 0).val, by have : (j 0).val < 256 := (j 0).isLt; omega⟩ (j 1)) fun a => ?_
  match a with
  | ⟨0, _⟩ => exact (Nat.zero_add _).symm
  | ⟨1, _⟩ => exact (Nat.zero_add _).symm

/-- Rows `[256, 512)` of a `512 × 256` matrix: its lower half. -/
theorem slice_bot (w : Mat 512 256) (h : (⟨2, ![512, 256]⟩ : Shape).Slices ![256, 0] ⟨2, ![256, 256]⟩) :
    extractStridedSlice ⟨2, ![256, 256]⟩ ![256, 0] w h = bot w := by
  funext j
  refine extractStridedSlice_apply ![256, 0] w h j (ix2 ⟨256 + (j 0).val, by have : (j 0).val < 256 := (j 0).isLt; omega⟩ (j 1)) fun a => ?_
  match a with
  | ⟨0, _⟩ => rfl
  | ⟨1, _⟩ => exact (Nat.zero_add _).symm

/-- A vector of `K` entries viewed as a `1 × K` matrix reads, at `(u, k)`, the vector at `k`. -/
theorem shapeCast_row_apply {α : Type} {K : ℕ} (x : (⟨1, ![K]⟩ : Shape).Idx → α)
    (h : (⟨1, ![K]⟩ : Shape).ShapeCasts ⟨2, ![1, K]⟩) (u : Fin 1) (k : Fin K) :
    shapeCast ⟨2, ![1, K]⟩ x h (ix2 u k) = x (ix1 k) :=
  shapeCast_apply x h _ _ (by
    have hu : u.val = 0 := by omega
    rw [Shape.rowMajor_val_two, Shape.rowMajor_val_one]
    show k.val = u.val * K + k.val
    rw [hu, Nat.zero_mul, Nat.zero_add])

end Cert.Gathers

end
-- ==== Proof.KernelIdeal.Stages.lean ====
/- What the two stretches of host operations leave in the buffers the pallas_calls read, over the extended reals, in
   the contract's words: rows of the feature table taken at rows of the node list are rows of rows (the contract's
   order); a slice of a stacked weight matrix is its upper or lower half; a bias vector reshaped to one row reads back
   as the vector; rows of the first call's array taken at an integer list. An argument no stretch writes is as
   launched. -/
import proofs.«105755_j27273042329874_2_alg».proof.Proof.KernelIdeal.RunAll
import proofs.«105755_j27273042329874_2_alg».proof.Proof.KernelIdeal.Payloads
import proofs.«105755_j27273042329874_2_alg».proof.Proof.Gathers
import proofs.«105755_j27273042329874_2_alg».proof.Proof.Spec
import Idealize.ShloMosaic.Lib.StableHlo.Run
import Idealize.ShloMosaic.Lib.ValueIdx
import proofs.«105755_j27273042329874_2_alg».proof.Proof.LibLayerProduct
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic Idealize.ShloMosaic.ValueIdx
open Idealize.SL.Sem
open Idealize.ShloMosaic.Pipeline (Dat Cfg Window)
open Cert.Layer

open Idealize.ShloMosaic.StableHlo

variable (m : (ℓ : Loc nD τ sig) → Buf (Elt Ideal) ℓ) (ρ : Dev nD → PrngReg)

/-! ## After the first stretch -/

theorem keep1 (c : Dev nD) (r : Ref sig .tc) (h : r ∉ hostOps0_W) : V1 m ρ c r = m ((c.tc : Thread nD τ).loc r) :=
  (W1_of m ρ c r h).trans rfl

set_option maxHeartbeats 4000000 in
theorem st1_v20 (c : Dev nD) : (V1 m ρ c main_v20 : Cert.Spec.Mat 73216 256)
    = Cert.Spec.takeRows (by decide) (Cert.Spec.takeRows (by decide) (m ((c.tc : Thread nD τ).loc main_arg7)) (m ((c.tc : Thread nD τ).loc main_arg0))) (m ((c.tc : Thread nD τ).loc main_arg1)) := by
  show StableHlo.after hostOps0 (W0 m ρ c) (Proc.devRef .tc main_v20) = _
  after_results_simp
  refine (Cert.Gathers.row_gather_col (N := 200000) (D := 256) (E := 73216) (by decide) gather_S200000x256_S73216x1_S73216x256_1_0_n_n_0_1_1256 rfl rfl rfl rfl rfl rfl rfl bcast_S_S73216 bcast_S73216_S73216x1_0 _ _).trans ?_
  rw [Cert.Gathers.flat_gather_col (N := 73216) (E := 73216) (by decide) gather_S73216_S73216x1_S73216_n_0_n_n_0_1_1 rfl rfl rfl rfl rfl rfl rfl bcast_S_S73216 bcast_S73216_S73216x1_0 _ _]
  exact Cert.Gathers.takeRows_takeRows _ _ _ _ _

set_option maxHeartbeats 4000000 in
theorem st1_v27 (c : Dev nD) : (V1 m ρ c main_v27 : Cert.Spec.Mat 2816 256)
    = Cert.Spec.takeRows (by decide) (Cert.Spec.takeRows (by decide) (m ((c.tc : Thread nD τ).loc main_arg7)) (m ((c.tc : Thread nD τ).loc main_arg0))) (m ((c.tc : Thread nD τ).loc main_arg2)) := by
  show StableHlo.after hostOps0 (W0 m ρ c) (Proc.devRef .tc main_v27) = _
  after_results_simp
  refine (Cert.Gathers.row_gather_col (N := 200000) (D := 256) (E := 2816) (by decide) gather_S200000x256_S2816x1_S2816x256_1_0_n_n_0_1_1256 rfl rfl rfl rfl rfl rfl rfl bcast_S_S2816 bcast_S2816_S2816x1_0 _ _).trans ?_
  rw [Cert.Gathers.flat_gather_col (N := 73216) (E := 2816) (by decide) gather_S73216_S2816x1_S2816_n_0_n_n_0_1_1 rfl rfl rfl rfl rfl rfl rfl bcast_S_S2816 bcast_S2816_S2816x1_0 _ _]
  exact Cert.Gathers.takeRows_takeRows _ _ _ _ _

set_option maxHeartbeats 4000000 in
theorem st1_v28 (c : Dev nD) : (V1 m ρ c main_v28 : Cert.Spec.Mat 256 256) = Cert.Spec.top (m ((c.tc : Thread nD τ).loc main_arg8)) := by
  show StableHlo.after hostOps0 (W0 m ρ c) (Proc.devRef .tc main_v28) = _
  after_results_simp
  exact Cert.Gathers.slice_top _ _

set_option maxHeartbeats 4000000 in
theorem st1_v29 (c : Dev nD) : (V1 m ρ c main_v29 : Cert.Spec.Mat 256 256) = Cert.Spec.bot (m ((c.tc : Thread nD τ).loc main_arg8)) := by
  show StableHlo.after hostOps0 (W0 m ρ c) (Proc.devRef .tc main_v29) = _
  after_results_simp
  exact Cert.Gathers.slice_bot _ _

/-! ## After the first call and the second stretch -/

theorem keep2 (c : Dev nD) (r : Ref sig .tc) (h0 : r ∉ hostOps0_W) (h2 : ∀ w, Pipeline.arrRef spec0 w ≠ r) :
    W2 m ρ c (Proc.devRef .tc r) = m ((c.tc : Thread nD τ).loc r) :=
  (W2_of_ne m ρ c r h2).trans ((W1_of m ρ c r h0).trans rfl)

theorem keep3 (c : Dev nD) (r : Ref sig .tc) (h0 : r ∉ hostOps0_W) (h1 : r ∉ hostOps1_W) (h2 : ∀ w, Pipeline.arrRef spec0 w ≠ r) :
    V3 m ρ c r = m ((c.tc : Thread nD τ).loc r) :=
  (W3_of m ρ c r h1).trans (keep2 m ρ c r h0 h2)

set_option maxHeartbeats 4000000 in
theorem st3_v37 (c : Dev nD) : (V3 m ρ c main_v37 : Cert.Spec.Mat 2816 256)
    = Cert.Spec.takeRows (by decide) (W2 m ρ c (Proc.devRef .tc main_v30) : Cert.Spec.Mat 2816 256) (m ((c.tc : Thread nD τ).loc main_arg4)) := by
  show StableHlo.after hostOps1 (W2 m ρ c) (Proc.devRef .tc main_v37) = _
  after_results_simp
  refine (Cert.Gathers.row_gather_col (N := 2816) (D := 256) (E := 2816) (by decide) gather_S2816x256_S2816x1_S2816x256_1_0_n_n_0_1_1256 rfl rfl rfl rfl rfl rfl rfl bcast_S_S2816 bcast_S2816_S2816x1_0 _ _).trans ?_
  rw [keep2 m ρ c main_arg4 (by decide) (by decide)]

set_option maxHeartbeats 4000000 in
theorem st3_v44 (c : Dev nD) : (V3 m ρ c main_v44 : Cert.Spec.Mat 256 256)
    = Cert.Spec.takeRows (by decide) (W2 m ρ c (Proc.devRef .tc main_v30) : Cert.Spec.Mat 2816 256) (m ((c.tc : Thread nD τ).loc main_arg5)) := by
  show StableHlo.after hostOps1 (W2 m ρ c) (Proc.devRef .tc main_v44) = _
  after_results_simp
  refine (Cert.Gathers.row_gather_col (N := 2816) (D := 256) (E := 256) (by decide) gather_S2816x256_S256x1_S256x256_1_0_n_n_0_1_1256 rfl rfl rfl rfl rfl rfl rfl bcast_S_S256 bcast_S256_S256x1_0 _ _).trans ?_
  rw [keep2 m ρ c main_arg5 (by decide) (by decide)]

set_option maxHeartbeats 4000000 in
theorem st3_v45 (c : Dev nD) : (V3 m ρ c main_v45 : Cert.Spec.Mat 256 256) = Cert.Spec.top (m ((c.tc : Thread nD τ).loc main_arg9)) := by
  show StableHlo.after hostOps1 (W2 m ρ c) (Proc.devRef .tc main_v45) = _
  after_results_simp
  rw [keep2 m ρ c main_arg9 (by decide) (by decide)]
  exact Cert.Gathers.slice_top _ _

set_option maxHeartbeats 4000000 in
theorem st3_v46 (c : Dev nD) : (V3 m ρ c main_v46 : Cert.Spec.Mat 256 256) = Cert.Spec.bot (m ((c.tc : Thread nD τ).loc main_arg9)) := by
  show StableHlo.after hostOps1 (W2 m ρ c) (Proc.devRef .tc main_v46) = _
  after_results_simp
  rw [keep2 m ρ c main_arg9 (by decide) (by decide)]
  exact Cert.Gathers.slice_bot _ _

set_option maxHeartbeats 4000000 in
theorem st3_v47 (c : Dev nD) : Cert.KernelIdeal.Pay.rowVec (V3 m ρ c main_v47 : Cert.Spec.Mat 1 64) = (m ((c.tc : Thread nD τ).loc main_arg11)) := by
  funext i
  obtain ⟨k, rfl⟩ : ∃ k : Fin 64, i = ix1 k := ⟨i 0, eq_ix1 i⟩
  show StableHlo.after hostOps1 (W2 m ρ c) (Proc.devRef .tc main_v47) (ix2 (0 : Fin 1) k) = _
  have e : StableHlo.after hostOps1 (W2 m ρ c) (Proc.devRef .tc main_v47)
      = shapeCast S1x64 (W2 m ρ c (Proc.devRef .tc main_arg11)) shapeCasts_S64_S1x64 := by
    after_results_simp
    rfl
  rw [e, Cert.Gathers.shapeCast_row_apply, keep2 m ρ c main_arg11 (by decide) (by decide)]

set_option maxHeartbeats 4000000 in
theorem st3_v48 (c : Dev nD) : Cert.KernelIdeal.Pay.rowVec (V3 m ρ c main_v48 : Cert.Spec.Mat 1 64) = (m ((c.tc : Thread nD τ).loc main_arg13)) := by
  funext i
  obtain ⟨k, rfl⟩ : ∃ k : Fin 64, i = ix1 k := ⟨i 0, eq_ix1 i⟩
  show StableHlo.after hostOps1 (W2 m ρ c) (Proc.devRef .tc main_v48) (ix2 (0 : Fin 1) k) = _
  have e : StableHlo.after hostOps1 (W2 m ρ c) (Proc.devRef .tc main_v48)
      = shapeCast S1x64 (W2 m ρ c (Proc.devRef .tc main_arg13)) shapeCasts_S64_S1x64 := by
    after_results_simp
    rfl
  rw [e, Cert.Gathers.shapeCast_row_apply, keep2 m ρ c main_arg13 (by decide) (by decide)]

set_option maxHeartbeats 4000000 in
theorem st3_v49 (c : Dev nD) : Cert.KernelIdeal.Pay.rowVec (V3 m ρ c main_v49 : Cert.Spec.Mat 1 8) = (m ((c.tc : Thread nD τ).loc main_arg15)) := by
  funext i
  obtain ⟨k, rfl⟩ : ∃ k : Fin 8, i = ix1 k := ⟨i 0, eq_ix1 i⟩
  show StableHlo.after hostOps1 (W2 m ρ c) (Proc.devRef .tc main_v49) (ix2 (0 : Fin 1) k) = _
  have e : StableHlo.after hostOps1 (W2 m ρ c) (Proc.devRef .tc main_v49)
      = shapeCast S1x8 (W2 m ρ c (Proc.devRef .tc main_arg15)) shapeCasts_S8_S1x8 := by
    after_results_simp
    rfl
  rw [e, Cert.Gathers.shapeCast_row_apply, keep2 m ρ c main_arg15 (by decide) (by decide)]

end Cert.KernelIdeal.Hand

end
-- ==== Proof.KernelIdeal.Layer1Cases.lean ====
/- What each control case of the first pallas_call's body leaves, as VALUES: the accumulator after a point is the
   tile product added to what it held (to the zero block where the reduction coordinate is 0), and at the last
   reduction step the output block is the final payload of the accumulator just stored and the three remaining
   blocks. The pieces the runs found are read back: each is one store of a whole buffer. -/
import proofs.«105755_j27273042329874_2_alg».proof.Proof.KernelIdeal.Layer1Body
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

theorem sout_B (c : Dev nD) (i : grid0.Coords) (arg2 : Memref sig .tc .vmem S1408x1664 .f32) (harg2 : arg2.IsWhole) (arg3 : Memref sig .tc .vmem S1664x256 .f32) (harg3 : arg3.IsWhole) (arg4 : Memref sig .tc .vmem S1408x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S1408x256 .f32) (harg7 : arg7.IsWhole) (arg8 : Memref sig .tc .vmem S1408x256 .f32) (harg8 : arg8.IsWhole) (hc0 : ¬cond0_0 i) (hc1 : ¬cond0_1 i)
    (x0 : Vec F S1408x1664 .f32) (x1 : Vec F S1664x256 .f32) (x2 : Vec F S1408x256 .f32) (x3 : Vec F S256x256 .f32) (x4 : Vec F S256x256 .f32) (xs0 : Vec F S1408x256 .f32) :
    sout0_B_0 c i arg2 harg2 arg3 harg3 arg4 harg4 arg5 harg5 arg6 harg6 arg7 harg7 arg8 harg8 hc0 hc1 x0 x1 x2 x3 x4 xs0 = k0_pay2 x0 x1 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  rw [View.canon_unit_zero hz2]
  simp only [View.readAt_eq_ld, harg2.read_unread, harg3.read_unread, harg8.read_unread, View.ld_unit_zero (S := S1408x1664) hz2, View.ld_unit_zero (S := S1664x256) hz2, View.ld_unit_zero (S := S1408x256) hz2]

theorem sout_A (c : Dev nD) (i : grid0.Coords) (arg2 : Memref sig .tc .vmem S1408x1664 .f32) (harg2 : arg2.IsWhole) (arg3 : Memref sig .tc .vmem S1664x256 .f32) (harg3 : arg3.IsWhole) (arg4 : Memref sig .tc .vmem S1408x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S1408x256 .f32) (harg7 : arg7.IsWhole) (arg8 : Memref sig .tc .vmem S1408x256 .f32) (harg8 : arg8.IsWhole) (hc0 : cond0_0 i) (hc1 : ¬cond0_1 i)
    (x0 : Vec F S1408x1664 .f32) (x1 : Vec F S1664x256 .f32) (x2 : Vec F S1408x256 .f32) (x3 : Vec F S256x256 .f32) (x4 : Vec F S256x256 .f32) :
    sout0_A_0 c i arg2 harg2 arg3 harg3 arg4 harg4 arg5 harg5 arg6 harg6 arg7 harg7 arg8 harg8 hc0 hc1 x0 x1 x2 x3 x4 = k0_pay2 x0 x1 (k0_pay1 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S1408x256) hz2, View.readCov_unit_zero (S := S1408x256) _ hz2]
  simp only [View.readAt_eq_ld, harg2.read_unread, harg3.read_unread, View.ld_unit_zero (S := S1408x1664) hz2, View.ld_unit_zero (S := S1664x256) hz2, View.ld_unit_zero (S := S1408x256) hz2]

theorem sout_C (c : Dev nD) (i : grid0.Coords) (arg2 : Memref sig .tc .vmem S1408x1664 .f32) (harg2 : arg2.IsWhole) (arg3 : Memref sig .tc .vmem S1664x256 .f32) (harg3 : arg3.IsWhole) (arg4 : Memref sig .tc .vmem S1408x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S1408x256 .f32) (harg7 : arg7.IsWhole) (arg8 : Memref sig .tc .vmem S1408x256 .f32) (harg8 : arg8.IsWhole) (hc0 : ¬cond0_0 i) (hc1 : cond0_1 i)
    (x0 : Vec F S1408x1664 .f32) (x1 : Vec F S1664x256 .f32) (x2 : Vec F S1408x256 .f32) (x3 : Vec F S256x256 .f32) (x4 : Vec F S256x256 .f32) (xs0 : Vec F S1408x256 .f32) :
    sout0_C_0 c i arg2 harg2 arg3 harg3 arg4 harg4 arg5 harg5 arg6 harg6 arg7 harg7 arg8 harg8 hc0 hc1 x0 x1 x2 x3 x4 xs0 = k0_pay2 x0 x1 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz2]
  simp only [View.readAt_eq_ld, harg2.read_unread, harg3.read_unread, harg8.read_unread, View.ld_unit_zero (S := S1408x1664) hz2, View.ld_unit_zero (S := S1664x256) hz2, View.ld_unit_zero (S := S1408x256) hz2]

theorem out_C (c : Dev nD) (i : grid0.Coords) (arg2 : Memref sig .tc .vmem S1408x1664 .f32) (harg2 : arg2.IsWhole) (arg3 : Memref sig .tc .vmem S1664x256 .f32) (harg3 : arg3.IsWhole) (arg4 : Memref sig .tc .vmem S1408x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S1408x256 .f32) (harg7 : arg7.IsWhole) (arg8 : Memref sig .tc .vmem S1408x256 .f32) (harg8 : arg8.IsWhole) (hc0 : ¬cond0_0 i) (hc1 : cond0_1 i)
    (x0 : Vec F S1408x1664 .f32) (x1 : Vec F S1664x256 .f32) (x2 : Vec F S1408x256 .f32) (x3 : Vec F S256x256 .f32) (x4 : Vec F S256x256 .f32) (xs0 : Vec F S1408x256 .f32) :
    out0_C_5 c i arg2 harg2 arg3 harg3 arg4 harg4 arg5 harg5 arg6 harg6 arg7 harg7 arg8 harg8 hc0 hc1 x0 x1 x2 x3 x4 xs0 = k0_pay3 (k0_pay2 x0 x1 xs0) x2 x3 x4 := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz2, View.readCov_unit_zero (S := S1408x256) _ hz2]
  simp only [View.readAt_eq_ld, harg2.read_unread, harg3.read_unread, harg4.read_unread, harg5.read_unread, harg6.read_unread, harg8.read_unread, View.ld_unit_zero (S := S1408x1664) hz2, View.ld_unit_zero (S := S1664x256) hz2, View.ld_unit_zero (S := S1408x256) hz2, View.ld_unit_zero (S := S256x256) hz2]

end Cert.KernelIdeal.Hand

end
-- ==== Proof.KernelIdeal.Layer1Acc.lean ====
/- THE ACCUMULATION of the first pallas_call in closed form: what its accumulator holds after every grid point is the
   running sum of the tile products of the point's row of the grid, started from the zero block — by induction on
   the point; and what the output window's buffer holds where the reduction coordinate is 43. -/
import proofs.«105755_j27273042329874_2_alg».proof.Proof.KernelIdeal.Layer1Cases
import Idealize.ShloMosaic.Lib.ValueIdx
import proofs.«105755_j27273042329874_2_alg».proof.Proof.LibLayerProduct
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic Idealize.ShloMosaic.ValueIdx
open Idealize.SL.Sem
open Idealize.ShloMosaic.Pipeline (Dat Cfg Window)
open Cert.Layer

variable {F : FTy → Type} [FloatOps F]
variable (V : (c : Dev nD) → (b : Ref sig .tc) → Buf (Elt F) ((c : Thread nD τ).loc b))

/-- The accumulator after point `n`: the point's tile product added to what the point before left, or to the zero block
    where the reduction coordinate is 0. -/
def acc (c : Dev nD) : (n : ℕ) → n < cfg0.N → Vec F S1408x256 .f32
  | 0, h => k0_pay2 (iblk0 V c 0 ⟨0, h⟩) (iblk0 V c 1 ⟨0, h⟩) (k0_pay1 (F := F))
  | n + 1, h =>
    if (n + 1) % 44 = 0 then k0_pay2 (iblk0 V c 0 ⟨n + 1, h⟩) (iblk0 V c 1 ⟨n + 1, h⟩) (k0_pay1 (F := F))
    else k0_pay2 (iblk0 V c 0 ⟨n + 1, h⟩) (iblk0 V c 1 ⟨n + 1, h⟩) (acc c n (Nat.lt_of_succ_lt h))

theorem acc_first (c : Dev nD) (t : Fin cfg0.N) (h0 : t.val % 44 = 0) :
    acc V c t.val t.isLt = k0_pay2 (iblk0 V c 0 t) (iblk0 V c 1 t) (k0_pay1 (F := F)) := by
  obtain ⟨n, hn⟩ := t
  cases n with
  | zero => rfl
  | succ n => exact if_pos h0

theorem acc_next (c : Dev nD) (t : Fin cfg0.N) (h0 : ¬t.val % 44 = 0) :
    acc V c t.val t.isLt = k0_pay2 (iblk0 V c 0 t) (iblk0 V c 1 t) (acc V c (t.val - 1) (Nat.lt_of_le_of_lt (Nat.sub_le _ _) t.isLt)) := by
  obtain ⟨n, hn⟩ := t
  cases n with
  | zero => exact absurd (Nat.zero_mod _) h0
  | succ n => exact if_neg h0

/-- What the accumulator holds after every point IS that running sum: by induction on the point. -/
theorem outsAt_snd (c : Dev nD) : ∀ (n : ℕ) (h : n < cfg0.N), (outsAt0 V c n h).2 = acc V c n h
  | 0, h => by
    rw [outsAt0_A V c ⟨0, h⟩ (Nat.zero_mod _) (fun h' => absurd (show 0 % 44 = 43 from h') (by decide))]
    dsimp only
    rw [sout_A]
    rfl
  | n + 1, h => by
    by_cases h0 : (n + 1) % 44 = 0
    · have h1 : ¬(n + 1) % 44 = 43 := by omega
      rw [outsAt0_A V c ⟨n + 1, h⟩ h0 h1]
      dsimp only
      rw [sout_A, acc_first V c ⟨n + 1, h⟩ h0]
    · by_cases h1 : (n + 1) % 44 = 43
      · rw [outsAt0_C V c ⟨n + 1, h⟩ h0 h1]
        dsimp only
        rw [sout_C, acc_next V c ⟨n + 1, h⟩ h0]
        show k0_pay2 _ _ (outsAt0 V c n _).2 = k0_pay2 _ _ (acc V c n _)
        rw [outsAt_snd c n]
      · rw [outsAt0_B V c ⟨n + 1, h⟩ h0 h1]
        dsimp only
        rw [sout_B, acc_next V c ⟨n + 1, h⟩ h0]
        show k0_pay2 _ _ (outsAt0 V c n _).2 = k0_pay2 _ _ (acc V c n _)
        rw [outsAt_snd c n]

/-- At the last reduction step the output window's buffer is the final payload of the accumulator just stored. -/
theorem outsAt_fst (c : Dev nD) (t : Fin cfg0.N) (h1 : t.val % 44 = 43) :
    (outsAt0 V c t.val t.isLt).1 = k0_pay3 (acc V c t.val t.isLt) (iblk0 V c 2 t) (iblk0 V c 3 t) (iblk0 V c 4 t) := by
  have h0 : ¬t.val % 44 = 0 := by omega
  rw [outsAt0_C V c t h0 h1]
  dsimp only
  rw [out_C, acc_next V c t h0, outsAt_snd V c]

end Cert.KernelIdeal.Hand

end
-- ==== Proof.KernelIdeal.Layer1Value.lean ====
/- The first pallas_call's result ARRAY over the extended reals: layer 1 of the contract, of the five arrays the call
   reads as it finds them. A window's block at a point is read where the index maps say: the diffusion matrix's
   block (row block, reduction tile), the sources' tile, the targets' row block, the two weight matrices whole. The
   accumulator after a point is then the sum, over the reduction tiles so far, of the tile products; after tile 43 the
   44 tiles of 1664 columns are the whole reduction axis of 73216; the output block stored there is the contract's
   layer at the rows of the row block; the two row blocks cover the array. -/
import Idealize.ShloMosaic.Lib.Pipeline.Value
import proofs.«105755_j27273042329874_2_alg».proof.Proof.LibLayerProduct
import Idealize.ShloMosaic.Lib.ValueIdx
import proofs.«105755_j27273042329874_2_alg».proof.Proof.KernelIdeal.Layer1Acc
import proofs.«105755_j27273042329874_2_alg».proof.Proof.KernelIdeal.Payloads
import proofs.«105755_j27273042329874_2_alg».proof.Proof.Spec

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic Idealize.ShloMosaic.ValueIdx
open Idealize.SL.Sem
open Idealize.ShloMosaic.Pipeline (Dat Cfg Window)
open Cert.Layer

variable (V : (c : Dev nD) → (b : Ref sig .tc) → Buf (Elt Ideal) ((c : Thread nD τ).loc b))

/-- The five arrays the first call reads, as the region finds them. -/
abbrev DM1 (c : Dev nD) : Cert.Spec.Mat 2816 73216 := V c main_arg3
abbrev SRC1 (c : Dev nD) : Cert.Spec.Mat 73216 256 := V c main_v20
abbrev DST1 (c : Dev nD) : Cert.Spec.Mat 2816 256 := V c main_v27
abbrev WA1 (c : Dev nD) : Cert.Spec.Mat 256 256 := V c main_v28
abbrev WB1 (c : Dev nD) : Cert.Spec.Mat 256 256 := V c main_v29

/-- Layer 1 of those. -/
abbrev H1 (c : Dev nD) : Cert.Spec.Mat 2816 256 := Cert.Spec.layer (DM1 V c) (SRC1 V c) (DST1 V c) (WA1 V c) (WB1 V c)

/-! ## The index maps, decided over the grid -/

theorem idx_facts0 : ∀ t : Fin cfg0.N,
    win0_0.index t (0 : Fin 2) = t.val / 44 ∧ win0_0.index t (1 : Fin 2) = t.val % 44
    ∧ win0_1.index t (0 : Fin 2) = t.val % 44 ∧ win0_1.index t (1 : Fin 2) = 0
    ∧ win0_2.index t (0 : Fin 2) = t.val / 44 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val / 44 ∧ win0_5.index t (1 : Fin 2) = 0 :=
  (by decide +kernel : ∀ t : Fin grid0.N, _)

/-! ## The blocks, read where the index maps say -/

theorem blk0_apply (c : Dev nD) (t : Fin cfg0.N) (p : Fin 1408) (s : Fin 1664) (r : Fin 2816) (u : Fin 73216)
    (hr : r.val = 1408 * (t.val / 44) + p.val) (hu : u.val = 1664 * (t.val % 44) + s.val) :
    (iblk0 V c 0 t : Vec Ideal S1408x1664 .f32) (ix2 p s) = DM1 V c (ix2 r u) := by
  obtain ⟨e0, e1, -⟩ := idx_facts0 t
  unfold iblk0
  rw [View.read_apply]
  show V c main_arg3 _ = V c main_arg3 _
  refine congrArg (V c main_arg3) ?_
  funext a; apply Fin.ext
  match a with
  | ⟨0, _⟩ => show win0_0.index t (0 : Fin 2) * 1408 + 1 * p.val = r.val; omega
  | ⟨1, _⟩ => show win0_0.index t (1 : Fin 2) * 1664 + 1 * s.val = u.val; omega

theorem blk1_apply (c : Dev nD) (t : Fin cfg0.N) (s : Fin 1664) (q : Fin 256) (u : Fin 73216)
    (hu : u.val = 1664 * (t.val % 44) + s.val) :
    (iblk0 V c 1 t : Vec Ideal S1664x256 .f32) (ix2 s q) = SRC1 V c (ix2 u q) := by
  obtain ⟨-, -, e0, e1, -⟩ := idx_facts0 t
  unfold iblk0
  rw [View.read_apply]
  show V c main_v20 _ = V c main_v20 _
  refine congrArg (V c main_v20) ?_
  funext a; apply Fin.ext
  match a with
  | ⟨0, _⟩ => show win0_1.index t (0 : Fin 2) * 1664 + 1 * s.val = u.val; omega
  | ⟨1, _⟩ => show win0_1.index t (1 : Fin 2) * 256 + 1 * q.val = q.val; omega

theorem blk2_apply (c : Dev nD) (t : Fin cfg0.N) (p : Fin 1408) (q : Fin 256) (r : Fin 2816)
    (hr : r.val = 1408 * (t.val / 44) + p.val) :
    (iblk0 V c 2 t : Vec Ideal S1408x256 .f32) (ix2 p q) = DST1 V c (ix2 r q) := by
  obtain ⟨-, -, -, -, e0, e1, -⟩ := idx_facts0 t
  unfold iblk0
  rw [View.read_apply]
  show V c main_v27 _ = V c main_v27 _
  refine congrArg (V c main_v27) ?_
  funext a; apply Fin.ext
  match a with
  | ⟨0, _⟩ => show win0_2.index t (0 : Fin 2) * 1408 + 1 * p.val = r.val; omega
  | ⟨1, _⟩ => show win0_2.index t (1 : Fin 2) * 256 + 1 * q.val = q.val; omega

theorem blk3_apply (c : Dev nD) (t : Fin cfg0.N) (j q : Fin 256) :
    (iblk0 V c 3 t : Vec Ideal S256x256 .f32) (ix2 j q) = WA1 V c (ix2 j q) := by
  obtain ⟨-, -, -, -, -, -, e0, e1, -⟩ := idx_facts0 t
  unfold iblk0
  rw [View.read_apply]
  show V c main_v28 _ = V c main_v28 _
  refine congrArg (V c main_v28) ?_
  funext a; apply Fin.ext
  match a with
  | ⟨0, _⟩ => show win0_3.index t (0 : Fin 2) * 256 + 1 * j.val = j.val; omega
  | ⟨1, _⟩ => show win0_3.index t (1 : Fin 2) * 256 + 1 * q.val = q.val; omega

theorem blk4_apply (c : Dev nD) (t : Fin cfg0.N) (j q : Fin 256) :
    (iblk0 V c 4 t : Vec Ideal S256x256 .f32) (ix2 j q) = WB1 V c (ix2 j q) := by
  obtain ⟨-, -, -, -, -, -, -, -, e0, e1, -⟩ := idx_facts0 t
  unfold iblk0
  rw [View.read_apply]
  show V c main_v29 _ = V c main_v29 _
  refine congrArg (V c main_v29) ?_
  funext a; apply Fin.ext
  match a with
  | ⟨0, _⟩ => show win0_4.index t (0 : Fin 2) * 256 + 1 * j.val = j.val; omega
  | ⟨1, _⟩ => show win0_4.index t (1 : Fin 2) * 256 + 1 * q.val = q.val; omega

/-! ## The accumulator at an entry: a sum over the reduction tiles so far -/

/-- Reduction tile `j`'s product, at row `r` of the array and column `q`; zero for a tile number out of range. -/
def tileTerm (c : Dev nD) (r : Fin 2816) (q : Fin 256) (j : ℕ) : EReal :=
  if h : j < 44 then ∑ s : Fin 1664, DM1 V c (ix2 r ⟨1664 * j + s.val, by have := s.isLt; omega⟩) * SRC1 V c (ix2 ⟨1664 * j + s.val, by have := s.isLt; omega⟩ q)
  else 0

/-- An entry of the plain product is the sum over the contracted axis. -/
theorem prod_apply {A K B : ℕ} (a : FVec Ideal (⟨2, ![A, K]⟩ : Shape) .f32) (w : FVec Ideal (⟨2, ![K, B]⟩ : Shape) .f32)
    (p : Fin A) (q : Fin B) : prod a w (ix2 p q) = ∑ k : Fin K, a (ix2 p k) * w (ix2 k q) := rfl

/-- A point's tile product is its tile's term. -/
theorem prod_blocks (c : Dev nD) (t : Fin cfg0.N) (p : Fin 1408) (q : Fin 256) (r : Fin 2816)
    (hr : r.val = 1408 * (t.val / 44) + p.val) :
    prod (iblk0 V c 0 t : Vec Ideal S1408x1664 .f32) (iblk0 V c 1 t : Vec Ideal S1664x256 .f32) (ix2 p q)
      = tileTerm V c r q (t.val % 44) := by
  have hj : t.val % 44 < 44 := Nat.mod_lt _ (by decide)
  unfold tileTerm
  rw [dif_pos hj]
  refine (prod_apply (iblk0 V c 0 t : Vec Ideal S1408x1664 .f32) (iblk0 V c 1 t : Vec Ideal S1664x256 .f32) p q).trans ?_
  refine Finset.sum_congr rfl fun s _ => ?_
  rw [blk0_apply V c t p s r ⟨1664 * (t.val % 44) + s.val, by have := s.isLt; omega⟩ hr rfl,
    blk1_apply V c t s q ⟨1664 * (t.val % 44) + s.val, by have := s.isLt; omega⟩ rfl]

/-- The accumulator after a point, at an entry: the tiles of the point's row of the grid up to the point's own. -/
theorem acc_apply (c : Dev nD) : ∀ (n : ℕ) (h : n < cfg0.N) (p : Fin 1408) (q : Fin 256) (r : Fin 2816)
    (hr : r.val = 1408 * (n / 44) + p.val),
    acc V c n h (ix2 p q) = ∑ j ∈ Finset.range (n % 44 + 1), tileTerm V c r q j
  | 0, h, p, q, r, hr => by
    rw [acc_first V c ⟨0, h⟩ (Nat.zero_mod _), Cert.KernelIdeal.Pay.pay2_apply, Cert.KernelIdeal.Pay.pay1_apply, zero_add,
      prod_blocks V c ⟨0, h⟩ p q r hr]
    simp
  | n + 1, h, p, q, r, hr => by
    by_cases h0 : (n + 1) % 44 = 0
    · rw [acc_first V c ⟨n + 1, h⟩ h0, Cert.KernelIdeal.Pay.pay2_apply, Cert.KernelIdeal.Pay.pay1_apply, zero_add,
        prod_blocks V c ⟨n + 1, h⟩ p q r hr]
      show tileTerm V c r q ((n + 1) % 44) = _
      rw [h0]; simp
    · rw [acc_next V c ⟨n + 1, h⟩ h0, Cert.KernelIdeal.Pay.pay2_apply, prod_blocks V c ⟨n + 1, h⟩ p q r hr]
      have e1 : (n + 1) / 44 = n / 44 := by omega
      have e2 : (n + 1) % 44 = n % 44 + 1 := by omega
      show acc V c n _ (ix2 p q) + tileTerm V c r q ((n + 1) % 44) = _
      rw [acc_apply c n _ p q r (by rw [← e1]; exact hr), e2, Finset.sum_range_succ _ (n % 44 + 1)]

/-- A sum over m tiles of n entries each is the sum over all m · n entries. -/
theorem sum_tiles {M : Type} [AddCommMonoid M] (m n : ℕ) (g : Fin (m * n) → M) :
    ∑ j : Fin m, ∑ s : Fin n, g (finProdFinEquiv (j, s)) = ∑ u, g u :=
  (Fintype.sum_prod_type (fun x : Fin m × Fin n => g (finProdFinEquiv x))).symm.trans (Equiv.sum_comp finProdFinEquiv g)

/-- The 44 tiles of 1664 columns are the whole reduction axis. -/
theorem tiles_sum (c : Dev nD) (r : Fin 2816) (q : Fin 256) :
    ∑ j ∈ Finset.range 44, tileTerm V c r q j = prod (DM1 V c) (SRC1 V c) (ix2 r q) := by
  show _ = ∑ u : Fin 73216, DM1 V c (ix2 r u) * SRC1 V c (ix2 u q)
  rw [Finset.sum_range (f := tileTerm V c r q)]
  have e : ∀ j : Fin 44, tileTerm V c r q j.val
      = ∑ s : Fin 1664, (fun u : Fin 73216 => DM1 V c (ix2 r u) * SRC1 V c (ix2 u q)) (finProdFinEquiv (j, s)) := fun j => by
    unfold tileTerm
    rw [dif_pos j.isLt]
    refine Finset.sum_congr rfl fun s _ => ?_
    have hu : (⟨1664 * j.val + s.val, by have := s.isLt; have := j.isLt; omega⟩ : Fin 73216) = finProdFinEquiv (j, s) :=
      Fin.ext (by simp [finProdFinEquiv]; omega)
    rw [hu]
  rw [Finset.sum_congr rfl fun j _ => e j]
  exact sum_tiles 44 1664 (fun u : Fin 73216 => DM1 V c (ix2 r u) * SRC1 V c (ix2 u q))

/-! ## What a flushing point writes back, and the array -/

/-- A block's row in the array. -/
theorem flushed5_eq (c : Dev nD) (t : Fin cfg0.N) (hf : (cfg0.win 5).flush t = true) :
    (dat0 V c).flushed 5 t = ((cfg0.win 5).blk t).view.read (Elt Ideal) (H1 V c) := by
  have h43 : t.val % 44 = 43 := (flush0_5 t).mp hf
  have hN : t.val < 88 := lt_of_lt_of_eq t.isLt (show cfg0.N = 88 from N_0)
  obtain ⟨-, -, -, -, -, -, -, -, -, -, e0, e1⟩ := idx_facts0 t
  show (cfg0.win 5).cut (grid0.coords t) ((dat0 V c).after 5 t) = _
  rw [after0_5, outsAt_fst V c t h43]
  funext y
  obtain ⟨p, q, rfl⟩ : ∃ (p : Fin 1408) (q : Fin 256), y = ix2 p q := ⟨y 0, y 1, eq_ix2 y⟩
  have hr : 1408 * (t.val / 44) + p.val < 2816 := by have := p.isLt; omega
  rw [View.read_apply]
  have hemb : ((cfg0.win 5).blk t).view.emb (ix2 p q) = ix2 (⟨1408 * (t.val / 44) + p.val, hr⟩ : Fin 2816) q := by
    funext a; apply Fin.ext
    match a with
    | ⟨0, _⟩ => show win0_5.index t (0 : Fin 2) * 1408 + 1 * p.val = 1408 * (t.val / 44) + p.val; omega
    | ⟨1, _⟩ => show win0_5.index t (1 : Fin 2) * 256 + 1 * q.val = q.val; omega
  rw [hemb]
  show (cfg0.win 5).cut (grid0.coords t) (k0_pay3 (acc V c t.val t.isLt) (iblk0 V c 2 t) (iblk0 V c 3 t) (iblk0 V c 4 t)) (ix2 p q) = _
  refine (Cert.KernelIdeal.Pay.pay3_apply _ _ _ _ p q).trans ?_
  show prod (acc V c t.val t.isLt) (iblk0 V c 3 t : Vec Ideal S256x256 .f32) (ix2 p q) + prod (iblk0 V c 2 t : Vec Ideal S1408x256 .f32) (iblk0 V c 4 t : Vec Ideal S256x256 .f32) (ix2 p q)
    = prod (prod (DM1 V c) (SRC1 V c)) (WA1 V c) (ix2 ⟨1408 * (t.val / 44) + p.val, hr⟩ q) + prod (DST1 V c) (WB1 V c) (ix2 ⟨1408 * (t.val / 44) + p.val, hr⟩ q)
  exact congrArg₂ (· + ·)
    (prod_congr (acc V c t.val t.isLt) (iblk0 V c 3 t : Vec Ideal S256x256 .f32) (prod (DM1 V c) (SRC1 V c)) (WA1 V c)
      p q ⟨1408 * (t.val / 44) + p.val, hr⟩ q
      (fun k => by
        rw [acc_apply V c t.val t.isLt p k ⟨1408 * (t.val / 44) + p.val, hr⟩ rfl, h43]
        exact tiles_sum V c _ k)
      (fun k => blk3_apply V c t k q))
    (prod_congr (iblk0 V c 2 t : Vec Ideal S1408x256 .f32) (iblk0 V c 4 t : Vec Ideal S256x256 .f32) (DST1 V c) (WB1 V c)
      p q ⟨1408 * (t.val / 44) + p.val, hr⟩ q
      (fun k => blk2_apply V c t p k ⟨1408 * (t.val / 44) + p.val, hr⟩ rfl)
      (fun k => blk4_apply V c t k q))

theorem mem_blk5 (t : Fin cfg0.N) (i : S2816x256.Idx) :
    i ∈ ((cfg0.win 5).blk t).view.set ↔ ∀ a : Fin 2, win0_5.index t a * S1408x256.size a ≤ (i a).val ∧ (i a).val < win0_5.index t a * S1408x256.size a + S1408x256.size a := by
  show i ∈ ((View.whole main_v30).slice (win0_5.rect t)).set ↔ _
  rw [View.set_slice_whole, Rect.mem_set_unit]
  exact Iff.rfl

/-- THE ARRAY the first call leaves: layer 1 of what it read. -/
theorem final5 (c : Dev nD) : (dat0 V c).arrAt 5 cfg0.N = H1 V c :=
  (dat0 V c).arrAt_eq_of_cover 5 (H1 V c) (flushed5_eq V c) fun i => by
    have hi0 : (i 0).val < 2816 := (i 0).isLt
    have hi1 : (i 1).val < 256 := (i 1).isLt
    have hN : cfg0.N = 88 := N_0
    let t : Fin cfg0.N := ⟨44 * ((i 0).val / 1408) + 43, by rw [hN]; omega⟩
    have hq : t.val / 44 = (i 0).val / 1408 := by show (44 * ((i 0).val / 1408) + 43) / 44 = _; omega
    have hm : t.val % 44 = 43 := by show (44 * ((i 0).val / 1408) + 43) % 44 = _; omega
    obtain ⟨-, -, -, -, -, -, -, -, -, -, e0, e1⟩ := idx_facts0 t
    refine ⟨t, (flush0_5 t).mpr hm, ?_⟩
    rw [mem_blk5]
    intro a
    match a with
    | ⟨0, _⟩ => show win0_5.index t (0 : Fin 2) * 1408 ≤ (i 0).val ∧ (i 0).val < win0_5.index t (0 : Fin 2) * 1408 + 1408; omega
    | ⟨1, _⟩ => show win0_5.index t (1 : Fin 2) * 256 ≤ (i 1).val ∧ (i 1).val < win0_5.index t (1 : Fin 2) * 256 + 256; omega

end Cert.KernelIdeal.Hand

end
-- ==== Proof.KernelIdeal.Layer2Value.lean ====
/- The second pallas_call's result ARRAY over the extended reals: the contract's head of the eleven arrays the call
   reads as it finds them. A point reads 128 rows of the diffusion matrix and of the targets and the other nine
   operands whole; a result row depends only on its own row of those two; the two row blocks cover the array. -/
import proofs.«105755_j27273042329874_2_alg».proof.Proof.LibLayerProduct
import Idealize.ShloMosaic.Lib.ValueIdx
import proofs.«105755_j27273042329874_2_alg».proof.Proof.KernelIdeal.Layer2Body
import proofs.«105755_j27273042329874_2_alg».proof.Proof.KernelIdeal.Payloads
import proofs.«105755_j27273042329874_2_alg».proof.Proof.Spec
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic Idealize.ShloMosaic.ValueIdx
open Idealize.SL.Sem
open Idealize.ShloMosaic.Pipeline (Dat Cfg Window)
open Cert.Layer

variable (V : (c : Dev nD) → (b : Ref sig .tc) → Buf (Elt Ideal) ((c : Thread nD τ).loc b))

theorem hz2' : (![0, 0] : Fin 2 → Nat) = fun _ => 0 := funext fun a => by fin_cases a <;> rfl

/-- The eleven arrays the second call reads, as the region finds them. -/
abbrev DM2 (c : Dev nD) : Cert.Spec.Mat 256 2816 := V c main_arg6
abbrev SRC2 (c : Dev nD) : Cert.Spec.Mat 2816 256 := V c main_v37
abbrev DST2 (c : Dev nD) : Cert.Spec.Mat 256 256 := V c main_v44
abbrev WA2 (c : Dev nD) : Cert.Spec.Mat 256 256 := V c main_v45
abbrev WB2 (c : Dev nD) : Cert.Spec.Mat 256 256 := V c main_v46
abbrev W3m (c : Dev nD) : Cert.Spec.Mat 256 64 := V c main_arg10
abbrev B3R (c : Dev nD) : Cert.Spec.Mat 1 64 := V c main_v47
abbrev W4m (c : Dev nD) : Cert.Spec.Mat 64 64 := V c main_arg12
abbrev B4R (c : Dev nD) : Cert.Spec.Mat 1 64 := V c main_v48
abbrev W5m (c : Dev nD) : Cert.Spec.Mat 64 8 := V c main_arg14
abbrev B5R (c : Dev nD) : Cert.Spec.Mat 1 8 := V c main_v49

/-- The head of those. -/
abbrev OUT2 (c : Dev nD) : Cert.Spec.Mat 256 8 :=
  Cert.Spec.head (DM2 V c) (SRC2 V c) (DST2 V c) (WA2 V c) (WB2 V c) (W3m V c) (Cert.KernelIdeal.Pay.rowVec (B3R V c)) (W4m V c)
    (Cert.KernelIdeal.Pay.rowVec (B4R V c)) (W5m V c) (Cert.KernelIdeal.Pay.rowVec (B5R V c))

/-! ## The index maps, decided over the grid -/

theorem idx_facts1 : ∀ t : Fin cfg1.N,
    win1_0.index t (0 : Fin 2) = t.val ∧ win1_0.index t (1 : Fin 2) = 0
    ∧ win1_2.index t (0 : Fin 2) = t.val ∧ win1_2.index t (1 : Fin 2) = 0
    ∧ win1_11.index t (0 : Fin 2) = t.val ∧ win1_11.index t (1 : Fin 2) = 0
    ∧ win1_1.index t (0 : Fin 2) = 0 ∧ win1_1.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0 :=
  (by decide +kernel : ∀ t : Fin grid1.N, _)

/-! ## The blocks, read where the index maps say -/

theorem blk1_0_apply (c : Dev nD) (t : Fin cfg1.N) (p : Fin 128) (s : Fin 2816) (r : Fin 256) (hr : r.val = 128 * t.val + p.val) :
    (iblk1 V c 0 t : Vec Ideal S128x2816 .f32) (ix2 p s) = DM2 V c (ix2 r s) := by
  have hf := idx_facts1 t
  unfold iblk1
  rw [View.read_apply]
  show V c main_arg6 _ = V c main_arg6 _
  refine congrArg (V c main_arg6) ?_
  funext a; apply Fin.ext
  match a with
  | ⟨0, _⟩ => show win1_0.index t (0 : Fin 2) * 128 + 1 * p.val = r.val; omega
  | ⟨1, _⟩ => show win1_0.index t (1 : Fin 2) * 2816 + 1 * s.val = s.val; omega

theorem blk1_1_eq (c : Dev nD) (t : Fin cfg1.N) : (iblk1 V c 1 t : Vec Ideal S2816x256 .f32) = SRC2 V c := by
  have hf := idx_facts1 t
  funext y
  unfold iblk1
  rw [View.read_apply]
  show V c main_v37 _ = V c main_v37 _
  refine congrArg (V c main_v37) ?_
  funext a; apply Fin.ext
  match a with
  | ⟨0, _⟩ => show win1_1.index t (0 : Fin 2) * 2816 + 1 * (y 0).val = (y 0).val; omega
  | ⟨1, _⟩ => show win1_1.index t (1 : Fin 2) * 256 + 1 * (y 1).val = (y 1).val; omega

theorem blk1_2_apply (c : Dev nD) (t : Fin cfg1.N) (p : Fin 128) (s : Fin 256) (r : Fin 256) (hr : r.val = 128 * t.val + p.val) :
    (iblk1 V c 2 t : Vec Ideal S128x256 .f32) (ix2 p s) = DST2 V c (ix2 r s) := by
  have hf := idx_facts1 t
  unfold iblk1
  rw [View.read_apply]
  show V c main_v44 _ = V c main_v44 _
  refine congrArg (V c main_v44) ?_
  funext a; apply Fin.ext
  match a with
  | ⟨0, _⟩ => show win1_2.index t (0 : Fin 2) * 128 + 1 * p.val = r.val; omega
  | ⟨1, _⟩ => show win1_2.index t (1 : Fin 2) * 256 + 1 * s.val = s.val; omega

theorem blk1_3_eq (c : Dev nD) (t : Fin cfg1.N) : (iblk1 V c 3 t : Vec Ideal S256x256 .f32) = WA2 V c := by
  have hf := idx_facts1 t
  funext y
  unfold iblk1
  rw [View.read_apply]
  show V c main_v45 _ = V c main_v45 _
  refine congrArg (V c main_v45) ?_
  funext a; apply Fin.ext
  match a with
  | ⟨0, _⟩ => show win1_3.index t (0 : Fin 2) * 256 + 1 * (y 0).val = (y 0).val; omega
  | ⟨1, _⟩ => show win1_3.index t (1 : Fin 2) * 256 + 1 * (y 1).val = (y 1).val; omega

theorem blk1_4_eq (c : Dev nD) (t : Fin cfg1.N) : (iblk1 V c 4 t : Vec Ideal S256x256 .f32) = WB2 V c := by
  have hf := idx_facts1 t
  funext y
  unfold iblk1
  rw [View.read_apply]
  show V c main_v46 _ = V c main_v46 _
  refine congrArg (V c main_v46) ?_
  funext a; apply Fin.ext
  match a with
  | ⟨0, _⟩ => show win1_4.index t (0 : Fin 2) * 256 + 1 * (y 0).val = (y 0).val; omega
  | ⟨1, _⟩ => show win1_4.index t (1 : Fin 2) * 256 + 1 * (y 1).val = (y 1).val; omega

theorem blk1_5_eq (c : Dev nD) (t : Fin cfg1.N) : (iblk1 V c 5 t : Vec Ideal S256x64 .f32) = W3m V c := by
  have hf := idx_facts1 t
  funext y
  unfold iblk1
  rw [View.read_apply]
  show V c main_arg10 _ = V c main_arg10 _
  refine congrArg (V c main_arg10) ?_
  funext a; apply Fin.ext
  match a with
  | ⟨0, _⟩ => show win1_5.index t (0 : Fin 2) * 256 + 1 * (y 0).val = (y 0).val; omega
  | ⟨1, _⟩ => show win1_5.index t (1 : Fin 2) * 64 + 1 * (y 1).val = (y 1).val; omega

theorem blk1_6_eq (c : Dev nD) (t : Fin cfg1.N) : (iblk1 V c 6 t : Vec Ideal S1x64 .f32) = B3R V c := by
  have hf := idx_facts1 t
  funext y
  unfold iblk1
  rw [View.read_apply]
  show V c main_v47 _ = V c main_v47 _
  refine congrArg (V c main_v47) ?_
  funext a; apply Fin.ext
  match a with
  | ⟨0, _⟩ => show win1_6.index t (0 : Fin 2) * 1 + 1 * (y 0).val = (y 0).val; omega
  | ⟨1, _⟩ => show win1_6.index t (1 : Fin 2) * 64 + 1 * (y 1).val = (y 1).val; omega

theorem blk1_7_eq (c : Dev nD) (t : Fin cfg1.N) : (iblk1 V c 7 t : Vec Ideal S64x64 .f32) = W4m V c := by
  have hf := idx_facts1 t
  funext y
  unfold iblk1
  rw [View.read_apply]
  show V c main_arg12 _ = V c main_arg12 _
  refine congrArg (V c main_arg12) ?_
  funext a; apply Fin.ext
  match a with
  | ⟨0, _⟩ => show win1_7.index t (0 : Fin 2) * 64 + 1 * (y 0).val = (y 0).val; omega
  | ⟨1, _⟩ => show win1_7.index t (1 : Fin 2) * 64 + 1 * (y 1).val = (y 1).val; omega

theorem blk1_8_eq (c : Dev nD) (t : Fin cfg1.N) : (iblk1 V c 8 t : Vec Ideal S1x64 .f32) = B4R V c := by
  have hf := idx_facts1 t
  funext y
  unfold iblk1
  rw [View.read_apply]
  show V c main_v48 _ = V c main_v48 _
  refine congrArg (V c main_v48) ?_
  funext a; apply Fin.ext
  match a with
  | ⟨0, _⟩ => show win1_8.index t (0 : Fin 2) * 1 + 1 * (y 0).val = (y 0).val; omega
  | ⟨1, _⟩ => show win1_8.index t (1 : Fin 2) * 64 + 1 * (y 1).val = (y 1).val; omega

theorem blk1_9_eq (c : Dev nD) (t : Fin cfg1.N) : (iblk1 V c 9 t : Vec Ideal S64x8 .f32) = W5m V c := by
  have hf := idx_facts1 t
  funext y
  unfold iblk1
  rw [View.read_apply]
  show V c main_arg14 _ = V c main_arg14 _
  refine congrArg (V c main_arg14) ?_
  funext a; apply Fin.ext
  match a with
  | ⟨0, _⟩ => show win1_9.index t (0 : Fin 2) * 64 + 1 * (y 0).val = (y 0).val; omega
  | ⟨1, _⟩ => show win1_9.index t (1 : Fin 2) * 8 + 1 * (y 1).val = (y 1).val; omega

theorem blk1_10_eq (c : Dev nD) (t : Fin cfg1.N) : (iblk1 V c 10 t : Vec Ideal S1x8 .f32) = B5R V c := by
  have hf := idx_facts1 t
  funext y
  unfold iblk1
  rw [View.read_apply]
  show V c main_v49 _ = V c main_v49 _
  refine congrArg (V c main_v49) ?_
  funext a; apply Fin.ext
  match a with
  | ⟨0, _⟩ => show win1_10.index t (0 : Fin 2) * 1 + 1 * (y 0).val = (y 0).val; omega
  | ⟨1, _⟩ => show win1_10.index t (1 : Fin 2) * 8 + 1 * (y 1).val = (y 1).val; omega

/-! ## What a point writes back, and the array -/

theorem flushed11_eq (c : Dev nD) (t : Fin cfg1.N) :
    (dat1 V c).flushed 11 t = ((cfg1.win 11).blk t).view.read (Elt Ideal) (OUT2 V c) := by
  have hN : t.val < 2 := lt_of_lt_of_eq t.isLt (show cfg1.N = 2 from N_1)
  have hf := idx_facts1 t
  show (cfg1.win 11).cut (grid1.coords t) ((dat1 V c).after 11 t) = _
  rw [after1_11]
  unfold out1_11
  rw [View.canon_unit_zero hz2']
  simp only [View.ld_unit_zero (S := S128x2816) hz2', View.ld_unit_zero (S := S2816x256) hz2', View.ld_unit_zero (S := S128x256) hz2', View.ld_unit_zero (S := S256x256) hz2', View.ld_unit_zero (S := S256x64) hz2', View.ld_unit_zero (S := S1x64) hz2', View.ld_unit_zero (S := S64x64) hz2', View.ld_unit_zero (S := S64x8) hz2', View.ld_unit_zero (S := S1x8) hz2']
  rw [blk1_1_eq V c t, blk1_3_eq V c t, blk1_4_eq V c t, blk1_5_eq V c t, blk1_6_eq V c t, blk1_7_eq V c t, blk1_8_eq V c t, blk1_9_eq V c t, blk1_10_eq V c t]
  funext y
  obtain ⟨p, q, rfl⟩ : ∃ (p : Fin 128) (q : Fin 8), y = ix2 p q := ⟨y 0, y 1, eq_ix2 y⟩
  have hr : 128 * t.val + p.val < 256 := by have := p.isLt; omega
  rw [View.read_apply]
  have hemb : ((cfg1.win 11).blk t).view.emb (ix2 p q) = ix2 (⟨128 * t.val + p.val, hr⟩ : Fin 256) q := by
    funext a; apply Fin.ext
    match a with
    | ⟨0, _⟩ => show win1_11.index t (0 : Fin 2) * 128 + 1 * p.val = 128 * t.val + p.val; omega
    | ⟨1, _⟩ => show win1_11.index t (1 : Fin 2) * 8 + 1 * q.val = q.val; omega
  rw [hemb]
  refine (Cert.KernelIdeal.Pay.head_apply _ _ _ _ _ _ _ _ _ _ _ p q).trans ?_
  exact Cert.Spec.head_congr _ (DM2 V c) (SRC2 V c) _ (DST2 V c) (WA2 V c) (WB2 V c) (W3m V c) _ (W4m V c) _ (W5m V c) _ p ⟨128 * t.val + p.val, hr⟩ q
    (fun s => blk1_0_apply V c t p s ⟨128 * t.val + p.val, hr⟩ rfl) (fun k => blk1_2_apply V c t p k ⟨128 * t.val + p.val, hr⟩ rfl)

theorem mem_blk11 (t : Fin cfg1.N) (i : S256x8.Idx) :
    i ∈ ((cfg1.win 11).blk t).view.set ↔ ∀ a : Fin 2, win1_11.index t a * S128x8.size a ≤ (i a).val ∧ (i a).val < win1_11.index t a * S128x8.size a + S128x8.size a := by
  show i ∈ ((View.whole main_v50).slice (win1_11.rect t)).set ↔ _
  rw [View.set_slice_whole, Rect.mem_set_unit]
  exact Iff.rfl

/-- THE ARRAY the second call leaves: the head of what it read. -/
theorem final11 (c : Dev nD) : (dat1 V c).arrAt 11 cfg1.N = OUT2 V c :=
  (dat1 V c).arrAt_eq_of_cover 11 (OUT2 V c) (fun t _ => flushed11_eq V c t) fun i => by
    have hi0 : (i 0).val < 256 := (i 0).isLt
    have hi1 : (i 1).val < 8 := (i 1).isLt
    have hN : cfg1.N = 2 := N_1
    let t : Fin cfg1.N := ⟨(i 0).val / 128, by rw [hN]; omega⟩
    have hf := idx_facts1 t
    have ht : t.val = (i 0).val / 128 := rfl
    refine ⟨t, flush1_11 t, ?_⟩
    rw [mem_blk11]
    intro a
    match a with
    | ⟨0, _⟩ => show win1_11.index t (0 : Fin 2) * 128 ≤ (i 0).val ∧ (i 0).val < win1_11.index t (0 : Fin 2) * 128 + 128; omega
    | ⟨1, _⟩ => show win1_11.index t (1 : Fin 2) * 8 ≤ (i 1).val ∧ (i 1).val < win1_11.index t (1 : Fin 2) * 8 + 8; omega

end Cert.KernelIdeal.Hand

end
-- ==== Proof.KernelIdeal.Result.lean ====
/- The kernel program's RESULT over the extended reals is the contract's function of the launch memory's argument
   arrays. Read backwards through the fold: the result buffer is what the second call leaves, the head of the arrays
   it finds; of those, four are arguments no stretch writes, two are rows of the first call's array taken at
   integer lists, two are the halves of a stacked weight matrix and three are bias vectors as rows; the first
   call's array is layer 1 of the arrays IT finds. -/
import proofs.«105755_j27273042329874_2_alg».proof.Proof.KernelIdeal.Stages
import proofs.«105755_j27273042329874_2_alg».proof.Proof.KernelIdeal.Layer1Value
import proofs.«105755_j27273042329874_2_alg».proof.Proof.KernelIdeal.Layer2Value

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic Idealize.ShloMosaic.ValueIdx
open Idealize.SL.Sem
open Idealize.ShloMosaic.Pipeline (Dat Cfg Window)
open Cert.Layer

variable (m : (ℓ : Loc nD τ sig) → Buf (Elt Ideal) ℓ) (ρ : Dev nD → PrngReg)

/-- The contract's function of the launch memory's argument arrays, as contents of the result buffer. -/
def specResult (c : Dev nD) : Buf (Elt Ideal) ((c.tc : Thread nD τ).loc main_v50) :=
  Cert.Spec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))

/-- The first call's array is layer 1 of the contract. -/
theorem h1_eq (c : Dev nD) : H1 (V1 m ρ) c
    = Cert.Spec.hidden1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) := by
  show Cert.Spec.layer (V1 m ρ c main_arg3) (V1 m ρ c main_v20) (V1 m ρ c main_v27) (V1 m ρ c main_v28) (V1 m ρ c main_v29) = _
  rw [st1_v20, st1_v27, st1_v28, st1_v29, keep1 m ρ c main_arg3 (by decide)]
  rfl

theorem w2_v30 (c : Dev nD) : (W2 m ρ c (Proc.devRef .tc main_v30) : Cert.Spec.Mat 2816 256)
    = Cert.Spec.hidden1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) :=
  ((W2_arr m ρ c 5).trans (final5 (V1 m ρ) c)).trans (h1_eq m ρ c)

theorem result_eq (c : Dev nD) : W4 m ρ c (Proc.devRef .tc main_v50) = specResult m c := by
  refine ((W4_arr m ρ c 11).trans (final11 (V3 m ρ) c)).trans ?_
  show Cert.Spec.head (V3 m ρ c main_arg6) (V3 m ρ c main_v37) (V3 m ρ c main_v44) (V3 m ρ c main_v45) (V3 m ρ c main_v46)
      (V3 m ρ c main_arg10) (Cert.KernelIdeal.Pay.rowVec (V3 m ρ c main_v47)) (V3 m ρ c main_arg12)
      (Cert.KernelIdeal.Pay.rowVec (V3 m ρ c main_v48)) (V3 m ρ c main_arg14) (Cert.KernelIdeal.Pay.rowVec (V3 m ρ c main_v49)) = _
  rw [st3_v37, st3_v44, w2_v30, st3_v45, st3_v46, st3_v47, st3_v48, st3_v49,
    keep3 m ρ c main_arg6 (by decide) (by decide) (by decide), keep3 m ρ c main_arg10 (by decide) (by decide) (by decide),
    keep3 m ρ c main_arg12 (by decide) (by decide) (by decide), keep3 m ρ c main_arg14 (by decide) (by decide) (by decide)]
  rfl

end Cert.KernelIdeal.Hand

end
-- ==== Proof.RefValue.lean ====
/-
  The reference program's result is the contract's function of the sixteen argument arrays.

  The reference takes rows of the feature table at the node list, then rows of those at the two integer lists of
  layer 1; it multiplies the 512-column concatenation of the diffused sources and the targets by the whole stacked
  weight matrix, where the contract multiplies the two halves by the matrix's upper and lower half and adds: a sum
  over 512 = 256 + 256 columns splits at 256. Layer 2 repeats that on rows of layer 1's result and clamps below at
  zero; the row sums of squares, the clamp at the small constant, the reciprocal square root and the three dense
  layers read entry by entry as the contract states them.
-/
import proofs.«105755_j27273042329874_2_alg».proof.Proof.Gen.ReferenceIdeal.Read
import proofs.«105755_j27273042329874_2_alg».proof.Proof.Spec
import proofs.«105755_j27273042329874_2_alg».proof.Proof.Gathers

noncomputable section

namespace Cert.RefValue

open Idealize.ShloMosaic Idealize.ShloMosaic.ValueIdx Cert.Spec Cert.Layer

/-! ## Sums over a contracted axis -/

/-- A rank-2 index with the given coordinates is `ix2` of them. -/
theorem idx_eq_ix2 {n0 n1 : ℕ} (j : (⟨2, ![n0, n1]⟩ : Shape).Idx) (a : Fin n0) (b : Fin n1)
    (h0 : (j 0).val = a.val) (h1 : (j 1).val = b.val) : j = ix2 a b := by
  funext d
  match d with
  | ⟨0, _⟩ => exact Fin.ext h0
  | ⟨1, _⟩ => exact Fin.ext h1

/-- A rank-1 index with the given coordinate is `ix1` of it. -/
theorem idx_eq_ix1 {n : ℕ} (j : (⟨1, ![n]⟩ : Shape).Idx) (a : Fin n) (h0 : (j 0).val = a.val) : j = ix1 a := by
  funext d
  match d with
  | ⟨0, _⟩ => exact Fin.ext h0

/-- A sum over the contracted axis of a left operand read along row `i 0` and a right operand read along column
    `i 1` is the plain product's entry. -/
theorem sum_eq_prod {A K B : ℕ} (a : Mat A K) (w : Mat K B) (i : (⟨2, ![A, B]⟩ : Shape).Idx)
    (l : Fin K → (⟨2, ![A, K]⟩ : Shape).Idx) (r : Fin K → (⟨2, ![K, B]⟩ : Shape).Idx)
    (hl0 : ∀ k, ((l k) 0).val = (i 0).val) (hl1 : ∀ k, ((l k) 1).val = k.val)
    (hr0 : ∀ k, ((r k) 0).val = k.val) (hr1 : ∀ k, ((r k) 1).val = (i 1).val) :
    ∑ k : Fin K, a (l k) * w (r k) = prod a w i := by
  show _ = ∑ k : Fin K, a (ix2 (i 0) k) * w (ix2 k (i 1))
  refine Finset.sum_congr rfl fun k _ => ?_
  rw [idx_eq_ix2 (l k) (i 0) k (hl0 k) (hl1 k), idx_eq_ix2 (r k) k (i 1) (hr0 k) (hr1 k)]

/-! ## The one real law: a product with a stacked weight matrix splits -/

/-- The 512-column concatenation `[A, B]` times the whole stacked matrix is `A` times its upper half plus `B` times
    its lower half. -/
theorem cat_dot {R : ℕ} (A B : Mat R 256) (w : Mat 512 256)
    (hc : Shape.Concatenates [(⟨2, ![R, 256]⟩ : Shape), ⟨2, ![R, 256]⟩] ⟨2, ![R, 512]⟩ 1)
    (r : Fin R) (q : Fin 256) :
    ∑ k : Fin 512, concatenate ⟨2, ![R, 512]⟩ 1 [⟨⟨2, ![R, 256]⟩, A⟩, ⟨⟨2, ![R, 256]⟩, B⟩] hc (ix2 r k) * w (ix2 k q)
      = prod A (top w) (ix2 r q) + prod B (bot w) (ix2 r q) := by
  refine (Fin.sum_univ_add (fun k : Fin (256 + 256) =>
    concatenate ⟨2, ![R, 512]⟩ 1 [⟨⟨2, ![R, 256]⟩, A⟩, ⟨⟨2, ![R, 256]⟩, B⟩] hc (ix2 r k) * w (ix2 k q))).trans ?_
  refine congrArg₂ (· + ·) (Finset.sum_congr rfl fun j _ => ?_) (Finset.sum_congr rfl fun j _ => ?_)
  · show concatenate ⟨2, ![R, 512]⟩ 1 [⟨⟨2, ![R, 256]⟩, A⟩, ⟨⟨2, ![R, 256]⟩, B⟩] hc (ix2 r (Fin.castAdd 256 j))
        * w (ix2 (Fin.castAdd 256 j) q) = A (ix2 r j) * w (ix2 ⟨j.val, _⟩ q)
    rw [concatenate_pair_apply_left (1 : Fin 2) A B hc (ix2 r (Fin.castAdd 256 j)) rfl (ix2 r j)
      (fun b => by match b with | ⟨0, _⟩ => rfl | ⟨1, _⟩ => rfl)]
    rfl
  · show concatenate ⟨2, ![R, 512]⟩ 1 [⟨⟨2, ![R, 256]⟩, A⟩, ⟨⟨2, ![R, 256]⟩, B⟩] hc (ix2 r (Fin.natAdd 256 j))
        * w (ix2 (Fin.natAdd 256 j) q) = B (ix2 r j) * w (ix2 ⟨256 + j.val, _⟩ q)
    rw [concatenate_pair_apply_right (1 : Fin 2) A B hc (ix2 r (Fin.natAdd 256 j)) rfl rfl (ix2 r j)
      (fun b hb => by
        match b with
        | ⟨0, _⟩ => rfl
        | ⟨1, _⟩ => exact absurd rfl hb)
      (Nat.add_comm _ _)]
    rfl

/-! ## The reference program, stage by stage -/

section Stages

open Cert.ReferenceIdeal Cert.ReferenceIdeal.Gen Cert.ReferenceIdeal.Read Cert.Gathers Idealize.ShloMosaic.TcCoe Idealize.SL.Sem

variable (x0 x1 : IL 73216) (x2 : IL 2816) (x3 : Mat 2816 73216) (x4 : IL 2816) (x5 : IL 256) (x6 : Mat 256 2816)
  (x7 : Mat 200000 256) (x8 x9 : Mat 512 256) (x10 : Mat 256 64) (x11 : Vc 64) (x12 : Mat 64 64) (x13 : Vc 64)
  (x14 : Mat 64 8) (x15 : Vc 8)

/-- The feature rows at the node list. -/
theorem v6_eq : val_main_v6 (F := Ideal) x0 x7 = takeRows (by decide) x7 x0 := by
  show Host.gather gather_S200000x256_S73216x1_S73216x256_1_0_n_n_0_1_1256 x7
    (col 200000 bcast_S_S73216 bcast_S73216_S73216x1_0 x0) = _
  exact row_gather_col (by decide) _ rfl rfl rfl rfl rfl rfl rfl _ _ x7 x0

/-- The sources of layer 1. -/
theorem v13_eq : val_main_v13 (F := Ideal) x0 x1 x7 = takeRows (by decide) (takeRows (by decide) x7 x0) x1 := by
  show Host.gather gather_S73216x256_S73216x1_S73216x256_1_0_n_n_0_1_1256 (val_main_v6 (F := Ideal) x0 x7)
    (col 73216 bcast_S_S73216 bcast_S73216_S73216x1_0 x1) = _
  rw [v6_eq]
  exact row_gather_col (by decide) _ rfl rfl rfl rfl rfl rfl rfl _ _ _ x1

/-- The targets of layer 1. -/
theorem v20_eq : val_main_v20 (F := Ideal) x0 x2 x7 = takeRows (by decide) (takeRows (by decide) x7 x0) x2 := by
  show Host.gather gather_S73216x256_S2816x1_S2816x256_1_0_n_n_0_1_1256 (val_main_v6 (F := Ideal) x0 x7)
    (col 73216 bcast_S_S2816 bcast_S2816_S2816x1_0 x2) = _
  rw [v6_eq]
  exact row_gather_col (by decide) _ rfl rfl rfl rfl rfl rfl rfl _ _ _ x2

/-- The diffused sources of layer 1. -/
theorem v21_eq : val_main_v21 (F := Ideal) x0 x1 x3 x7 = prod x3 (val_main_v13 (F := Ideal) x0 x1 x7) := by
  funext i
  exact (val_main_v21_apply x0 x1 x3 x7 i).trans
    (sum_eq_prod x3 _ i _ _ (fun _ => rfl) (fun _ => rfl) (fun _ => rfl) (fun _ => rfl))

/-- Layer 1. -/
theorem v23_eq : val_main_v23 (F := Ideal) x0 x1 x2 x3 x7 x8 = hidden1 x0 x1 x2 x3 x7 x8 := by
  funext i
  obtain ⟨r, q, rfl⟩ : ∃ r q, i = ix2 r q := ⟨i 0, i 1, eq_ix2 i⟩
  refine (val_main_v23_apply x0 x1 x2 x3 x7 x8 (ix2 r q)).trans ?_
  have e : ∀ k : Fin 512, val_main_v22 (F := Ideal) x0 x1 x2 x3 x7 (lidx_main_v23 (ix2 r q) k) * x8 (ridx_main_v23 (ix2 r q) k)
      = concatenate S2816x512 1 [⟨S2816x256, val_main_v21 (F := Ideal) x0 x1 x3 x7⟩, ⟨S2816x256, val_main_v20 (F := Ideal) x0 x2 x7⟩]
          concatenates_S2816x256_S2816x256_S2816x512_d1 (ix2 r k) * x8 (ix2 k q) := fun k => by
    rw [idx_eq_ix2 (lidx_main_v23 (ix2 r q) k) r k rfl rfl, idx_eq_ix2 (ridx_main_v23 (ix2 r q) k) k q rfl rfl]
    rfl
  refine (Finset.sum_congr rfl fun k _ => e k).trans ?_
  refine (cat_dot _ _ x8 _ r q).trans ?_
  rw [v21_eq, v13_eq, v20_eq]
  rfl

/-- The sources of layer 2. -/
theorem v30_eq : val_main_v30 (F := Ideal) x0 x1 x2 x3 x4 x7 x8 = takeRows (by decide) (hidden1 x0 x1 x2 x3 x7 x8) x4 := by
  show Host.gather gather_S2816x256_S2816x1_S2816x256_1_0_n_n_0_1_1256 (val_main_v23 (F := Ideal) x0 x1 x2 x3 x7 x8)
    (col 2816 bcast_S_S2816 bcast_S2816_S2816x1_0 x4) = _
  rw [v23_eq]
  exact row_gather_col (by decide) _ rfl rfl rfl rfl rfl rfl rfl _ _ _ x4

/-- The targets of layer 2. -/
theorem v37_eq : val_main_v37 (F := Ideal) x0 x1 x2 x3 x5 x7 x8 = takeRows (by decide) (hidden1 x0 x1 x2 x3 x7 x8) x5 := by
  show Host.gather gather_S2816x256_S256x1_S256x256_1_0_n_n_0_1_1256 (val_main_v23 (F := Ideal) x0 x1 x2 x3 x7 x8)
    (col 2816 bcast_S_S256 bcast_S256_S256x1_0 x5) = _
  rw [v23_eq]
  exact row_gather_col (by decide) _ rfl rfl rfl rfl rfl rfl rfl _ _ _ x5

/-- The diffused sources of layer 2. -/
theorem v38_eq : val_main_v38 (F := Ideal) x0 x1 x2 x3 x4 x6 x7 x8 = prod x6 (val_main_v30 (F := Ideal) x0 x1 x2 x3 x4 x7 x8) := by
  funext i
  exact (val_main_v38_apply x0 x1 x2 x3 x4 x6 x7 x8 i).trans
    (sum_eq_prod x6 _ i _ _ (fun _ => rfl) (fun _ => rfl) (fun _ => rfl) (fun _ => rfl))

/-- Layer 2 before the clamp. -/
theorem v40_eq : val_main_v40 (F := Ideal) x0 x1 x2 x3 x4 x5 x6 x7 x8 x9
    = layer x6 (takeRows (by decide) (hidden1 x0 x1 x2 x3 x7 x8) x4) (takeRows (by decide) (hidden1 x0 x1 x2 x3 x7 x8) x5)
        (top x9) (bot x9) := by
  funext i
  obtain ⟨r, q, rfl⟩ : ∃ r q, i = ix2 r q := ⟨i 0, i 1, eq_ix2 i⟩
  refine (val_main_v40_apply x0 x1 x2 x3 x4 x5 x6 x7 x8 x9 (ix2 r q)).trans ?_
  have e : ∀ k : Fin 512, val_main_v39 (F := Ideal) x0 x1 x2 x3 x4 x5 x6 x7 x8 (lidx_main_v40 (ix2 r q) k) * x9 (ridx_main_v40 (ix2 r q) k)
      = concatenate S256x512 1 [⟨S256x256, val_main_v38 (F := Ideal) x0 x1 x2 x3 x4 x6 x7 x8⟩, ⟨S256x256, val_main_v37 (F := Ideal) x0 x1 x2 x3 x5 x7 x8⟩]
          concatenates_S256x256_S256x256_S256x512_d1 (ix2 r k) * x9 (ix2 k q) := fun k => by
    rw [idx_eq_ix2 (lidx_main_v40 (ix2 r q) k) r k rfl rfl, idx_eq_ix2 (ridx_main_v40 (ix2 r q) k) k q rfl rfl]
    rfl
  refine (Finset.sum_congr rfl fun k _ => e k).trans ?_
  refine (cat_dot _ _ x9 _ r q).trans ?_
  rw [v38_eq, v30_eq, v37_eq]
  rfl

/-- Layer 2. -/
theorem v41_eq : val_main_v41 (F := Ideal) x0 x1 x2 x3 x4 x5 x6 x7 x8 x9 = relu (val_main_v40 (F := Ideal) x0 x1 x2 x3 x4 x5 x6 x7 x8 x9) := by
  funext i
  show max (val_main_v40 (F := Ideal) x0 x1 x2 x3 x4 x5 x6 x7 x8 x9 i) (val_main_call0_v0 (F := Ideal) i)
    = max (val_main_v40 (F := Ideal) x0 x1 x2 x3 x4 x5 x6 x7 x8 x9 i) 0
  rw [val_main_call0_v0_apply, val_main_call0_cst_apply]
  exact congrArg (max _) Ideal.ofBits_zero_f32

/-- A row's sum of squares, as the reference sums it. -/
theorem v43_apply_row (r : Fin 256) :
    val_main_v43 (F := Ideal) x0 x1 x2 x3 x4 x5 x6 x7 x8 x9 (ix1 r) = rowSq (val_main_v41 (F := Ideal) x0 x1 x2 x3 x4 x5 x6 x7 x8 x9) r := by
  rw [val_main_v43_apply]
  show Ideal.ofBits .f32 0x00000000#32 + _ = _
  rw [Ideal.ofBits_zero_f32, zero_add]
  refine Finset.sum_congr rfl fun k _ => ?_
  rw [idx_eq_ix2 (idx_main_v43 (ix1 r) k) r k rfl rfl]
  rfl

/-- The normalised rows. -/
theorem v49_eq : val_main_v49 (F := Ideal) x0 x1 x2 x3 x4 x5 x6 x7 x8 x9 = normalize (val_main_v41 (F := Ideal) x0 x1 x2 x3 x4 x5 x6 x7 x8 x9) := by
  funext i
  obtain ⟨r, q, rfl⟩ : ∃ r q, i = ix2 r q := ⟨i 0, i 1, eq_ix2 i⟩
  show val_main_v41 (F := Ideal) x0 x1 x2 x3 x4 x5 x6 x7 x8 x9 (ix2 r q) * val_main_v48 (F := Ideal) x0 x1 x2 x3 x4 x5 x6 x7 x8 x9 (ix2 r q)
    = val_main_v41 (F := Ideal) x0 x1 x2 x3 x4 x5 x6 x7 x8 x9 (ix2 r q) * Ideal.rsqrt (max (rowSq (val_main_v41 (F := Ideal) x0 x1 x2 x3 x4 x5 x6 x7 x8 x9) r) eps)
  refine congrArg (val_main_v41 (F := Ideal) x0 x1 x2 x3 x4 x5 x6 x7 x8 x9 (ix2 r q) * ·) ?_
  rw [val_main_v48_apply]
  show Ideal.rsqrt (max (val_main_v44 (F := Ideal) x0 x1 x2 x3 x4 x5 x6 x7 x8 x9 (idx_main_v48 (ix2 r q))) (val_main_v45 (F := Ideal) (idx_main_v48 (ix2 r q)))) = _
  rw [val_main_v44_apply, val_main_v45_apply, val_main_cst_9_apply,
    idx_eq_ix1 (idx_main_v44 (idx_main_v48 (ix2 r q))) r rfl, v43_apply_row]
  rfl

/-- The first dense layer. -/
theorem v54_eq : val_main_v54 (F := Ideal) x0 x1 x2 x3 x4 x5 x6 x7 x8 x9 x10 x11
    = relu (addRow (prod (val_main_v49 (F := Ideal) x0 x1 x2 x3 x4 x5 x6 x7 x8 x9) x10) x11) := by
  funext i
  obtain ⟨r, q, rfl⟩ : ∃ r q, i = ix2 r q := ⟨i 0, i 1, eq_ix2 i⟩
  show max (val_main_v50 (F := Ideal) x0 x1 x2 x3 x4 x5 x6 x7 x8 x9 x10 (ix2 r q) + val_main_v52 (F := Ideal) x11 (ix2 r q))
      (val_main_call1_v0 (F := Ideal) (ix2 r q))
    = max (prod (val_main_v49 (F := Ideal) x0 x1 x2 x3 x4 x5 x6 x7 x8 x9) x10 (ix2 r q) + x11 (ix1 q)) 0
  rw [val_main_call1_v0_apply, val_main_call1_cst_apply, val_main_v52_apply, val_main_v51_apply,
    idx_eq_ix1 (idx_main_v51 (idx_main_v52 (ix2 r q))) q rfl, val_main_v50_apply,
    sum_eq_prod (val_main_v49 (F := Ideal) x0 x1 x2 x3 x4 x5 x6 x7 x8 x9) x10 (ix2 r q) (lidx_main_v50 (ix2 r q)) (ridx_main_v50 (ix2 r q))
      (fun _ => rfl) (fun _ => rfl) (fun _ => rfl) (fun _ => rfl)]
  exact congrArg (max _) Ideal.ofBits_zero_f32

/-- The second dense layer. -/
theorem v59_eq : val_main_v59 (F := Ideal) x0 x1 x2 x3 x4 x5 x6 x7 x8 x9 x10 x11 x12 x13
    = relu (addRow (prod (val_main_v54 (F := Ideal) x0 x1 x2 x3 x4 x5 x6 x7 x8 x9 x10 x11) x12) x13) := by
  funext i
  obtain ⟨r, q, rfl⟩ : ∃ r q, i = ix2 r q := ⟨i 0, i 1, eq_ix2 i⟩
  show max (val_main_v55 (F := Ideal) x0 x1 x2 x3 x4 x5 x6 x7 x8 x9 x10 x11 x12 (ix2 r q) + val_main_v57 (F := Ideal) x13 (ix2 r q))
      (val_main_call2_v0 (F := Ideal) (ix2 r q))
    = max (prod (val_main_v54 (F := Ideal) x0 x1 x2 x3 x4 x5 x6 x7 x8 x9 x10 x11) x12 (ix2 r q) + x13 (ix1 q)) 0
  rw [val_main_call2_v0_apply, val_main_call2_cst_apply, val_main_v57_apply, val_main_v56_apply,
    idx_eq_ix1 (idx_main_v56 (idx_main_v57 (ix2 r q))) q rfl, val_main_v55_apply,
    sum_eq_prod (val_main_v54 (F := Ideal) x0 x1 x2 x3 x4 x5 x6 x7 x8 x9 x10 x11) x12 (ix2 r q) (lidx_main_v55 (ix2 r q)) (ridx_main_v55 (ix2 r q))
      (fun _ => rfl) (fun _ => rfl) (fun _ => rfl) (fun _ => rfl)]
  exact congrArg (max _) Ideal.ofBits_zero_f32

/-- The third dense layer. -/
theorem v63_eq : val_main_v63 (F := Ideal) x0 x1 x2 x3 x4 x5 x6 x7 x8 x9 x10 x11 x12 x13 x14 x15
    = addRow (prod (val_main_v59 (F := Ideal) x0 x1 x2 x3 x4 x5 x6 x7 x8 x9 x10 x11 x12 x13) x14) x15 := by
  funext i
  obtain ⟨r, q, rfl⟩ : ∃ r q, i = ix2 r q := ⟨i 0, i 1, eq_ix2 i⟩
  show val_main_v60 (F := Ideal) x0 x1 x2 x3 x4 x5 x6 x7 x8 x9 x10 x11 x12 x13 x14 (ix2 r q) + val_main_v62 (F := Ideal) x15 (ix2 r q)
    = prod (val_main_v59 (F := Ideal) x0 x1 x2 x3 x4 x5 x6 x7 x8 x9 x10 x11 x12 x13) x14 (ix2 r q) + x15 (ix1 q)
  rw [val_main_v62_apply, val_main_v61_apply, idx_eq_ix1 (idx_main_v61 (idx_main_v62 (ix2 r q))) q rfl, val_main_v60_apply,
    sum_eq_prod (val_main_v59 (F := Ideal) x0 x1 x2 x3 x4 x5 x6 x7 x8 x9 x10 x11 x12 x13) x14 (ix2 r q) (lidx_main_v60 (ix2 r q)) (ridx_main_v60 (ix2 r q))
      (fun _ => rfl) (fun _ => rfl) (fun _ => rfl) (fun _ => rfl)]

/-- THE REFERENCE IS THE CONTRACT, as a function of the sixteen argument arrays. -/
theorem val_eq_result : val_main_v63 (F := Ideal) x0 x1 x2 x3 x4 x5 x6 x7 x8 x9 x10 x11 x12 x13 x14 x15
    = result x0 x1 x2 x3 x4 x5 x6 x7 x8 x9 x10 x11 x12 x13 x14 x15 := by
  rw [v63_eq, v59_eq, v54_eq, v49_eq, v41_eq, v40_eq]
  rfl

end Stages

open Cert.ReferenceIdeal Idealize.ShloMosaic.TcCoe Idealize.SL.Sem in
/-- The run's result term is the contract's function of the arguments' launch contents. -/
theorem ref_eq (m : (ℓ : Loc nD τ sig) → Buf (Elt Ideal) ℓ) (c : Dev nD) :
    Cert.ReferenceIdeal.Value.res_main_v63 m c
      = Cert.Spec.result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) (m ((c.tc : Thread nD τ).loc main_arg13))
          (m ((c.tc : Thread nD τ).loc main_arg14)) (m ((c.tc : Thread nD τ).loc main_arg15)) :=
  (Cert.ReferenceIdeal.Read.val_main_v63_eq m c).trans (val_eq_result _ _ _ _ _ _ _ _ _ _ _ _ _ _ _ _)

end Cert.RefValue

end
-- ==== Proof.lean ====
/-
  A two-layer graph aggregation with a three-layer head, as a tiled kernel program, against its plain reference:
  both compute ONE function of the sixteen argument arrays over the extended reals (the contract, Proof/Spec.lean).

  The kernel program is two stretches of host operations around two pallas_calls. Its run is assembled from the two
  calls' bodies run point by point (Proof/<Program>/Layer1*.lean, Layer2Body.lean, RunAll.lean): every weakly fair
  execution terminates with every buffer at the contents a fold through the program gives it; the arguments are
  never written (the three frames), and the result buffer holds the contract's function (Proof/KernelIdeal/Result.lean:
  the first call accumulates 44 reduction tiles into layer 1, the host takes rows of it, the second call applies the
  head row block by row block). The reference's run is its generated run, and its result term is the contract's
  function too (Proof/RefValue.lean): the one law between the two sides is that a product with a stacked weight
  matrix over a concatenation splits into the sum of the two halves' products. No rewrite was made by the ideal pass.
-/
import proofs.«105755_j27273042329874_2_alg».proof.Defs
import proofs.«105755_j27273042329874_2_alg».proof.Proof.Gen.Kernel
import proofs.«105755_j27273042329874_2_alg».proof.Proof.Gen.KernelIdeal
import proofs.«105755_j27273042329874_2_alg».proof.Proof.Gen.ReferenceIdeal
import proofs.«105755_j27273042329874_2_alg».proof.Proof.Gen.Pre_finite_inputs
import proofs.«105755_j27273042329874_2_alg».proof.Proof.Kernel.RunAll
import proofs.«105755_j27273042329874_2_alg».proof.Proof.KernelIdeal.Result
import proofs.«105755_j27273042329874_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs, run from memories that agree on the arguments, end with the contract's function of the
    arguments in their result buffers. -/
theorem algebraic : Cert.algebraic_KernelIdeal_ReferenceIdeal := by
  intro m ρ m' ρ' _ hagree
  refine ⟨fun c => Cert.KernelIdeal.Hand.specResult m c, ?_, ?_⟩
  · refine (θ_run Cert.KernelIdeal.defs _ _).mono (fun r h c => ⟨?_, ?_⟩) (Cert.KernelIdeal.Hand.run_all m ρ)
    · exact (h c _ (Cert.KernelIdeal.Hand.mem_uc Cert.KernelIdeal.main_v50 (by decide))).trans (Cert.KernelIdeal.Hand.result_eq m ρ c)
    · exact ⟨(h c _ (Cert.KernelIdeal.Hand.mem_uc Cert.KernelIdeal.main_arg0 (by decide))).trans (Cert.KernelIdeal.Hand.W4_main_arg0 m ρ c),
        (h c _ (Cert.KernelIdeal.Hand.mem_uc Cert.KernelIdeal.main_arg1 (by decide))).trans (Cert.KernelIdeal.Hand.W4_main_arg1 m ρ c),
        (h c _ (Cert.KernelIdeal.Hand.mem_uc Cert.KernelIdeal.main_arg2 (by decide))).trans (Cert.KernelIdeal.Hand.W4_main_arg2 m ρ c),
        (h c _ (Cert.KernelIdeal.Hand.mem_uc Cert.KernelIdeal.main_arg3 (by decide))).trans (Cert.KernelIdeal.Hand.W4_main_arg3 m ρ c),
        (h c _ (Cert.KernelIdeal.Hand.mem_uc Cert.KernelIdeal.main_arg4 (by decide))).trans (Cert.KernelIdeal.Hand.W4_main_arg4 m ρ c),
        (h c _ (Cert.KernelIdeal.Hand.mem_uc Cert.KernelIdeal.main_arg5 (by decide))).trans (Cert.KernelIdeal.Hand.W4_main_arg5 m ρ c),
        (h c _ (Cert.KernelIdeal.Hand.mem_uc Cert.KernelIdeal.main_arg6 (by decide))).trans (Cert.KernelIdeal.Hand.W4_main_arg6 m ρ c),
        (h c _ (Cert.KernelIdeal.Hand.mem_uc Cert.KernelIdeal.main_arg7 (by decide))).trans (Cert.KernelIdeal.Hand.W4_main_arg7 m ρ c),
        (h c _ (Cert.KernelIdeal.Hand.mem_uc Cert.KernelIdeal.main_arg8 (by decide))).trans (Cert.KernelIdeal.Hand.W4_main_arg8 m ρ c),
        (h c _ (Cert.KernelIdeal.Hand.mem_uc Cert.KernelIdeal.main_arg9 (by decide))).trans (Cert.KernelIdeal.Hand.W4_main_arg9 m ρ c),
        (h c _ (Cert.KernelIdeal.Hand.mem_uc Cert.KernelIdeal.main_arg10 (by decide))).trans (Cert.KernelIdeal.Hand.W4_main_arg10 m ρ c),
        (h c _ (Cert.KernelIdeal.Hand.mem_uc Cert.KernelIdeal.main_arg11 (by decide))).trans (Cert.KernelIdeal.Hand.W4_main_arg11 m ρ c),
        (h c _ (Cert.KernelIdeal.Hand.mem_uc Cert.KernelIdeal.main_arg12 (by decide))).trans (Cert.KernelIdeal.Hand.W4_main_arg12 m ρ c),
        (h c _ (Cert.KernelIdeal.Hand.mem_uc Cert.KernelIdeal.main_arg13 (by decide))).trans (Cert.KernelIdeal.Hand.W4_main_arg13 m ρ c),
        (h c _ (Cert.KernelIdeal.Hand.mem_uc Cert.KernelIdeal.main_arg14 (by decide))).trans (Cert.KernelIdeal.Hand.W4_main_arg14 m ρ c),
        (h c _ (Cert.KernelIdeal.Hand.mem_uc Cert.KernelIdeal.main_arg15 (by decide))).trans (Cert.KernelIdeal.Hand.W4_main_arg15 m ρ c)⟩
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15⟩ := hagree c
    rw [Cert.RefValue.ref_eq m' c, e0, e1, e2, e3, e4, e5, e6, e7, e8, e9, e10, e11, e12, e13, e14, e15]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
